-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384 : Shape := ⟨1, ![16384]⟩
abbrev S1000000x64 : Shape := ⟨2, ![1000000, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384 32) (main_arg1 : FVec F S1000000x64 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_c_0 : IVec S_ 32 := constantI S_ 32 0#32
  let main_v4 : IVec S16384 32 := broadcastInDim S16384 ![] bcast_S_S16384 main_c_0
  let main_v5 : IVec S16384 1 := cmpi .sge main_arg0 main_v4
  let main_c_1 : IVec S_ 32 := constantI S_ 32 999999#32
  let main_v6 : IVec S16384 32 := broadcastInDim S16384 ![] bcast_S_S16384 main_c_1
  let main_v7 : IVec S16384 1 := cmpi .sle main_arg0 main_v6
  let main_v8 : IVec S16384 1 := andi main_v5 main_v7
  let main_c_2 : IVec S_ 1 := constantI S_ 1 1#1
  let main_v9 : IVec S_ 1 := (fun x v => Host.reduce IntOp.andi x v reducesTo_S16384_S_d0 h_S_) main_v8 main_c_2
  let main_v10 : IVec S_ 1 := andi main_v3 main_v9
  main_v10
-- ==== Kernel.lean ====
abbrev S16384 : Shape := ⟨1, ![16384]⟩
abbrev S1000000x64 : Shape := ⟨2, ![1000000, 64]⟩
abbrev S16384x64 : Shape := ⟨2, ![16384, 64]⟩
abbrev S512 : Shape := ⟨1, ![512]⟩
abbrev S512x64 : Shape := ⟨2, ![512, 64]⟩
abbrev S_ : Shape := ⟨0, ![]⟩
abbrev S16 : Shape := ⟨1, ![16]⟩
abbrev S1 : Shape := ⟨1, ![1]⟩
abbrev S1x64 : Shape := ⟨2, ![1, 64]⟩
abbrev S64 : Shape := ⟨1, ![64]⟩

abbrev nBuf : Table → Nat
  | .hbm => 3
  | .local .scVector .vmem => 2
  | _ => 0

abbrev bufTy : (tb : Table) → Fin (nBuf tb) → BufTy
  | .hbm, ⟨0, _⟩ => ⟨S16384, .i32⟩
  | .hbm, ⟨1, _⟩ => ⟨S1000000x64, .f32⟩
  | .hbm, ⟨2, _⟩ => ⟨S16384x64, .f32⟩
  | .local .scVector .vmem, ⟨0, _⟩ => ⟨S512, .i32⟩
  | .local .scVector .vmem, ⟨1, _⟩ => ⟨S512x64, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off2 (k0_t1 : Fin k0_t1_loop.trips) : Fin 1 → Nat :=
  let c0_i32_0 : BitVec 32 := 0#32
  let c1_i32 : BitVec 32 := 1#32
  let arg8 : BitVec 32 := Scf.iv c0_i32_0 c1_i32 k0_t1
  let c16_i32 : BitVec 32 := 16#32
  let v5 : BitVec 32 := Scalar.muli arg8 c16_i32
  let v6 : Index := Scalar.indexCast v5
  ![v6.toNat]
def k0_off3 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let c16_i32_7 : BitVec 32 := 16#32
  let v11 : BitVec 32 := Scalar.muli arg8 c16_i32_7
  let c0_i32_8 : BitVec 32 := 0#32
  let v12 : BitVec 32 := Scalar.addi v11 c0_i32_8
  let c0_i32_9 : BitVec 32 := 0#32
  ![v12.toNat, 0]
def k0_off4 (v10 : BitVec 32) : Fin 2 → Nat :=
  let c0_i32_10 : BitVec 32 := 0#32
  ![v10.toNat, 0]

def k0_chk1 (v10 : BitVec 32) : Prop :=
  (∀ a, (k0_off4 v10) a + S1x64.size a ≤ S1000000x64.size a)
instance k0_chk1.dec : ∀ (v10 : BitVec 32), Decidable (k0_chk1 v10) := fun v10 => decidable_of_iff' _ (Iff.of_eq (k0_chk1.eq_1 v10))
theorem k0_off4_inb : ∀ (v10 : BitVec 32) (k0_hw1 : k0_chk1 v10), ∀ a, (k0_off4 v10) a + S1x64.size a ≤ S1000000x64.size a := fun v10 k0_hw1 => k0_hw1

def k0_off5 (k0_t1 : Fin k0_t1_loop.trips) (c0_i32_8 : BitVec 32) : Fin 2 → Nat :=
  let c0_i32_0 : BitVec 32 := 0#32
  let c1_i32 : BitVec 32 := 1#32
  let arg8 : BitVec 32 := Scf.iv c0_i32_0 c1_i32 k0_t1
  let c16_i32_7 : BitVec 32 := 16#32
  let v11 : BitVec 32 := Scalar.muli arg8 c16_i32_7
  let v12 : BitVec 32 := Scalar.addi v11 c0_i32_8
  let c0_i32_11 : BitVec 32 := 0#32
  ![v12.toNat, 0]
def k0_off6 (v22 : BitVec 32) : Fin 2 → Nat :=
  let c0_i32_16 : BitVec 32 := 0#32
  ![v22.toNat, 0]

def k0_chk2 (v22 : BitVec 32) : Prop :=
  (∀ a, (k0_off6 v22) a + S1x64.size a ≤ S1000000x64.size a)
instance k0_chk2.dec : ∀ (v22 : BitVec 32), Decidable (k0_chk2 v22) := fun v22 => decidable_of_iff' _ (Iff.of_eq (k0_chk2.eq_1 v22))
theorem k0_off6_inb : ∀ (v22 : BitVec 32) (k0_hw2 : k0_chk2 v22), ∀ a, (k0_off6 v22) a + S1x64.size a ≤ S1000000x64.size a := fun v22 k0_hw2 => k0_hw2

def k0_off7 (k0_t1 : Fin k0_t1_loop.trips) (c1_i32_14 : BitVec 32) : Fin 2 → Nat :=
  let c0_i32_0 : BitVec 32 := 0#32
  let c1_i32 : BitVec 32 := 1#32
  let arg8 : BitVec 32 := Scf.iv c0_i32_0 c1_i32 k0_t1
  let c16_i32_13 : BitVec 32 := 16#32
  let v23 : BitVec 32 := Scalar.muli arg8 c16_i32_13
  let v24 : BitVec 32 := Scalar.addi v23 c1_i32_14
  let c0_i32_17 : BitVec 32 := 0#32
  ![v24.toNat, 0]
def k0_off8 (v34 : BitVec 32) : Fin 2 → Nat :=
  let c0_i32_22 : BitVec 32 := 0#32
  ![v34.toNat, 0]

def k0_chk3 (v34 : BitVec 32) : Prop :=
  (∀ a, (k0_off8 v34) a + S1x64.size a ≤ S1000000x64.size a)
instance k0_chk3.dec : ∀ (v34 : BitVec 32), Decidable (k0_chk3 v34) := fun v34 => decidable_of_iff' _ (Iff.of_eq (k0_chk3.eq_1 v34))
theorem k0_off8_inb : ∀ (v34 : BitVec 32) (k0_hw3 : k0_chk3 v34), ∀ a, (k0_off8 v34) a + S1x64.size a ≤ S1000000x64.size a := fun v34 k0_hw3 => k0_hw3

def k0_off9 (k0_t1 : Fin k0_t1_loop.trips) (c2_i32_20 : BitVec 32) : Fin 2 → Nat :=
  let c0_i32_0 : BitVec 32 := 0#32
  let c1_i32 : BitVec 32 := 1#32
  let arg8 : BitVec 32 := Scf.iv c0_i32_0 c1_i32 k0_t1
  let c16_i32_19 : BitVec 32 := 16#32
  let v35 : BitVec 32 := Scalar.muli arg8 c16_i32_19
  let v36 : BitVec 32 := Scalar.addi v35 c2_i32_20
  let c0_i32_23 : BitVec 32 := 0#32
  ![v36.toNat, 0]
def k0_off10 (v46 : BitVec 32) : Fin 2 → Nat :=
  let c0_i32_27 : BitVec 32 := 0#32
  ![v46.toNat, 0]

def k0_chk4 (v46 : BitVec 32) : Prop :=
  (∀ a, (k0_off10 v46) a + S1x64.size a ≤ S1000000x64.size a)
instance k0_chk4.dec : ∀ (v46 : BitVec 32), Decidable (k0_chk4 v46) := fun v46 => decidable_of_iff' _ (Iff.of_eq (k0_chk4.eq_1 v46))
theorem k0_off10_inb : ∀ (v46 : BitVec 32) (k0_hw4 : k0_chk4 v46), ∀ a, (k0_off10 v46) a + S1x64.size a ≤ S1000000x64.size a := fun v46 k0_hw4 => k0_hw4

def k0_off11 (k0_t1 : Fin k0_t1_loop.trips) (c3_i32 : BitVec 32) : Fin 2 → Nat :=
  let c0_i32_0 : BitVec 32 := 0#32
  let c1_i32 : BitVec 32 := 1#32
  let arg8 : BitVec 32 := Scf.iv c0_i32_0 c1_i32 k0_t1
  let c16_i32_25 : BitVec 32 := 16#32
  let v47 : BitVec 32 := Scalar.muli arg8 c16_i32_25
  let v48 : BitVec 32 := Scalar.addi v47 c3_i32
  let c0_i32_28 : BitVec 32 := 0#32
  ![v48.toNat, 0]
def k0_off12 (v58 : BitVec 32) : Fin 2 → Nat :=
  let c0_i32_32 : BitVec 32 := 0#32
  ![v58.toNat, 0]

def k0_chk5 (v58 : BitVec 32) : Prop :=
  (∀ a, (k0_off12 v58) a + S1x64.size a ≤ S1000000x64.size a)
instance k0_chk5.dec : ∀ (v58 : BitVec 32), Decidable (k0_chk5 v58) := fun v58 => decidable_of_iff' _ (Iff.of_eq (k0_chk5.eq_1 v58))
theorem k0_off12_inb : ∀ (v58 : BitVec 32) (k0_hw5 : k0_chk5 v58), ∀ a, (k0_off12 v58) a + S1x64.size a ≤ S1000000x64.size a := fun v58 k0_hw5 => k0_hw5

def k0_off13 (k0_t1 : Fin k0_t1_loop.trips) (c4_i32 : BitVec 32) : Fin 2 → Nat :=
  let c0_i32_0 : BitVec 32 := 0#32
  let c1_i32 : BitVec 32 := 1#32
  let arg8 : BitVec 32 := Scf.iv c0_i32_0 c1_i32 k0_t1
  let c16_i32_30 : BitVec 32 := 16#32
  let v59 : BitVec 32 := Scalar.muli arg8 c16_i32_30
  let v60 : BitVec 32 := Scalar.addi v59 c4_i32
  let c0_i32_33 : BitVec 32 := 0#32
  ![v60.toNat, 0]
def k0_off14 (v70 : BitVec 32) : Fin 2 → Nat :=
  let c0_i32_37 : BitVec 32 := 0#32
  ![v70.toNat, 0]

def k0_chk6 (v70 : BitVec 32) : Prop :=
  (∀ a, (k0_off14 v70) a + S1x64.size a ≤ S1000000x64.size a)
instance k0_chk6.dec : ∀ (v70 : BitVec 32), Decidable (k0_chk6 v70) := fun v70 => decidable_of_iff' _ (Iff.of_eq (k0_chk6.eq_1 v70))
theorem k0_off14_inb : ∀ (v70 : BitVec 32) (k0_hw6 : k0_chk6 v70), ∀ a, (k0_off14 v70) a + S1x64.size a ≤ S1000000x64.size a := fun v70 k0_hw6 => k0_hw6

def k0_off15 (k0_t1 : Fin k0_t1_loop.trips) (c5_i32 : BitVec 32) : Fin 2 → Nat :=
  let c0_i32_0 : BitVec 32 := 0#32
  let c1_i32 : BitVec 32 := 1#32
  let arg8 : BitVec 32 := Scf.iv c0_i32_0 c1_i32 k0_t1
  let c16_i32_35 : BitVec 32 := 16#32
  let v71 : BitVec 32 := Scalar.muli arg8 c16_i32_35
  let v72 : BitVec 32 := Scalar.addi v71 c5_i32
  let c0_i32_38 : BitVec 32 := 0#32
  ![v72.toNat, 0]
def k0_off16 (v82 : BitVec 32) : Fin 2 → Nat :=
  let c0_i32_42 : BitVec 32 := 0#32
  ![v82.toNat, 0]

def k0_chk7 (v82 : BitVec 32) : Prop :=
  (∀ a, (k0_off16 v82) a + S1x64.size a ≤ S1000000x64.size a)
instance k0_chk7.dec : ∀ (v82 : BitVec 32), Decidable (k0_chk7 v82) := fun v82 => decidable_of_iff' _ (Iff.of_eq (k0_chk7.eq_1 v82))
theorem k0_off16_inb : ∀ (v82 : BitVec 32) (k0_hw7 : k0_chk7 v82), ∀ a, (k0_off16 v82) a + S1x64.size a ≤ S1000000x64.size a := fun v82 k0_hw7 => k0_hw7

def k0_off17 (k0_t1 : Fin k0_t1_loop.trips) (c6_i32 : BitVec 32) : Fin 2 → Nat :=
  let c0_i32_0 : BitVec 32 := 0#32
  let c1_i32 : BitVec 32 := 1#32
  let arg8 : BitVec 32 := Scf.iv c0_i32_0 c1_i32 k0_t1
  let c16_i32_40 : BitVec 32 := 16#32
  let v83 : BitVec 32 := Scalar.muli arg8 c16_i32_40
  let v84 : BitVec 32 := Scalar.addi v83 c6_i32
  let c0_i32_43 : BitVec 32 := 0#32
  ![v84.toNat, 0]
def k0_off18 (v94 : BitVec 32) : Fin 2 → Nat :=
  let c0_i32_47 : BitVec 32 := 0#32
  ![v94.toNat, 0]

def k0_chk8 (v94 : BitVec 32) : Prop :=
  (∀ a, (k0_off18 v94) a + S1x64.size a ≤ S1000000x64.size a)
instance k0_chk8.dec : ∀ (v94 : BitVec 32), Decidable (k0_chk8 v94) := fun v94 => decidable_of_iff' _ (Iff.of_eq (k0_chk8.eq_1 v94))
theorem k0_off18_inb : ∀ (v94 : BitVec 32) (k0_hw8 : k0_chk8 v94), ∀ a, (k0_off18 v94) a + S1x64.size a ≤ S1000000x64.size a := fun v94 k0_hw8 => k0_hw8

def k0_off19 (k0_t1 : Fin k0_t1_loop.trips) (c7_i32 : BitVec 32) : Fin 2 → Nat :=
  let c0_i32_0 : BitVec 32 := 0#32
  let c1_i32 : BitVec 32 := 1#32
  let arg8 : BitVec 32 := Scf.iv c0_i32_0 c1_i32 k0_t1
  let c16_i32_45 : BitVec 32 := 16#32
  let v95 : BitVec 32 := Scalar.muli arg8 c16_i32_45
  let v96 : BitVec 32 := Scalar.addi v95 c7_i32
  let c0_i32_48 : BitVec 32 := 0#32
  ![v96.toNat, 0]
def k0_off20 (v106 : BitVec 32) : Fin 2 → Nat :=
  let c0_i32_52 : BitVec 32 := 0#32
  ![v106.toNat, 0]

def k0_chk9 (v106 : BitVec 32) : Prop :=
  (∀ a, (k0_off20 v106) a + S1x64.size a ≤ S1000000x64.size a)
instance k0_chk9.dec : ∀ (v106 : BitVec 32), Decidable (k0_chk9 v106) := fun v106 => decidable_of_iff' _ (Iff.of_eq (k0_chk9.eq_1 v106))
theorem k0_off20_inb : ∀ (v106 : BitVec 32) (k0_hw9 : k0_chk9 v106), ∀ a, (k0_off20 v106) a + S1x64.size a ≤ S1000000x64.size a := fun v106 k0_hw9 => k0_hw9

def k0_off21 (k0_t1 : Fin k0_t1_loop.trips) (c8_i32 : BitVec 32) : Fin 2 → Nat :=
  let c0_i32_0 : BitVec 32 := 0#32
  let c1_i32 : BitVec 32 := 1#32
  let arg8 : BitVec 32 := Scf.iv c0_i32_0 c1_i32 k0_t1
  let c16_i32_50 : BitVec 32 := 16#32
  let v107 : BitVec 32 := Scalar.muli arg8 c16_i32_50
  let v108 : BitVec 32 := Scalar.addi v107 c8_i32
  let c0_i32_53 : BitVec 32 := 0#32
  ![v108.toNat, 0]
def k0_off22 (v118 : BitVec 32) : Fin 2 → Nat :=
  let c0_i32_57 : BitVec 32 := 0#32
  ![v118.toNat, 0]

def k0_chk10 (v118 : BitVec 32) : Prop :=
  (∀ a, (k0_off22 v118) a + S1x64.size a ≤ S1000000x64.size a)
instance k0_chk10.dec : ∀ (v118 : BitVec 32), Decidable (k0_chk10 v118) := fun v118 => decidable_of_iff' _ (Iff.of_eq (k0_chk10.eq_1 v118))
theorem k0_off22_inb : ∀ (v118 : BitVec 32) (k0_hw10 : k0_chk10 v118), ∀ a, (k0_off22 v118) a + S1x64.size a ≤ S1000000x64.size a := fun v118 k0_hw10 => k0_hw10

def k0_off23 (k0_t1 : Fin k0_t1_loop.trips) (c9_i32 : BitVec 32) : Fin 2 → Nat :=
  let c0_i32_0 : BitVec 32 := 0#32
  let c1_i32 : BitVec 32 := 1#32
  let arg8 : BitVec 32 := Scf.iv c0_i32_0 c1_i32 k0_t1
  let c16_i32_55 : BitVec 32 := 16#32
  let v119 : BitVec 32 := Scalar.muli arg8 c16_i32_55
  let v120 : BitVec 32 := Scalar.addi v119 c9_i32
  let c0_i32_58 : BitVec 32 := 0#32
  ![v120.toNat, 0]
def k0_off24 (v130 : BitVec 32) : Fin 2 → Nat :=
  let c0_i32_62 : BitVec 32 := 0#32
  ![v130.toNat, 0]

def k0_chk11 (v130 : BitVec 32) : Prop :=
  (∀ a, (k0_off24 v130) a + S1x64.size a ≤ S1000000x64.size a)
instance k0_chk11.dec : ∀ (v130 : BitVec 32), Decidable (k0_chk11 v130) := fun v130 => decidable_of_iff' _ (Iff.of_eq (k0_chk11.eq_1 v130))
theorem k0_off24_inb : ∀ (v130 : BitVec 32) (k0_hw11 : k0_chk11 v130), ∀ a, (k0_off24 v130) a + S1x64.size a ≤ S1000000x64.size a := fun v130 k0_hw11 => k0_hw11

def k0_off25 (k0_t1 : Fin k0_t1_loop.trips) (c10_i32 : BitVec 32) : Fin 2 → Nat :=
  let c0_i32_0 : BitVec 32 := 0#32
  let c1_i32 : BitVec 32 := 1#32
  let arg8 : BitVec 32 := Scf.iv c0_i32_0 c1_i32 k0_t1
  let c16_i32_60 : BitVec 32 := 16#32
  let v131 : BitVec 32 := Scalar.muli arg8 c16_i32_60
  let v132 : BitVec 32 := Scalar.addi v131 c10_i32
  let c0_i32_63 : BitVec 32 := 0#32
  ![v132.toNat, 0]
def k0_off26 (v142 : BitVec 32) : Fin 2 → Nat :=
  let c0_i32_67 : BitVec 32 := 0#32
  ![v142.toNat, 0]

def k0_chk12 (v142 : BitVec 32) : Prop :=
  (∀ a, (k0_off26 v142) a + S1x64.size a ≤ S1000000x64.size a)
instance k0_chk12.dec : ∀ (v142 : BitVec 32), Decidable (k0_chk12 v142) := fun v142 => decidable_of_iff' _ (Iff.of_eq (k0_chk12.eq_1 v142))
theorem k0_off26_inb : ∀ (v142 : BitVec 32) (k0_hw12 : k0_chk12 v142), ∀ a, (k0_off26 v142) a + S1x64.size a ≤ S1000000x64.size a := fun v142 k0_hw12 => k0_hw12

def k0_off27 (k0_t1 : Fin k0_t1_loop.trips) (c11_i32 : BitVec 32) : Fin 2 → Nat :=
  let c0_i32_0 : BitVec 32 := 0#32
  let c1_i32 : BitVec 32 := 1#32
  let arg8 : BitVec 32 := Scf.iv c0_i32_0 c1_i32 k0_t1
  let c16_i32_65 : BitVec 32 := 16#32
  let v143 : BitVec 32 := Scalar.muli arg8 c16_i32_65
  let v144 : BitVec 32 := Scalar.addi v143 c11_i32
  let c0_i32_68 : BitVec 32 := 0#32
  ![v144.toNat, 0]
def k0_off28 (v154 : BitVec 32) : Fin 2 → Nat :=
  let c0_i32_72 : BitVec 32 := 0#32
  ![v154.toNat, 0]

def k0_chk13 (v154 : BitVec 32) : Prop :=
  (∀ a, (k0_off28 v154) a + S1x64.size a ≤ S1000000x64.size a)
instance k0_chk13.dec : ∀ (v154 : BitVec 32), Decidable (k0_chk13 v154) := fun v154 => decidable_of_iff' _ (Iff.of_eq (k0_chk13.eq_1 v154))
theorem k0_off28_inb : ∀ (v154 : BitVec 32) (k0_hw13 : k0_chk13 v154), ∀ a, (k0_off28 v154) a + S1x64.size a ≤ S1000000x64.size a := fun v154 k0_hw13 => k0_hw13

def k0_off29 (k0_t1 : Fin k0_t1_loop.trips) (c12_i32 : BitVec 32) : Fin 2 → Nat :=
  let c0_i32_0 : BitVec 32 := 0#32
  let c1_i32 : BitVec 32 := 1#32
  let arg8 : BitVec 32 := Scf.iv c0_i32_0 c1_i32 k0_t1
  let c16_i32_70 : BitVec 32 := 16#32
  let v155 : BitVec 32 := Scalar.muli arg8 c16_i32_70
  let v156 : BitVec 32 := Scalar.addi v155 c12_i32
  let c0_i32_73 : BitVec 32 := 0#32
  ![v156.toNat, 0]
def k0_off30 (v166 : BitVec 32) : Fin 2 → Nat :=
  let c0_i32_77 : BitVec 32 := 0#32
  ![v166.toNat, 0]

def k0_chk14 (v166 : BitVec 32) : Prop :=
  (∀ a, (k0_off30 v166) a + S1x64.size a ≤ S1000000x64.size a)
instance k0_chk14.dec : ∀ (v166 : BitVec 32), Decidable (k0_chk14 v166) := fun v166 => decidable_of_iff' _ (Iff.of_eq (k0_chk14.eq_1 v166))
theorem k0_off30_inb : ∀ (v166 : BitVec 32) (k0_hw14 : k0_chk14 v166), ∀ a, (k0_off30 v166) a + S1x64.size a ≤ S1000000x64.size a := fun v166 k0_hw14 => k0_hw14

def k0_off31 (k0_t1 : Fin k0_t1_loop.trips) (c13_i32 : BitVec 32) : Fin 2 → Nat :=
  let c0_i32_0 : BitVec 32 := 0#32
  let c1_i32 : BitVec 32 := 1#32
  let arg8 : BitVec 32 := Scf.iv c0_i32_0 c1_i32 k0_t1
  let c16_i32_75 : BitVec 32 := 16#32
  let v167 : BitVec 32 := Scalar.muli arg8 c16_i32_75
  let v168 : BitVec 32 := Scalar.addi v167 c13_i32
  let c0_i32_78 : BitVec 32 := 0#32
  ![v168.toNat, 0]
def k0_off32 (v178 : BitVec 32) : Fin 2 → Nat :=
  let c0_i32_82 : BitVec 32 := 0#32
  ![v178.toNat, 0]

def k0_chk15 (v178 : BitVec 32) : Prop :=
  (∀ a, (k0_off32 v178) a + S1x64.size a ≤ S1000000x64.size a)
instance k0_chk15.dec : ∀ (v178 : BitVec 32), Decidable (k0_chk15 v178) := fun v178 => decidable_of_iff' _ (Iff.of_eq (k0_chk15.eq_1 v178))
theorem k0_off32_inb : ∀ (v178 : BitVec 32) (k0_hw15 : k0_chk15 v178), ∀ a, (k0_off32 v178) a + S1x64.size a ≤ S1000000x64.size a := fun v178 k0_hw15 => k0_hw15

def k0_off33 (k0_t1 : Fin k0_t1_loop.trips) (c14_i32 : BitVec 32) : Fin 2 → Nat :=
  let c0_i32_0 : BitVec 32 := 0#32
  let c1_i32 : BitVec 32 := 1#32
  let arg8 : BitVec 32 := Scf.iv c0_i32_0 c1_i32 k0_t1
  let c16_i32_80 : BitVec 32 := 16#32
  let v179 : BitVec 32 := Scalar.muli arg8 c16_i32_80
  let v180 : BitVec 32 := Scalar.addi v179 c14_i32
  let c0_i32_83 : BitVec 32 := 0#32
  ![v180.toNat, 0]
def k0_off34 (v190 : BitVec 32) : Fin 2 → Nat :=
  let c0_i32_87 : BitVec 32 := 0#32
  ![v190.toNat, 0]

def k0_chk16 (v190 : BitVec 32) : Prop :=
  (∀ a, (k0_off34 v190) a + S1x64.size a ≤ S1000000x64.size a)
instance k0_chk16.dec : ∀ (v190 : BitVec 32), Decidable (k0_chk16 v190) := fun v190 => decidable_of_iff' _ (Iff.of_eq (k0_chk16.eq_1 v190))
theorem k0_off34_inb : ∀ (v190 : BitVec 32) (k0_hw16 : k0_chk16 v190), ∀ a, (k0_off34 v190) a + S1x64.size a ≤ S1000000x64.size a := fun v190 k0_hw16 => k0_hw16

def k0_off35 (k0_t1 : Fin k0_t1_loop.trips) : Fin 2 → Nat :=
  let c0_i32_0 : BitVec 32 := 0#32
  let c1_i32 : BitVec 32 := 1#32
  let arg8 : BitVec 32 := Scf.iv c0_i32_0 c1_i32 k0_t1
  let c16_i32_85 : BitVec 32 := 16#32
  let v191 : BitVec 32 := Scalar.muli arg8 c16_i32_85
  let c15_i32 : BitVec 32 := 15#32
  let v192 : BitVec 32 := Scalar.addi v191 c15_i32
  let c0_i32_88 : BitVec 32 := 0#32
  ![v192.toNat, 0]
@[reducible] def k0_t2_loop : Scf.Loop 32 :=
  let c0_i32_3 : BitVec 32 := 0#32
  let c512_i32_4 : BitVec 32 := 512#32
  let v4 : BitVec 32 := Scalar.addi c0_i32_3 c512_i32_4
  let c1_i32_5 : BitVec 32 := 1#32
  ⟨c0_i32_3, v4, c1_i32_5⟩
def k0_off36 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_7_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  h_S16 : 0 < S16.numel
  shapeCasts_S16_S16 : S16.ShapeCasts S16
  slices_S16_o0_S1 : S16.Slices ![0] S1
  inpos_S1_p0 : ∀ a, (![0] : Fin 1 → Nat) a < S1.size a
  squeezes_S1x64_S64 : S1x64.Squeezes S64
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S512x64_S1x64_0_0 : ∀ a, (![0, 0] : Fin 2 → Nat) a + S1x64.size a ≤ S512x64.size a
  inb_S1000000x64_S1x64_0_0 : ∀ a, (![0, 0] : Fin 2 → Nat) a + S1x64.size a ≤ S1000000x64.size a
  hcc0_scratch2 : 0 + S_.numel ≤ 3
  hcc0_scoped0 : 1 + S_.numel ≤ 3
  hcc0_scoped1 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S512.size a ≤ S16384.size a
  k0_t1_ok : k0_t1_loop.OK
  k0_off2_inb : ∀ k0_t1 : Fin k0_t1_loop.trips, ∀ a, (k0_off2 k0_t1) a + S16.size a ≤ S512.size a
  k0_off3_inb : ∀ k0_t1 : Fin k0_t1_loop.trips, ∀ a, (k0_off3 k0_t1) a + S1x64.size a ≤ S512x64.size a
  k0_off5_inb : ∀ k0_t1 : Fin k0_t1_loop.trips, ∀ (r : Fin 2), ∀ a, (k0_off5 k0_t1 (BitVec.ofNat 32 r.val)) a + S1x64.size a ≤ S512x64.size a
  k0_off7_inb : ∀ k0_t1 : Fin k0_t1_loop.trips, ∀ (r : Fin 2), ∀ a, (k0_off7 k0_t1 (BitVec.ofNat 32 (1 + r.val))) a + S1x64.size a ≤ S512x64.size a
  k0_off9_inb : ∀ k0_t1 : Fin k0_t1_loop.trips, ∀ (r : Fin 2), ∀ a, (k0_off9 k0_t1 (BitVec.ofNat 32 (2 + r.val))) a + S1x64.size a ≤ S512x64.size a
  k0_off11_inb : ∀ k0_t1 : Fin k0_t1_loop.trips, ∀ (r : Fin 2), ∀ a, (k0_off11 k0_t1 (BitVec.ofNat 32 (3 + r.val))) a + S1x64.size a ≤ S512x64.size a
  k0_off13_inb : ∀ k0_t1 : Fin k0_t1_loop.trips, ∀ (r : Fin 2), ∀ a, (k0_off13 k0_t1 (BitVec.ofNat 32 (4 + r.val))) a + S1x64.size a ≤ S512x64.size a
  k0_off15_inb : ∀ k0_t1 : Fin k0_t1_loop.trips, ∀ (r : Fin 2), ∀ a, (k0_off15 k0_t1 (BitVec.ofNat 32 (5 + r.val))) a + S1x64.size a ≤ S512x64.size a
  k0_off17_inb : ∀ k0_t1 : Fin k0_t1_loop.trips, ∀ (r : Fin 2), ∀ a, (k0_off17 k0_t1 (BitVec.ofNat 32 (6 + r.val))) a + S1x64.size a ≤ S512x64.size a
  k0_off19_inb : ∀ k0_t1 : Fin k0_t1_loop.trips, ∀ (r : Fin 2), ∀ a, (k0_off19 k0_t1 (BitVec.ofNat 32 (7 + r.val))) a + S1x64.size a ≤ S512x64.size a
  k0_off21_inb : ∀ k0_t1 : Fin k0_t1_loop.trips, ∀ (r : Fin 2), ∀ a, (k0_off21 k0_t1 (BitVec.ofNat 32 (8 + r.val))) a + S1x64.size a ≤ S512x64.size a
  k0_off23_inb : ∀ k0_t1 : Fin k0_t1_loop.trips, ∀ (r : Fin 2), ∀ a, (k0_off23 k0_t1 (BitVec.ofNat 32 (9 + r.val))) a + S1x64.size a ≤ S512x64.size a
  k0_off25_inb : ∀ k0_t1 : Fin k0_t1_loop.trips, ∀ (r : Fin 2), ∀ a, (k0_off25 k0_t1 (BitVec.ofNat 32 (10 + r.val))) a + S1x64.size a ≤ S512x64.size a
  k0_off27_inb : ∀ k0_t1 : Fin k0_t1_loop.trips, ∀ (r : Fin 2), ∀ a, (k0_off27 k0_t1 (BitVec.ofNat 32 (11 + r.val))) a + S1x64.size a ≤ S512x64.size a
  k0_off29_inb : ∀ k0_t1 : Fin k0_t1_loop.trips, ∀ (r : Fin 2), ∀ a, (k0_off29 k0_t1 (BitVec.ofNat 32 (12 + r.val))) a + S1x64.size a ≤ S512x64.size a
  k0_off31_inb : ∀ k0_t1 : Fin k0_t1_loop.trips, ∀ (r : Fin 2), ∀ a, (k0_off31 k0_t1 (BitVec.ofNat 32 (13 + r.val))) a + S1x64.size a ≤ S512x64.size a
  k0_off33_inb : ∀ k0_t1 : Fin k0_t1_loop.trips, ∀ (r : Fin 2), ∀ a, (k0_off33 k0_t1 (BitVec.ofNat 32 (14 + r.val))) a + S1x64.size a ≤ S512x64.size a
  k0_off35_inb : ∀ k0_t1 : Fin k0_t1_loop.trips, ∀ a, (k0_off35 k0_t1) a + S1x64.size a ≤ S512x64.size a
  k0_t2_ok : k0_t2_loop.OK
  k0_off36_inb : ∀ i : grid0.Coords, ∀ a, (k0_off36 i) a + S512x64.size a ≤ S16384x64.size a

variable [Facts₀]

abbrev cc0_scratch2 : DmaSems sig S_ := SemArray.consecutive 0 S_ hcc0_scratch2
abbrev cc0_scoped0 : DmaSems sig S_ := SemArray.consecutive 1 S_ hcc0_scoped0
abbrev cc0_scoped1 : DmaSems sig S_ := SemArray.consecutive 2 S_ hcc0_scoped1

class Facts : Prop extends Facts₀ where

variable [Facts]
-- ==== ReferenceIdeal.lean ====
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 25
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x64, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x64, .f32⟩
  | .hbm, ⟨21, _⟩ => ⟨S16384x64, .i1⟩
  | .hbm, ⟨22, _⟩ => ⟨S_, .f32⟩
  | .hbm, ⟨23, _⟩ => ⟨S16384x64, .f32⟩
  | .hbm, ⟨24, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x64_0 : S16384.BroadcastsInDim S16384x64 (![0] : Fin 1 → Fin S16384x64.rank)
  bcast_S_S16384x64 : S_.BroadcastsInDim S16384x64 (![] : Fin 0 → Fin S16384x64.rank)
  gather_S1000000x64_S16384x1_S16384x64_1_0_n_n_0_1_164_wf : GatherDims.WF S1000000x64 S16384x1 S16384x64 [1] [0] [] [0] [] 1 ![1, 64]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf

class Facts : Prop extends Facts₀ where

variable [Facts]
-- ==== Proof.PreRange.lean ====
/-
  THE PRECONDITION READ AS A RANGE OF ROW NUMBERS.

  The certificate's precondition is a one-bit word: the conjunction of "every table entry is finite" and "every
  word of the list is, read signed, at least 0 and at most 999999", each a conjunction over all positions. When
  that word is 1, the second conjunct is 1, hence so is each of its 16384 terms, and a term is the conjunction of
  two signed comparisons of one word of the list against the constants 0 and 999999. A 32-bit word whose signed
  value lies in [0, 999999] has that same unsigned value, so it is below 1000000 unsigned. The finiteness
  conjunct is not used. Everything here is independent of how table entries are represented.
-/
import proofs.«217944_g2619930051674_cont_9to1_157_43_alg».proof.Pre_input_domain
import Idealize.ShloMosaic.Lib.ReduceAll
import Idealize.ShloMosaic.Lib.ValueIdx

noncomputable section

namespace Cert.PreRange

open Idealize.ShloMosaic Idealize.ShloMosaic.ValueIdx

/-- The scalar shape has one index. -/
instance : Subsingleton Cert.Pre_input_domain.S_.Idx := ⟨fun a b => funext fun d => d.elim0⟩

/-- A 32-bit word whose signed value is in [0, 999999] has unsigned value below 1000000. -/
theorem toNat_lt_of_toInt (w : BitVec 32) (h0 : 0 ≤ w.toInt) (h1 : w.toInt ≤ 999999) : w.toNat < 1000000 := by
  have h32 := w.isLt
  unfold BitVec.toInt at h0 h1
  split at h1 <;> omega

variable {F : FTy → Type} [FloatOps F] [Cert.Pre_input_domain.Facts]

/-- Under the precondition every word of the list is, read signed, between 0 and 999999. -/
theorem uid_range (uid : IVec Cert.Pre_input_domain.S16384 32) (table : FVec F Cert.Pre_input_domain.S1000000x64 .f32)
    (h : Cert.Pre_input_domain.fn (F := F) uid table = fun _ => 1#1) (p : Fin 16384) :
    0 ≤ (uid (ix1 p)).toInt ∧ (uid (ix1 p)).toInt ≤ 999999 := by
  have e := congrFun h ix0
  dsimp only [Cert.Pre_input_domain.fn] at e
  -- the final conjunction: keep the conjunct about the list
  obtain ⟨-, e2⟩ := IntOp.andi_eq_one.1 e
  -- a conjunction over all 16384 positions that is 1 is 1 at position p
  have e3 := Host.reduce_andi_all _ _ _ _ _ e2 (ix1 p)
  -- at position p: the two signed comparisons
  obtain ⟨hge, hle⟩ := IntOp.andi_eq_one.1 e3
  have hge' : (0#32).toInt ≤ (uid (ix1 p)).toInt := IntOp.cmpi_sge.1 hge
  have hle' : (uid (ix1 p)).toInt ≤ (999999#32).toInt := IntOp.cmpi_sle.1 hle
  have c0 : (0#32).toInt = 0 := by decide
  have c1 : (999999#32).toInt = 999999 := by decide
  exact ⟨c0 ▸ hge', c1 ▸ hle'⟩

/-- Under the precondition every word of the list is nonnegative, read signed. -/
theorem uid_nonneg (uid : IVec Cert.Pre_input_domain.S16384 32) (table : FVec F Cert.Pre_input_domain.S1000000x64 .f32)
    (h : Cert.Pre_input_domain.fn (F := F) uid table = fun _ => 1#1) (p : Fin 16384) :
    0 ≤ (uid (ix1 p)).toInt := (uid_range uid table h p).1

/-- Under the precondition every word of the list is at most 999999, read signed. -/
theorem uid_le (uid : IVec Cert.Pre_input_domain.S16384 32) (table : FVec F Cert.Pre_input_domain.S1000000x64 .f32)
    (h : Cert.Pre_input_domain.fn (F := F) uid table = fun _ => 1#1) (p : Fin 16384) :
    (uid (ix1 p)).toInt ≤ 999999 := (uid_range uid table h p).2

/-- Under the precondition every word of the list is below 1000000, read unsigned: it names a row of the table. -/
theorem uid_lt (uid : IVec Cert.Pre_input_domain.S16384 32) (table : FVec F Cert.Pre_input_domain.S1000000x64 .f32)
    (h : Cert.Pre_input_domain.fn (F := F) uid table = fun _ => 1#1) (p : Fin 16384) :
    (uid (ix1 p)).toNat < 1000000 :=
  toNat_lt_of_toInt _ (uid_nonneg uid table h p) (uid_le uid table h p)

end Cert.PreRange

end
-- ==== Proof.Spec.lean ====
/-
  THE RESULT BOTH PROGRAMS COMPUTE, as one function of the two argument arrays.

  The arguments are a list of 16384 row numbers (32-bit words) and a table of 1000000 rows of 64 numbers. The
  result has 16384 rows of 64 numbers: its row `p` is the table's row named by the `p`-th word of the list,
  column by column. A word names a row by its unsigned value; so that the function is total, the value is taken
  modulo the number of rows, which changes nothing for a word whose value is below 1000000 (`rowOf_of_lt`) — and
  under the certificate's precondition every word of the list is.
  The function is stated for any type of table entries: it only moves entries, it computes nothing with them.
-/
import Idealize.ShloMosaic.PureOps.Ideal
import Idealize.ShloMosaic.Lib.ValueIdx

noncomputable section

namespace Cert.Spec

open Idealize.ShloMosaic Idealize.ShloMosaic.ValueIdx

/-- The table row a word names: its unsigned value, reduced modulo the number of rows. -/
def rowOf (w : BitVec 32) : Fin 1000000 := ⟨w.toNat % 1000000, Nat.mod_lt _ (by decide)⟩

/-- A word whose unsigned value is below the number of rows names the row of that value. -/
theorem rowOf_of_lt (w : BitVec 32) (h : w.toNat < 1000000) : (rowOf w).val = w.toNat :=
  Nat.mod_eq_of_lt h

/-- The gathered rows: entry `(p, q)` of the result is entry `(rowOf (uid p), q)` of the table. -/
def rows {α : Type} (uid : IVec ⟨1, ![16384]⟩ 32) (table : (⟨2, ![1000000, 64]⟩ : Shape).Idx → α) :
    (⟨2, ![16384, 64]⟩ : Shape).Idx → α :=
  fun j => table (ix2 (rowOf (uid (ix1 (j 0 : Fin 16384)))) (j 1 : Fin 64))

/-- The gathered rows read at the index with coordinates `p`, `q`. -/
theorem rows_apply {α : Type} (uid : IVec ⟨1, ![16384]⟩ 32) (table : (⟨2, ![1000000, 64]⟩ : Shape).Idx → α)
    (p : Fin 16384) (q : Fin 64) : rows uid table (ix2 p q) = table (ix2 (rowOf (uid (ix1 p))) q) := rfl

end Cert.Spec

end
-- ==== Proof.LibRowScatter.lean ====
/-
  A ROW GATHER and a ROW SCATTER-ADD, READ AT AN INDEX, generically in the sizes.

  A table `x : [N, C]` and one integer row number per update row, `idx : [M, 1]`:
  • `stablehlo.gather` with offset axis `1`, collapsed axis `0`, start index map `[0]`, index vector on axis `1` and
    slices `1 × C` gives `[M, C]`; its element `(e, j)` is `x (gatherRow e, j)`, where `gatherRow e` is `idx[e, 0]`
    read signed and clamped into `[0, N − 1]` (`gather_row_apply`).
  • the accumulating `stablehlo.scatter` with update window axis `1`, inserted window axis `0`, scatter index to
    operand axis `0` and index vector on axis `1` sends update `(e, j)` to `(landRow e, j)`, where `landRow e` is
    `idx[e, 0]` read signed and NOT clamped — no row at all when it is outside `[0, N)` (`resultIdx_row`); so, at the
    ideal instance, the result's element `(i, j)` is `x (i, j)` plus the sum of `upd (e, j)` over the update rows `e`
    with `landRow e = some i` (`scatterAdd_row_apply`): the scatter acts column by column.
  Both are stated for any dimension-number record with those fields, whatever the sizes `N`, `M`, `C` and the index
  width; each is first proved for the literal record (`rowGatherDims`, `rowScatterDims`), where the axis lists compute.
-/
import Idealize.ShloMosaic.PureOps.Ideal
import Idealize.ShloMosaic.Lib.ValueIdx

noncomputable section

open scoped BigOperators

namespace Cert.Lib.RowScatter

open Idealize.ShloMosaic Idealize.ShloMosaic.ValueIdx

/-! ## Axis membership facts at rank 2 -/

/-- Axis `0` is in the list `[0]`. -/
theorem zero_mem_zero : (0 : Fin 2) ∈ [(0 : Fin 2)] := by decide
/-- Axis `1` is not in the list `[0]`. -/
theorem one_not_mem_zero : (1 : Fin 2) ∉ [(0 : Fin 2)] := by decide
/-- Axis `1` is in the list `[1]`. -/
theorem one_mem_one : (1 : Fin 2) ∈ [(1 : Fin 2)] := by decide
/-- Axis `0` is not in the list `[1]`. -/
theorem zero_not_mem_one : (0 : Fin 2) ∉ [(1 : Fin 2)] := by decide

/-! ## A row gather read at an index -/

/-- The operand row that update row `e` reads: its start index `idx[e, 0]`, read as a signed integer and clamped
    into `[0, N − 1]`. -/
def gatherRow (N M : Nat) (hN : 0 < N) {w : Nat} (idx : IVec ⟨2, ![M, 1]⟩ w) (e : Fin M) : Fin N :=
  ⟨min (idx (ix2 e 0)).toInt.toNat (N - 1), by omega⟩

/-- The row-gather dimension numbers as a literal record: operand `[N, C]`, start indices `[M, 1]`, result `[M, C]`;
    offset axis `1`, collapsed axis `0`, start index map `[0]`, index vector on axis `1`, slices `1 × C`. -/
abbrev rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The literal row gather at `(e, j)` is the operand at row `gatherRow e`, column `j`. -/
theorem gather_rowDims_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowGatherDims N M C wf) x idx (ix2 e j) = x (ix2 (gatherRow N M hN idx e) j) := by
  unfold Host.gather
  congr 1
  funext a
  refine Fin.ext ?_
  match a with
  | ⟨0, _⟩ =>
    show (rowGatherDims N M C wf).start (ix2 e j) idx 0 + (rowGatherDims N M C wf).batchCoord (ix2 e j) 0
      + (rowGatherDims N M C wf).offCoord (ix2 e j) 0 = min (idx (ix2 e 0)).toInt.toNat (N - 1)
    rw [GatherDims.batchCoord_eq_zero _ _ _ List.not_mem_nil,
      GatherDims.offCoord_eq_zero _ _ _ (fun h => ((GatherDims.mem_sKept _ _).mp h).1 zero_mem_zero)]
    simp only [Nat.add_zero]
    unfold GatherDims.start
    rw [dif_pos (show (0 : Fin 2) ∈ (rowGatherDims N M C wf).startIndexMap from zero_mem_zero)]
    have hsi : (rowGatherDims N M C wf).siIdx (ix2 e j) ⟨List.idxOf (0 : Fin 2) (rowGatherDims N M C wf).startIndexMap,
        List.idxOf_lt_length_iff.2 zero_mem_zero⟩ = ix2 e 0 := by
      funext b; refine Fin.ext ?_
      match b with
      | ⟨0, _⟩ => rfl
      | ⟨1, _⟩ => rfl
    rw [hsi]
    rfl
  | ⟨1, _⟩ =>
    show (rowGatherDims N M C wf).start (ix2 e j) idx 1 + (rowGatherDims N M C wf).batchCoord (ix2 e j) 1
      + (rowGatherDims N M C wf).offCoord (ix2 e j) 1 = j.val
    rw [GatherDims.batchCoord_eq_zero _ _ _ List.not_mem_nil]
    unfold GatherDims.start
    rw [dif_neg (show (1 : Fin 2) ∉ (rowGatherDims N M C wf).startIndexMap from one_not_mem_zero)]
    simp only [Nat.add_zero, Nat.zero_add]
    unfold GatherDims.offCoord
    rw [dif_pos (show (1 : Fin 2) ∈ (rowGatherDims N M C wf).sKept from
      (GatherDims.mem_sKept _ _).mpr ⟨one_not_mem_zero, List.not_mem_nil⟩)]
    rfl

/-- A ROW GATHER READ AT `(e, j)`: for row-indexed dimension numbers (offset axis `1`, collapsed axis `0`, start index
    map `[0]`, one start index per update row, slices `1 × C`), `stablehlo.gather` of a table `x : [N, C]` at the
    start indices `idx : [M, 1]` has, at row `e` and column `j`, the table's element at row `idx[e, 0]` (read
    signed, clamped into `[0, N − 1]`) and the same column `j`. -/
theorem gather_row_apply {α : Type} {N M C w : Nat} (hN : 0 < N)
    (d : GatherDims ⟨2, ![N, C]⟩ ⟨2, ![M, 1]⟩ ⟨2, ![M, C]⟩)
    (hod : d.offsetDims = [1]) (hcd : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![N, C]⟩ : Shape).Idx → α) (idx : IVec ⟨2, ![M, 1]⟩ w) (e : Fin M) (j : Fin C) :
    Host.gather d x idx (ix2 e j) = x (ix2 (gatherRow N M hN idx e) j) := by
  obtain ⟨od, cd, ob, sb, sm, iv, ss, wf⟩ := d
  dsimp only at hod hcd hob hsb hsm hiv hss
  subst hod hcd hob hsb hsm hiv hss
  exact gather_rowDims_apply hN wf x idx e j

/-! ## A row scatter-add read at an index -/

/-- An axis is kept exactly when it is not among the dropped ones. -/
theorem mem_kept {s : Shape} (axes : List (Fin s.rank)) (a : Fin s.rank) : a ∈ s.kept axes ↔ a ∉ axes := by
  simp [Shape.kept, List.mem_filter, List.mem_finRange]

/-- The operand row that update row `e` lands at: its scatter index `idx[e, 0]`, read as a signed integer and NOT
    clamped, when that is a row of the operand; no row (the update is dropped) when it is negative or `≥ N`. -/
def landRow (N M : Nat) {w : Nat} (idx : IVec ⟨2, ![M, 1]⟩ w) (e : Fin M) : Option (Fin N) :=
  if h : 0 ≤ (idx (ix2 e 0)).toInt ∧ (idx (ix2 e 0)).toInt < N then
    some ⟨(idx (ix2 e 0)).toInt.toNat, by omega⟩
  else none

/-- The row-scatter dimension numbers as a literal record: operand `[N, C]`, scatter indices `[M, 1]`, updates
    `[M, C]`; update window axis `1`, inserted window axis `0`, scatter index to operand axis `0`, index vector on
    axis `1`. -/
abbrev rowScatterDims (N M C : Nat)
    (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

section RowScatter
variable {N M C w : Nat} (wf : ScatterDims.WF ⟨2, ![N, C]⟩ ⟨2, ![M, 1]⟩ ⟨2, ![M, C]⟩ [1] [0] [0] 1)
  (idx : IVec ⟨2, ![M, 1]⟩ w) (e : Fin M) (j : Fin C)

/-- On the row axis the window of update `(e, j)` starts at the scatter index `idx[e, 0]`, read signed. -/
theorem start_row : (rowScatterDims N M C wf).start (ix2 e j) idx 0 = (idx (ix2 e 0)).toInt := by
  unfold ScatterDims.start
  rw [dif_pos (show (0 : Fin 2) ∈ (rowScatterDims N M C wf).scatterDimsToOperandDims from zero_mem_zero)]
  have hsi : (rowScatterDims N M C wf).siIdx (ix2 e j)
      ⟨List.idxOf (0 : Fin 2) (rowScatterDims N M C wf).scatterDimsToOperandDims,
        List.idxOf_lt_length_iff.2 zero_mem_zero⟩ = ix2 e 0 := by
    funext b; refine Fin.ext ?_
    match b with
    | ⟨0, _⟩ => rfl
    | ⟨1, _⟩ => rfl
  rw [hsi]

/-- On the column axis the window starts at `0`. -/
theorem start_col : (rowScatterDims N M C wf).start (ix2 e j) idx 1 = 0 := by
  unfold ScatterDims.start
  rw [dif_neg (show (1 : Fin 2) ∉ (rowScatterDims N M C wf).scatterDimsToOperandDims from one_not_mem_zero)]

/-- On the row axis (inserted) the window coordinate is `0`. -/
theorem window_row : (rowScatterDims N M C wf).window (ix2 e j) 0 = 0 := by
  unfold ScatterDims.window
  rw [dif_neg (show (0 : Fin 2) ∉ (rowScatterDims N M C wf).sKept from
    fun h => ((mem_kept _ _).mp h) zero_mem_zero)]

/-- On the column axis the window coordinate is the update's column. -/
theorem window_col : (rowScatterDims N M C wf).window (ix2 e j) 1 = j.val := by
  unfold ScatterDims.window
  rw [dif_pos (show (1 : Fin 2) ∈ (rowScatterDims N M C wf).sKept from (mem_kept _ _).mpr one_not_mem_zero)]
  rfl

/-- The literal row scatter sends update `(e, j)` to `(landRow e, j)`, or drops it when `landRow e` is no row. -/
theorem resultIdx_rowDims :
    (rowScatterDims N M C wf).resultIdx? (ix2 e j) idx = (landRow N M idx e).map (fun r => ix2 r j) := by
  unfold ScatterDims.resultIdx? landRow
  by_cases h : 0 ≤ (idx (ix2 e 0)).toInt ∧ (idx (ix2 e 0)).toInt < N
  · have hall : ∀ a, 0 ≤ (rowScatterDims N M C wf).start (ix2 e j) idx a + (rowScatterDims N M C wf).window (ix2 e j) a ∧
        (rowScatterDims N M C wf).start (ix2 e j) idx a + (rowScatterDims N M C wf).window (ix2 e j) a
          < (⟨2, ![N, C]⟩ : Shape).size a := by
      intro a
      match a with
      | ⟨0, _⟩ =>
        show 0 ≤ (rowScatterDims N M C wf).start (ix2 e j) idx 0 + ((rowScatterDims N M C wf).window (ix2 e j) 0 : ℤ) ∧
          (rowScatterDims N M C wf).start (ix2 e j) idx 0 + ((rowScatterDims N M C wf).window (ix2 e j) 0 : ℤ) < (N : ℤ)
        rw [start_row, window_row]
        simpa using h
      | ⟨1, _⟩ =>
        show 0 ≤ (rowScatterDims N M C wf).start (ix2 e j) idx 1 + ((rowScatterDims N M C wf).window (ix2 e j) 1 : ℤ) ∧
          (rowScatterDims N M C wf).start (ix2 e j) idx 1 + ((rowScatterDims N M C wf).window (ix2 e j) 1 : ℤ) < (C : ℤ)
        rw [start_col, window_col]
        have := j.isLt
        omega
    rw [dif_pos hall, dif_pos h]
    simp only [Option.map_some]
    congr 1
    funext a; refine Fin.ext ?_
    match a with
    | ⟨0, _⟩ =>
      show ((rowScatterDims N M C wf).start (ix2 e j) idx 0 + ((rowScatterDims N M C wf).window (ix2 e j) 0 : ℤ)).toNat
        = (idx (ix2 e 0)).toInt.toNat
      rw [start_row, window_row]
      simp
    | ⟨1, _⟩ =>
      show ((rowScatterDims N M C wf).start (ix2 e j) idx 1 + ((rowScatterDims N M C wf).window (ix2 e j) 1 : ℤ)).toNat
        = j.val
      rw [start_col, window_col]
      simp
  · have hnot : ¬ ∀ a, 0 ≤ (rowScatterDims N M C wf).start (ix2 e j) idx a + (rowScatterDims N M C wf).window (ix2 e j) a ∧
        (rowScatterDims N M C wf).start (ix2 e j) idx a + (rowScatterDims N M C wf).window (ix2 e j) a
          < (⟨2, ![N, C]⟩ : Shape).size a := by
      intro hall
      apply h
      have h0 : 0 ≤ (rowScatterDims N M C wf).start (ix2 e j) idx 0 + ((rowScatterDims N M C wf).window (ix2 e j) 0 : ℤ) ∧
          (rowScatterDims N M C wf).start (ix2 e j) idx 0 + ((rowScatterDims N M C wf).window (ix2 e j) 0 : ℤ) < (N : ℤ) :=
        hall 0
      rw [start_row, window_row] at h0
      simpa using h0
    rw [dif_neg hnot, dif_neg h]
    rfl

/-- The literal row scatter-add at `(i, j)`: the operand's element plus the updates of column `j` over the update
    rows that land at row `i`. -/
theorem scatterAdd_rowDims_apply (x : FVec Ideal ⟨2, ![N, C]⟩ .f32) (upd : FVec Ideal ⟨2, ![M, C]⟩ .f32) (i : Fin N) :
    Host.scatterAdd (rowScatterDims N M C wf) x idx upd (ix2 i j)
      = x (ix2 i j) + ∑ e ∈ Finset.univ.filter (fun e : Fin M => landRow N M idx e = some i), upd (ix2 e j) := by
  show Ideal.hostScatterAdd (rowScatterDims N M C wf) x idx upd (ix2 i j) = _
  unfold Ideal.hostScatterAdd
  congr 1
  symm
  refine Finset.sum_bij (fun e _ => ix2 e j) ?_ ?_ ?_ ?_
  · intro e he
    simp only [Finset.mem_filter, Finset.mem_univ, true_and] at he ⊢
    rw [resultIdx_rowDims, he]
    rfl
  · intro e₁ _ e₂ _ h
    exact congrFun h 0
  · intro u hu
    simp only [Finset.mem_filter, Finset.mem_univ, true_and] at hu
    obtain ⟨e', j', rfl⟩ : ∃ (e' : Fin M) (j' : Fin C), u = ix2 e' j' := ⟨u 0, u 1, eq_ix2 u⟩
    rw [resultIdx_rowDims] at hu
    cases hl : landRow N M idx e' with
    | none => rw [hl] at hu; simp at hu
    | some r =>
      rw [hl] at hu
      simp only [Option.map_some, Option.some.injEq] at hu
      have h0 : r = i := congrFun hu 0
      have h1 : j' = j := congrFun hu 1
      subst h0 h1
      exact ⟨e', by simp [hl], rfl⟩
  · intro e _
    rfl

end RowScatter

/-! ## The same two facts for any record with the row-scatter fields -/

/-- WHERE A ROW SCATTER SENDS AN UPDATE: for row-indexed dimension numbers (update window axis `1`, inserted window
    axis `0`, scatter index to operand axis `0`, one scatter index per update row), update `(e, j)` lands at
    `(r, j)` when the scatter index `idx[e, 0]`, read signed, is a row `r` of the operand, and is dropped otherwise. -/
theorem resultIdx_row {N M C w : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1) (idx : IVec ⟨2, ![M, 1]⟩ w) (e : Fin M) (j : Fin C) :
    d.resultIdx? (ix2 e j) idx = (landRow N M idx e).map (fun r => ix2 r j) := by
  obtain ⟨uw, iw, sd, iv, wf⟩ := d
  dsimp only at huw hiw hsd hiv
  subst huw hiw hsd hiv
  exact resultIdx_rowDims wf idx e j

/-- A ROW SCATTER-ADD READ AT `(i, j)`, at the ideal instance: for the same dimension numbers, the accumulating
    scatter of updates `upd : [M, C]` into `x : [N, C]` has, at row `i` and column `j`, the element `x (i, j)` plus
    the exact sum of `upd (e, j)` over the update rows `e` whose scatter index is the row `i`. Column `j` of the
    result depends on column `j` of the operand and of the updates only. -/
theorem scatterAdd_row_apply {N M C w : Nat} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hiv : d.indexVectorDim = 1) (x : FVec Ideal ⟨2, ![N, C]⟩ .f32) (idx : IVec ⟨2, ![M, 1]⟩ w)
    (upd : FVec Ideal ⟨2, ![M, C]⟩ .f32) (i : Fin N) (j : Fin C) :
    Host.scatterAdd d x idx upd (ix2 i j)
      = x (ix2 i j) + ∑ e ∈ Finset.univ.filter (fun e : Fin M => landRow N M idx e = some i), upd (ix2 e j) := by
  obtain ⟨uw, iw, sd, iv, wf⟩ := d
  dsimp only at huw hiw hsd hiv
  subst huw hiw hsd hiv
  exact scatterAdd_rowDims_apply wf idx j x upd i

end Cert.Lib.RowScatter

end
-- ==== Proof.RefValue.lean ====
/-
  THE REFERENCE'S RESULT, AS A TERM OF ITS TWO ARGUMENTS, IS THE GATHERED ROWS.

  The reference looks rows of a table up by a list of 32-bit words. Its operations, composed: a word that is
  negative (read signed) has the number of rows added to it (`wrapped`); the words are laid out as a column
  (`col`); a row of the result is kept when its word lies in [0, 999999] signed (`mask`) and is replaced by a
  not-a-number otherwise; the rows themselves come from a gather, which reads each word signed and clamps it into
  [0, 999999] (`term`).

  When every word of the list lies in [0, 999999] signed: no word is negative, so the wrap changes nothing; every
  row is kept, so the replacement value is never read; the clamp changes nothing; and the signed and unsigned values
  of such a word agree and are below the number of rows. Hence entry (p, q) of the result is entry (word p, q) of
  the table: the term is `Cert.Spec.rows`. Nothing here depends on how table entries are represented.
-/
import proofs.«217944_g2619930051674_cont_9to1_157_43_alg».proof.ReferenceIdeal
import proofs.«217944_g2619930051674_cont_9to1_157_43_alg».proof.Proof.Spec
import proofs.«217944_g2619930051674_cont_9to1_157_43_alg».proof.Proof.LibRowScatter
import Idealize.ShloMosaic.Lib.Affine
import Idealize.ShloMosaic.PureOps.Reduce
import Idealize.ShloMosaic.Lib.ValueIdx
import Idealize.ShloMosaic.Lib.Pipeline.Value

noncomputable section

namespace Cert.ReferenceIdeal.RefValue

open Idealize.ShloMosaic Idealize.ShloMosaic.ValueIdx
open Cert.ReferenceIdeal Cert.ReferenceIdeal.Facts₀
open Cert.Lib.RowScatter (gatherRow gather_row_apply)

variable {F : FTy → Type} [FloatOps F] [Cert.ReferenceIdeal.Facts]

/-! ## The composed term, piece by piece -/

/-- The list with the number of rows added to each negative word. -/
def wrapped (uid : IVec S16384 32) : IVec S16384 32 :=
  select (cmpi .slt uid (broadcastInDim S16384 ![] bcast_S_S16384 (constantI S_ 32 0#32)))
    (addi uid (broadcastInDim S16384 ![] bcast_S_S16384 (constantI S_ 32 1000000#32))) uid

/-- The wrapped list as a column. -/
def col (uid : IVec S16384 32) : IVec S16384x1 32 :=
  broadcastInDim S16384x1 ![0] bcast_S16384_S16384x1_0 (wrapped uid)

/-- Per row: is the wrapped word in [0, 999999], read signed? (A conjunction over the column's one entry.) -/
def mask (uid : IVec S16384 32) : IVec S16384 1 :=
  Host.reduce IntOp.andi
    (andi (cmpi .sge (col uid) (broadcastInDim S16384x1 ![] bcast_S_S16384x1 (constantI S_ 32 0#32)))
      (cmpi .sle (col uid) (broadcastInDim S16384x1 ![0, 1] bcast_S1x1_S16384x1_0_1
        (broadcastInDim S1x1 ![1] bcast_S1_S1x1_1 (constantI S1 32 999999#32)))))
    (constantI S_ 1 1#1) reducesTo_S16384x1_S16384_d1 h_S_

/-- The reference's result as a term of its arguments: the gathered rows where the mask holds, a not-a-number
    elsewhere. -/
def term (uid : IVec S16384 32) (table : FVec F S1000000x64 .f32) : FVec F S16384x64 .f32 :=
  select (broadcastInDim S16384x64 ![0] bcast_S16384_S16384x64_0 (mask uid))
    (Host.gather gather_S1000000x64_S16384x1_S16384x64_1_0_n_n_0_1_164 table (col uid))
    (broadcastInDim S16384x64 ![] bcast_S_S16384x64 (constant S_ .f32 0x7FC00000#32))

/-! ## Words in range -/

/-- The signed value of the word 0. -/
theorem toInt_zero32 : (0#32).toInt = 0 := by decide
/-- The signed value of the word 999999. -/
theorem toInt_top32 : (999999#32).toInt = 999999 := by decide

/-- A 32-bit word whose signed value is in [0, 999999] has that value unsigned too. -/
theorem toInt_eq_toNat (w : BitVec 32) (h0 : 0 ≤ w.toInt) (h1 : w.toInt ≤ 999999) : w.toInt = (w.toNat : Int) := by
  have h32 := w.isLt
  unfold BitVec.toInt at h0 h1 ⊢
  split <;> [rfl; (split at h1 <;> omega)]

/-- For such a word, clamping the signed value into [0, 999999] and reducing the unsigned value modulo 1000000
    give the same number: the word's value. -/
theorem clamp_eq_mod (w : BitVec 32) (h0 : 0 ≤ w.toInt) (h1 : w.toInt ≤ 999999) :
    min w.toInt.toNat (1000000 - 1) = w.toNat % 1000000 := by
  have hI := toInt_eq_toNat w h0 h1
  have hlt : w.toNat < 1000000 := by omega
  rw [hI, Int.toNat_natCast, Nat.mod_eq_of_lt hlt]
  exact Nat.min_eq_left (by omega)

/-- A conjunction of ones, started at one, is one. -/
theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_one f hf l

/-! ## The pieces read at an index, for a list of words in range -/

section InRange

variable (uid : IVec S16384 32)

/-- The wrap leaves a nonnegative word alone. -/
theorem wrapped_apply (p : Fin 16384) (h0 : 0 ≤ (uid (ix1 p)).toInt) : wrapped uid (ix1 p) = uid (ix1 p) := by
  have hn : ¬ IntOp.cmpi .slt (uid (ix1 p)) (0#32) = 1#1 := fun hc => by
    have := IntOp.cmpi_slt.1 hc
    rw [toInt_zero32] at this
    omega
  show Scalar.select (IntOp.cmpi .slt (uid (ix1 p)) (0#32)) _ (uid (ix1 p)) = uid (ix1 p)
  rw [eq_zero_of_ne_one hn, select_zero]

/-- The column's entry in row `e` is the wrapped list's word `e`. -/
theorem col_apply (e : Fin 16384) : col uid (ix2 e (0 : Fin 1)) = wrapped uid (ix1 e) :=
  broadcastInDim_apply _ _ _ _ (ix1 e) (fun a => match a with | ⟨0, _⟩ => rfl)

variable (h0 : ∀ p : Fin 16384, 0 ≤ (uid (ix1 p)).toInt) (h1 : ∀ p : Fin 16384, (uid (ix1 p)).toInt ≤ 999999)
include h0 h1

/-- Every row is kept. -/
theorem mask_apply (p : Fin 16384) : mask uid (ix1 p) = 1#1 := by
  unfold mask
  rw [Host.reduce_eq_foldl]
  refine foldl_andi_one _ (fun n => ?_) _
  have hn1 : (n 1 : Fin 1) = (0 : Fin 1) := Fin.ext (Nat.lt_one_iff.1 (idx2_lt1 n))
  obtain ⟨e, rfl⟩ : ∃ e : Fin 16384, n = ix2 e (0 : Fin 1) :=
    ⟨n 0, (eq_ix2 n).trans (congrArg (fun b : Fin 1 => ix2 (n 0 : Fin 16384) b) hn1)⟩
  show IntOp.andi (IntOp.cmpi .sge (col uid (ix2 e (0 : Fin 1))) (0#32))
    (IntOp.cmpi .sle (col uid (ix2 e (0 : Fin 1))) (999999#32)) = 1#1
  rw [col_apply, wrapped_apply uid e (h0 e)]
  exact IntOp.andi_eq_one.2 ⟨IntOp.cmpi_sge.2 (by rw [toInt_zero32]; exact h0 e),
    IntOp.cmpi_sle.2 (by rw [toInt_top32]; exact h1 e)⟩

/-- The row the gather reads for result row `p` is the row the word `p` names. -/
theorem gatherRow_eq (p : Fin 16384) :
    gatherRow 1000000 16384 (by decide) (col uid) p = Cert.Spec.rowOf (uid (ix1 p)) := by
  refine Fin.ext ?_
  show min (col uid (ix2 p (0 : Fin 1))).toInt.toNat (1000000 - 1) = (uid (ix1 p)).toNat % 1000000
  rw [col_apply, wrapped_apply uid p (h0 p)]
  exact clamp_eq_mod _ (h0 p) (h1 p)

/-- THE VALUE: for a list of words in [0, 999999] the reference's term is the gathered rows. -/
theorem term_eq_rows (table : FVec F S1000000x64 .f32) : term uid table = Cert.Spec.rows uid table := by
  funext j
  obtain ⟨p, q, rfl⟩ : ∃ (p : Fin 16384) (q : Fin 64), j = ix2 p q := ⟨j 0, j 1, eq_ix2 j⟩
  rw [Cert.Spec.rows_apply]
  unfold term
  rw [select_apply]
  have hm : broadcastInDim S16384x64 ![0] bcast_S16384_S16384x64_0 (mask uid) (ix2 p q) = 1#1 := by
    rw [broadcastInDim_apply _ _ _ _ (ix1 p) (fun a => match a with | ⟨0, _⟩ => rfl)]
    exact mask_apply uid h0 h1 p
  rw [hm, select_one]
  rw [gather_row_apply (by decide) _ rfl rfl rfl rfl rfl rfl rfl, gatherRow_eq uid h0 h1 p]

end InRange

end Cert.ReferenceIdeal.RefValue

end
-- ==== Proof.RefRun.lean ====
/-
  THE REFERENCE'S RUN, ITS RESULT NAMED.

  The reference is a straight line of twenty-three array operations (the lookup function's twenty-two with the one
  operation of the selection function it calls in place of the call), each writing a buffer of its own. Such a line
  always runs to the end; afterwards every buffer holds what the operations, composed, make of the two argument
  arrays, and the argument arrays are as they were. The result buffer's composed term is
  `Cert.ReferenceIdeal.RefValue.term` of the arguments (`run_term`), for any representation of table entries.
  Under the certificate's precondition the list's words lie in [0, 999999], and then that term is the gathered
  rows `Cert.Spec.rows` (`run`).
-/
import proofs.«217944_g2619930051674_cont_9to1_157_43_alg».proof.Defs
import proofs.«217944_g2619930051674_cont_9to1_157_43_alg».proof.Proof.Gen.ReferenceIdeal
import proofs.«217944_g2619930051674_cont_9to1_157_43_alg».proof.Proof.Gen.Pre_input_domain
import proofs.«217944_g2619930051674_cont_9to1_157_43_alg».proof.Proof.PreRange
import proofs.«217944_g2619930051674_cont_9to1_157_43_alg».proof.Proof.RefValue
import Idealize.ShloMosaic.Lib.StableHlo.Run

noncomputable section

namespace Cert.ReferenceIdeal.RefRun

open Cert.ReferenceIdeal Cert.ReferenceIdeal.Facts₀
open Idealize.ShloMosaic Idealize.ShloMosaic.TcCoe Idealize.SL.Sem Idealize.ShloMosaic.StableHlo

section Line

variable {F : FTy → Type} [FloatOps F] [Cert.ReferenceIdeal.Facts]

/-- The reference's operations in order, the two calls unfolded: the lookup function's over its call's buffers,
    the selection it calls (one operation) in seventh place. -/
abbrev ops : List (HloOp τ sig (Elt F)) :=
  [ TRef.nullary main_call0.c (constantI S_ 32 0#32),
    TRef.unary main_call0.c main_call0.v0 (broadcastInDim S16384 ![] bcast_S_S16384),
    TRef.binary (.of main_arg0) main_call0.v0 main_call0.v1 (cmpi .slt),
    TRef.nullary main_call0.c_0 (constantI S_ 32 1000000#32),
    TRef.unary main_call0.c_0 main_call0.v2 (broadcastInDim S16384 ![] bcast_S_S16384),
    TRef.binary (.of main_arg0) main_call0.v2 main_call0.v3 addi,
    TRef.ternary main_call0.v1 main_call0.v3 (.of main_arg0) main_call0.call0.v0 select,
    TRef.unary main_call0.call0.v0 main_call0.v5 (broadcastInDim S16384x1 ![0] bcast_S16384_S16384x1_0),
    TRef.nullary main_call0.c_1 (constantI S1 32 999999#32),
    TRef.nullary main_call0.c_2 (constantI S_ 32 0#32),
    TRef.unary main_call0.c_2 main_call0.v6 (broadcastInDim S16384x1 ![] bcast_S_S16384x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S16384x1 ![0, 1] bcast_S1x1_S16384x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S16384x1_S16384_d1 h_S_),
    TRef.binary (.of main_arg1) main_call0.v5 main_call0.v13 (fun x i => Host.gather gather_S1000000x64_S16384x1_S16384x64_1_0_n_n_0_1_164 x i),
    TRef.unary main_call0.v12 main_call0.v14 (broadcastInDim S16384x64 ![0] bcast_S16384_S16384x64_0),
    TRef.nullary main_call0.cst (constant S_ .f32 0x7FC00000#32),
    TRef.unary main_call0.cst main_call0.v15 (broadcastInDim S16384x64 ![] bcast_S_S16384x64),
    TRef.ternary main_call0.v14 main_call0.v13 main_call0.v15 main_call0.v16 select ]

set_option maxRecDepth 1024 in
/-- The reference is that straight line: the two functions' definitions unfolded at their calls, both sides are one
    chain of steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

attribute [local irreducible] Host.reduce Host.gather in
set_option maxRecDepth 8192 in
/-- What the result buffer holds after the line: the composed term of the two argument buffers' contents. The
    conjunction over a row and the gather are kept folded while the two sides are compared: the comparison never
    looks inside them. -/
theorem out_eq (V : Valuation τ sig (Elt F)) :
    after ops V (main_v0 : DevRef τ sig)
      = RefValue.term (F := F) (V (main_arg0 : DevRef τ sig)) (V (main_arg1 : DevRef τ sig)) := by
  after_results
  rfl

/-- The line leaves the list of words as it was. -/
theorem arg0_eq (V : Valuation τ sig (Elt F)) :
    after ops V (main_arg0 : DevRef τ sig) = V (main_arg0 : DevRef τ sig) := by
  simp only [after_cons, after_nil]
  rfl

/-- The line leaves the table as it was. -/
theorem arg1_eq (V : Valuation τ sig (Elt F)) :
    after ops V (main_arg1 : DevRef τ sig) = V (main_arg1 : DevRef τ sig) := by
  simp only [after_cons, after_nil]
  rfl

/-- For any representation of table entries, from any memory with zero counters: every weakly fair execution of
    the reference terminates with the result buffer at the composed term of the arguments, the arguments unchanged. -/
theorem run_term (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0)
          = RefValue.term (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

end Line

/-- THE REFERENCE'S RUN: under the precondition, from any memory with zero counters, every weakly fair execution of
    the reference terminates with the result buffer holding the gathered rows of its two arguments, the arguments
    unchanged. -/
theorem run [hReferenceIdeal : Cert.ReferenceIdeal.Facts] [hPre_input_domain : Cert.Pre_input_domain.Facts]
    (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v0)
            = Cert.Spec.rows (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans
        (RefValue.term_eq_rows (F := Ideal) _
          (fun p => Cert.PreRange.uid_nonneg (F := Ideal) _ _ (hpre c) p)
          (fun p => Cert.PreRange.uid_le (F := Ideal) _ _ (hpre c) p) _),
      (h c).2⟩)
    (run_term (F := Ideal) m g)

end Cert.ReferenceIdeal.RefRun

end
-- ==== Proof.KICommon.lean ====
/-
  THE SETTING of the idealized kernel's run: the program as the launch theorem reads it, the ghost state, the three
  arrays, and WHO HOLDS WHAT while the thirty-two vector subcores work.

  The list of row numbers and the table are only read. The TensorCore keeps a share of each for itself (so that it
  can say, at the end, that they are unchanged) and hands each of the two SparseCores one read share of each; a
  SparseCore hands each of its sixteen vector subcores one read share of each. A share that has been handed down is
  never needed again, so nothing is handed back.
  The result has 16384 rows. Vector subcore `i` of SparseCore `c` fills the 512 rows from row `512 (2 i + c)` on —
  block number `2 i + c` of thirty-two — and nobody else touches them: it is handed those rows whole and hands them
  back holding the gathered rows (`Cert.Spec.rows` of the two argument arrays). The thirty-two blocks are disjoint
  and cover the result, so what comes back to the TensorCore is the whole result at the gathered rows.
-/
import proofs.«217944_g2619930051674_cont_9to1_157_43_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«217944_g2619930051674_cont_9to1_157_43_alg».proof.Proof.Gen.KernelIdeal
import proofs.«217944_g2619930051674_cont_9to1_157_43_alg».proof.Proof.Gen.KernelIdeal.Skeleton
import proofs.«217944_g2619930051674_cont_9to1_157_43_alg».proof.Proof.Spec

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the three arrays -/

variable (m : (ℓ : Loc nD τ sig) → Buf (Elt F) ℓ) (ρ : Dev nD → PrngReg)

/-- The list of row numbers, the table (the arguments) and the result, as locations of device `d`. -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- The gathered rows of the launch memory's two argument arrays: what the result must hold at the end. -/
def OUT (d : Dev nD) : Buf (Elt F) (oLoc d) :=
  (Cert.Spec.rows (α := Elt F .f32) (m (iLoc d)) (m (xLoc d)) : S16384x64.Idx → Elt F .f32)

/-- What the body asks of the launch memory: every word of the list names a row of the table. -/
def PreOK : Prop := ∀ (d : Dev nD) (p : Fin 16384), ((m (iLoc d) : S16384.Idx → BitVec 32) (ix1 p)).toNat < 1000000

/-! ## The shares of the two arguments -/

/-- What the TensorCore keeps of an argument, -/
abbrev qKeep : PosShare TreeShare := Transfers.shareDrop fullShare 2
/-- what SparseCore `c` is handed, -/
abbrev qCore (c : Fin 2) : PosShare TreeShare := Transfers.shareTokN fullShare c.val
/-- and what its vector subcore `i` is. -/
abbrev qTile (c : Fin 2) (i : Fin 16) : PosShare TreeShare := Transfers.shareTokN (qCore c) i.val

/-! ## The blocks of the result -/

local notation "oV" => (Memref.whole Cert.KernelIdeal.main_v0_scv : Memref Cert.KernelIdeal.sig Kind.scVector Space.hbm Cert.KernelIdeal.S16384x64 EltTy.f32)

/-- Block `2 i + c` of the result's thirty-two blocks of 512 rows. -/
abbrev oix (c : Fin 2) (i : Fin 16) : Fin 2 → Nat := ![2 * i.val + c.val, 0]
theorem oblk_inb (c : Fin 2) (i : Fin 16) : ∀ a, (oix c i a + 1) * S512x64.size a ≤ S16384x64.size a := by
  have := c.isLt; have := i.isLt; intro a; fin_cases a
  · show (2 * i.val + c.val + 1) * 512 ≤ 16384; omega
  · show (0 + 1) * 64 ≤ 64; omega
abbrev oblk (c : Fin 2) (i : Fin 16) : Rect S16384x64 := Rect.block S512x64.size (oix c i) (oblk_inb c i)
abbrev oBlkSet (c : Fin 2) (i : Fin 16) : Finset S16384x64.Idx := ((oV).view.slice (oblk c i)).set
/-- The sixteen blocks of SparseCore `c`'s vector subcores, together. -/
abbrev oCoreSet (c : Fin 2) : Finset S16384x64.Idx := (Finset.univ : Finset (Fin 16)).biUnion (oBlkSet c)

variable [FloatOps F]

/-! ## What the handshakes carry -/

abbrev iSh (d : Dev nD) (q : PosShare TreeShare) : sProp 𝕄 := iLoc d ↦{q} m (iLoc d)
abbrev xSh (d : Dev nD) (q : PosShare TreeShare) : sProp 𝕄 := xLoc d ↦{q} m (xLoc d)
abbrev oBlkPts (d : Dev nD) (c : Fin 2) (i : Fin 16) (f : Buf (Elt F) (oLoc d)) : sProp 𝕄 := oLoc d ↦[oBlkSet c i]{fullShare} f
abbrev oCorePts (d : Dev nD) (c : Fin 2) (f : Buf (Elt F) (oLoc d)) : sProp 𝕄 := oLoc d ↦[oCoreSet c]{fullShare} f

/-- The one call: SparseCore `c` takes a read share of each argument and its sixteen blocks of the result, and brings the
    blocks back at the gathered rows; a vector subcore takes a read share of each argument and its block, and brings
    the block back at the gathered rows. -/
def P : (K (F := F)).Pay (nD := nD) (Val := Elt F) (Name := ℕ) (U := UU) where
  st := fun q d c => match q with
    | 0 => iprop(iSh m d (qCore (Fin.cast nCore_zero c)) ∗ xSh m d (qCore (Fin.cast nCore_zero c)) ∗ oCorePts d (Fin.cast nCore_zero c) (m (oLoc d)))
  dn := fun q d c => match q with
    | 0 => oCorePts d (Fin.cast nCore_zero c) (OUT m d)
  go := fun q d c i => match q with
    | 0 => iprop(iSh m d (qTile (Fin.cast nCore_zero c) (Fin.cast nSub_zero i)) ∗ xSh m d (qTile (Fin.cast nCore_zero c) (Fin.cast nSub_zero i))
            ∗ oBlkPts d (Fin.cast nCore_zero c) (Fin.cast nSub_zero i) (m (oLoc d)))
  td := fun q d c i => match q with
    | 0 => oBlkPts d (Fin.cast nCore_zero c) (Fin.cast nSub_zero i) (OUT m d)
  x := fun _ _ => iprop(emp)

instance P_storable : (P (F := F) m).IsStorable where
  st q d c := match q with
    | 0 => (inferInstance : BI.Storable (upEmb : UEmb _ 𝕄)
        iprop(iSh m d (qCore (Fin.cast nCore_zero c)) ∗ xSh m d (qCore (Fin.cast nCore_zero c)) ∗ oCorePts d (Fin.cast nCore_zero c) (m (oLoc d))))
  dn q d c := match q with
    | 0 => (inferInstance : BI.Storable (upEmb : UEmb _ 𝕄) (oCorePts d (Fin.cast nCore_zero c) (OUT m d)))
  go q d c i := match q with
    | 0 => (inferInstance : BI.Storable (upEmb : UEmb _ 𝕄)
        iprop(iSh m d (qTile (Fin.cast nCore_zero c) (Fin.cast nSub_zero i)) ∗ xSh m d (qTile (Fin.cast nCore_zero c) (Fin.cast nSub_zero i))
            ∗ oBlkPts d (Fin.cast nCore_zero c) (Fin.cast nSub_zero i) (m (oLoc d))))
  td q d c i := match q with
    | 0 => (inferInstance : BI.Storable (upEmb : UEmb _ 𝕄) (oBlkPts d (Fin.cast nCore_zero c) (Fin.cast nSub_zero i) (OUT m d)))

end Cert.Proof.KI

end
-- ==== Proof.KILaunch.lean ====
/-
  THE LAUNCH of the idealized kernel's run: how the three arrays are dealt out to the two SparseCores and their
  thirty-two vector subcores, how the result is gathered back, and the run of the whole program from the proof of
  one vector subcore's task.

  The geometry. Block `2 i + c` of the result's thirty-two blocks of 512 rows belongs to vector subcore `i` of
  SparseCore `c`. The block number determines `(c, i)` (`c` is its parity, `i` its half), so different places have
  disjoint blocks; and row `r` lies in block `r / 512 = 2 (r / 1024) + (r / 512) % 2`, so the blocks cover the result.
  Hence the result whole is the two SparseCores' sixteen-block sets, and each of those is its sixteen blocks, as
  separating conjunctions of points-to assertions at ONE contents function: dealing out and gathering back are the
  same equation read in the two directions.

  The two arguments are only read: a points-to at a share is a remainder and `n` read tokens; the TensorCore keeps the
  remainder after two tokens (and reads from it, at the end, that the arguments are unchanged), a SparseCore drops the
  remainder after sixteen. Nothing is joined back.
-/
import proofs.«217944_g2619930051674_cont_9to1_157_43_alg».proof.Proof.KICommon

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The blocks of the result: disjoint, and a cover -/

theorem oBlkSet_eq (c : Fin 2) (i : Fin 16) : oBlkSet c i = (oblk c i).set := by
  show ((View.whole (main_v0_scv : Ref sig .scVector)).slice (oblk c i)).set = _
  rw [View.set_slice]; exact Finset.map_refl

/-- The block number `2 i + c` determines the SparseCore `c` (its parity) and the vector subcore `i` (its half). -/
theorem oix_inj {c c' : Fin 2} {i i' : Fin 16} (h : oix c i = oix c' i') : c = c' ∧ i = i' := by
  have h0 := congrFun h 0
  simp only [oix, Matrix.cons_val_zero] at h0
  have := c.isLt; have := c'.isLt
  exact ⟨Fin.ext (by omega), Fin.ext (by omega)⟩

theorem oblks_disjoint (c : Fin 2) :
    ∀ i ∈ (Finset.univ : Finset (Fin 16)), ∀ j ∈ (Finset.univ : Finset (Fin 16)), i ≠ j → Disjoint (oBlkSet c i) (oBlkSet c j) :=
  fun i _ j _ h => by rw [oBlkSet_eq, oBlkSet_eq]; exact Rect.block_disjoint _ _ fun e => h (oix_inj e).2

theorem ocores_disjoint :
    ∀ c ∈ (Finset.univ : Finset (Fin 2)), ∀ c' ∈ (Finset.univ : Finset (Fin 2)), c ≠ c' → Disjoint (oCoreSet c) (oCoreSet c') := by
  intro c _ c' _ h
  refine (Finset.disjoint_biUnion_left _ _ _).mpr fun i _ => (Finset.disjoint_biUnion_right _ _ _).mpr fun j _ => ?_
  rw [oBlkSet_eq, oBlkSet_eq]; exact Rect.block_disjoint _ _ fun e => h (oix_inj e).1

set_option maxRecDepth 4096 in
/-- Row `r` of the result lies in block `r / 512`, which is block `2 i + c` for `i = r / 1024` and `c = (r / 512) % 2`. -/
theorem ocores_cover : (Finset.univ : Finset (Fin 2)).biUnion oCoreSet = Finset.univ := by
  refine Finset.eq_univ_of_forall fun x => Finset.mem_biUnion.mpr ?_
  have h0 : (x 0).val < 16384 := (x 0).isLt
  have h1 : (x 1).val < 64 := (x 1).isLt
  refine ⟨⟨((x 0).val / 512) % 2, by omega⟩, Finset.mem_univ _, Finset.mem_biUnion.mpr ⟨⟨(x 0).val / 1024, by omega⟩, Finset.mem_univ _, ?_⟩⟩
  rw [oBlkSet_eq, Rect.mem_set_unit]
  intro a
  fin_cases a
  · show (2 * ((x 0).val / 1024) + ((x 0).val / 512) % 2) * 512 ≤ (x 0).val
      ∧ (x 0).val < (2 * ((x 0).val / 1024) + ((x 0).val / 512) % 2) * 512 + 512
    omega
  · show 0 * 64 ≤ (x 1).val ∧ (x 1).val < 0 * 64 + 64; omega

/-! ## The result whole, a SparseCore's sixteen blocks, a block -/

/-- A SparseCore's part of the result is its sixteen blocks, -/
theorem oCore_blks (d : Dev nD) (c : Fin 2) (f : Buf (Elt F) (oLoc d)) :
    (oCorePts d c f : sProp 𝕄) = bigSep Finset.univ fun i : Fin 16 => oBlkPts d c i f :=
  pointsTo_biUnion Finset.univ (ℓ := oLoc d) (oBlkSet c) (oblks_disjoint c)

/-- and the result whole is the two SparseCores' parts. -/
theorem oPts_cores (d : Dev nD) (f : Buf (Elt F) (oLoc d)) :
    (oLoc d ↦{fullShare} f : sProp 𝕄) = bigSep Finset.univ fun c : Fin 2 => oCorePts d c f := by
  rw [← pointsTo_biUnion Finset.univ (ℓ := oLoc d) oCoreSet ocores_disjoint, ocores_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]

/-! ## A SparseCore's operands to its sixteen vector subcores, and back -/

/-- SparseCore `c`'s read share of each argument gives sixteen read tokens (the remainder is dropped); its part of the
    result is its sixteen blocks. -/
theorem go_split (d : Dev nD) (c : Fin 2) :
    iprop(iSh m d (qCore c) ∗ xSh m d (qCore c) ∗ oCorePts d c (m (oLoc d)))
      ⊢ (bigSep Finset.univ fun i : Fin 16 => iprop(iSh m d (qTile c i) ∗ xSh m d (qTile c i) ∗ oBlkPts d c i (m (oLoc d))) : sProp 𝕄) := by
  rw [bigSep_sep', bigSep_sep', oCore_blks]
  iintro ⟨Hi, Hx, Ho⟩
  ihave Hi' := (Transfers.pointsTo_toks_split (ℓ := iLoc d) (S := Finset.univ) (f := m (iLoc d)) (qCore c) 16) $$ Hi
  icases Hi' with ⟨-, Hi⟩
  ihave Hx' := (Transfers.pointsTo_toks_split (ℓ := xLoc d) (S := Finset.univ) (f := m (xLoc d)) (qCore c) 16) $$ Hx
  icases Hx' with ⟨-, Hx⟩
  isplitl [Hi]; · iexact Hi
  isplitl [Hx]; · iexact Hx
  iexact Ho

/-- The sixteen blocks, each at the gathered rows, are the SparseCore's part of the result at the gathered rows. -/
theorem td_join (d : Dev nD) (c : Fin 2) :
    (bigSep Finset.univ fun i : Fin 16 => oBlkPts d c i (OUT m d)) ⊢ (oCorePts d c (OUT m d) : sProp 𝕄) := by
  rw [oCore_blks]

theorem vecSplit : (K (F := F)).VecSplit' (P m) 0 := by
  intro d c
  show iprop(iSh m d (qCore (Fin.cast nCore_zero c)) ∗ xSh m d (qCore (Fin.cast nCore_zero c)) ∗ oCorePts d (Fin.cast nCore_zero c) (m (oLoc d)))
    ⊢ |={Set.univ}=> iprop(
      (bigSep Finset.univ fun i : Fin ((K (F := F)).nSub 0) =>
        iprop(iSh m d (qTile (Fin.cast nCore_zero c) (Fin.cast nSub_zero i)) ∗ xSh m d (qTile (Fin.cast nCore_zero c) (Fin.cast nSub_zero i))
              ∗ oBlkPts d (Fin.cast nCore_zero c) (Fin.cast nSub_zero i) (m (oLoc d))))
      ∗ ((bigSep Finset.univ fun i : Fin ((K (F := F)).nSub 0) => oBlkPts d (Fin.cast nCore_zero c) (Fin.cast nSub_zero i) (OUT m d))
          -∗ oCorePts d (Fin.cast nCore_zero c) (OUT m d)))
  generalize Fin.cast nCore_zero c = c'
  rw [bigSep_tasks (F := F) (fun i => iprop(iSh m d (qTile c' i) ∗ xSh m d (qTile c' i) ∗ oBlkPts d c' i (m (oLoc d)))),
    bigSep_tasks (F := F) (fun i => oBlkPts d c' i (OUT m d))]
  iintro H; imodintro
  isplitl [H]; · iapply (go_split m d c'); iexact H
  iapply (td_join m d c')

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes for the two SparseCores: a read token of each argument for each, and the result whole; -/
theorem st0_eq (d : Dev nD) :
    (bigSep Finset.univ fun c : Fin ((K (F := F)).nCore 0) => (P m).st 0 d c)
      = iprop((bigSep Finset.univ fun c : Fin 2 => iSh m d (qCore c)) ∗ (bigSep Finset.univ fun c : Fin 2 => xSh m d (qCore c))
          ∗ oLoc d ↦{fullShare} m (oLoc d)) := by
  show (bigSep Finset.univ fun c : Fin ((K (F := F)).nCore 0) =>
      iprop(iSh m d (qCore (Fin.cast nCore_zero c)) ∗ xSh m d (qCore (Fin.cast nCore_zero c)) ∗ oCorePts d (Fin.cast nCore_zero c) (m (oLoc d)))) = _
  rw [bigSep_cores (F := F) (fun c => iprop(iSh m d (qCore c) ∗ xSh m d (qCore c) ∗ oCorePts d c (m (oLoc d)))), bigSep_sep', bigSep_sep',
    ← oPts_cores d (m (oLoc d))]

/-- and what it hands back: the result whole at the gathered rows. -/
theorem dn0_eq (d : Dev nD) :
    (bigSep Finset.univ fun c : Fin ((K (F := F)).nCore 0) => (P m).dn 0 d c) = (oLoc d ↦{fullShare} OUT m d : sProp 𝕄) := by
  show (bigSep Finset.univ fun c : Fin ((K (F := F)).nCore 0) => oCorePts d (Fin.cast nCore_zero c) (OUT m d)) = _
  rw [bigSep_cores (F := F) (fun c => oCorePts d c (OUT m d)), ← oPts_cores d (OUT m d)]

/-- What @main leaves the claim: the share of each argument the TensorCore kept, and the result at the gathered rows. -/
abbrev FIN (d : Dev nD) : sProp 𝕄 := iprop(iSh m d qKeep ∗ xSh m d qKeep ∗ oLoc d ↦{fullShare} OUT m d)

/-- @main on device `d`'s TensorCore: the one call. Each argument's full share is what the TensorCore keeps and one
    read token per SparseCore; the result goes whole and comes back whole at the gathered rows. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  ihave Hi' := (Transfers.pointsTo_toks_split (ℓ := iLoc d) (S := Finset.univ) (f := m (iLoc d)) fullShare 2) $$ Hi
  icases Hi' with ⟨Hik, Hic⟩
  ihave Hx' := (Transfers.pointsTo_toks_split (ℓ := xLoc d) (S := Finset.univ) (f := m (xLoc d)) fullShare 2) $$ Hx
  icases Hx' with ⟨Hxk, Hxc⟩
  iapply ((K (F := F)).wp_run (D (F := F)) 𝒱 (EH := EH) (P := P m) κ d 0) $$ [Hst Hic Hxc Ho Hik Hxk]
  isplitr; · iexact Hctx
  isplitl [Hst]; · iexact Hst
  isplitl [Hic Hxc Ho]
  · rw [st0_eq]
    isplitl [Hic]; · iexact Hic
    isplitl [Hxc]; · iexact Hxc
    iexact Ho
  iintro ⟨Hst, Hdn⟩
  ihave Hdn' := (Entails.of_eq (dn0_eq m d)) $$ Hdn
  imodintro
  isplitl [Hst]; · iexact Hst
  isplitl [Hik]; · iexact Hik
  isplitl [Hxk]; · iexact Hxk
  iexact Hdn'

/-- What the final memory holds: the result at the gathered rows, the two arguments as at the launch. -/
def fq (d : Dev nD) (s' : Phys nD τ sig (Elt F)) : Prop :=
  s'.mem.mem (oLoc d) = OUT m d ∧ s'.mem.mem (iLoc d) = m (iLoc d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := qKeep) (f := m (iLoc d)))) $$ [HSI Hi]
  · isplitl [HSI] <;> iassumption
  icases H with ⟨%h1, HSI, -⟩
  ihave H := (persistent_entails_right (SI_pointsTo_agree (st := s') (ℓ := xLoc d) (I := Finset.univ) (q := qKeep) (f := m (xLoc d)))) $$ [HSI Hx]
  · isplitl [HSI] <;> iassumption
  icases H with ⟨%h2, HSI, -⟩
  ihave H := (SI_pointsTo_agree (st := s') (ℓ := oLoc d) (I := Finset.univ) (q := fullShare) (f := OUT m d)) $$ [HSI Ho]
  · isplitl [HSI] <;> iassumption
  icases H with %h3
  ipureintro
  have e1 : s'.mem.mem (iLoc d) = m (iLoc d) := funext fun (i : Idx (iLoc d)) => h1 i (by simp)
  have e2 : s'.mem.mem (xLoc d) = m (xLoc d) := funext fun (i : Idx (xLoc d)) => h2 i (by simp)
  have e3 : s'.mem.mem (oLoc d) = OUT m d := funext fun (i : Idx (oLoc d)) => h3 i (by simp)
  exact ⟨e3, e1, e2⟩

/-! ## The program's run -/

def QC : PUnit × MemSt nD τ sig (Elt F) → Prop := fun r =>
  ∀ c : Dev nD, r.2.mem (oLoc c) = OUT m c ∧ r.2.mem (iLoc c) = m (iLoc c) ∧ r.2.mem (xLoc c) = m (xLoc c)

/-- The run of the whole program — the TensorCore, the two sequencers and the thirty-two vector subcores — from the
    proof of one vector subcore's task at a symbolic place: it ends, with the result at the gathered rows and the
    arguments unchanged. -/
theorem run_main [∀ e, Nonempty (Elt F e)] (htile : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.KITile.lean ====
/-
  ONE VECTOR SUBCORE'S TASK, in words the proof can use.

  Vector subcore `(c, i)` — SparseCore `c`, subcore `i` — works on the 512 row numbers from position
  `base = 1024 i + 512 c` of the list on, and on the 512 rows of the result from row `base` on. It first copies its
  512 row numbers into its own index scratch; then, sixteen at a time, reads them back and starts, for the `j`-th of them,
  a copy of the table's row of that number into row `j` of its own row scratch — all 512 copies on ONE semaphore;
  then waits 512 times, each wait taking one row's amount off that semaphore; and last copies the row scratch into
  its block of the result.
  Only the LAST wait says anything: once 512 rows' amounts have been taken off, every copy has landed. So what each
  copy will deliver is stated before the first one starts (`Dlv`): row `j` of the row scratch holding, column by
  column, the table's row named by the `j`-th of the task's row numbers (`Gbuf`, one function for the whole scratch).
-/
import proofs.«217944_g2619930051674_cont_9to1_157_43_alg».proof.Proof.KICommon

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S1000000x64 EltTy.f32)
local notation "oV" => (Memref.whole Cert.KernelIdeal.main_v0_scv : Memref Cert.KernelIdeal.sig Kind.scVector Space.hbm Cert.KernelIdeal.S16384x64 EltTy.f32)
local notation "sI" => (Memref.whole Cert.KernelIdeal.cc0_scratch0 : Memref Cert.KernelIdeal.sig Kind.scVector Space.vmem Cert.KernelIdeal.S512 EltTy.i32)
local notation "sR" => (Memref.whole Cert.KernelIdeal.cc0_scratch1 : Memref Cert.KernelIdeal.sig Kind.scVector Space.vmem Cert.KernelIdeal.S512x64 EltTy.f32)

section Tile

variable (d : Dev nD) (L : grid0.Coords)

/-! ## The subcore, its coordinates, its thread -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
abbrev VT (d : Dev nD) (L : grid0.Coords) : Thread nD τ := V d (cV L) (jV L)

/-- The position of the task's first row number in the list, and of its first row in the result. -/
def base (L : grid0.Coords) : ℕ := 1024 * (L 1).val + 512 * (L 0).val
theorem base_add_lt (L : grid0.Coords) (p : Fin 512) : base L + p.val < 16384 := by
  have h0 : (L 0).val < 2 := (L 0).isLt
  have h1 : (L 1).val < 16 := (L 1).isLt
  have := p.isLt; unfold base; omega

/-- The task's `p`-th row number, off the launch memory's list. -/
def wordAt (p : Fin 512) : BitVec 32 := (m (iLoc d) : S16384.Idx → BitVec 32) (ix1 ⟨base L + p.val, base_add_lt L p⟩)

/-- What the row scratch holds once every copy has landed: row `p` is the table's row named by the task's `p`-th
    row number. -/
def Gbuf : Buf (Elt F) ((sR).view.loc (VT d L)) :=
  ((fun y : S512x64.Idx => (m (xLoc d) : S1000000x64.Idx → Elt F .f32) (ix2 (Cert.Spec.rowOf (wordAt m d L (y 0 : Fin 512))) (y 1 : Fin 64))) :
    S512x64.Idx → Elt F .f32)

/-! ## The pieces of memory the body names, in the body's own spelling -/

/-- The task's 512 row numbers in the list, as the body slices them. -/
abbrev iSliceK (L : grid0.Coords) : Memref sig .scVector .hbm S512 .i32 :=
  (iV).slice (Rect.unit (s := S16384) (k0_off1 L) S512.size (k0_off1_inb L)) (fun _ => rfl)
/-- The task's block of the result, as the body slices it. -/
abbrev oblkK (L : grid0.Coords) : Rect S16384x64 := Rect.unit (s := S16384x64) (k0_off36 L) S512x64.size (k0_off36_inb L)
abbrev oBlkK (L : grid0.Coords) : Memref sig .scVector .hbm S512x64 .f32 := (oV).slice (oblkK L) (fun _ => rfl)

/-- Row `a` of the table, and row `a` of the row scratch, as 64-vectors: the source and the destination of one copy, for
    any offsets the body computes that come to `![a, 0]`. -/
abbrev srcRow (off : Fin 2 → ℕ) (inb : ∀ a, off a + S1x64.size a ≤ S1000000x64.size a) : Memref sig .scVector .hbm S64 .f32 :=
  ((xV).slice (Rect.unit (s := S1000000x64) off S1x64.size inb) (fun _ => rfl)).squeeze S64 squeezes_S1x64_S64
abbrev dstRow (off : Fin 2 → ℕ) (inb : ∀ a, off a + S1x64.size a ≤ S512x64.size a) : Memref sig .scVector .vmem S64 .f32 :=
  ((sR).slice (Rect.unit (s := S512x64) off S1x64.size inb) (fun _ => rfl)).squeeze S64 squeezes_S1x64_S64

theorem rowInb (p : ℕ) (hp : p < 512) : ∀ a, (![p, 0] : Fin 2 → ℕ) a + S1x64.size a ≤ S512x64.size a := by
  intro a; fin_cases a
  · show p + 1 ≤ 512; omega
  · show 0 + 64 ≤ 64; omega
theorem tabInb (r : ℕ) (hr : r < 1000000) : ∀ a, (![r, 0] : Fin 2 → ℕ) a + S1x64.size a ≤ S1000000x64.size a := by
  intro a; fin_cases a
  · show r + 1 ≤ 1000000; omega
  · show 0 + 64 ≤ 64; omega

/-- Row `p` of the row scratch, at its canonical offsets. -/
abbrev rowM (p : Fin 512) : Memref sig .scVector .vmem S64 .f32 := dstRow ![p.val, 0] (rowInb p.val p.isLt)

/-- The elements of row `p` of the row scratch, and of the rows from `n` on. -/
def rowSet (p : ℕ) : Finset S512x64.Idx := Finset.univ.filter fun y => (y 0).val = p
def rowsFrom (n : ℕ) : Finset S512x64.Idx := Finset.univ.filter fun y => n ≤ (y 0).val

/-! ## The semaphores and the batch -/

abbrev csem (k : Nat) (hk : k < 3 := by decide) : DmaSem sig := ⟨k, hk⟩
/-- The three DMA cells the task names, at zero. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0)

/-- The transfers' counters in this certificate's ghost state. -/
abbrev EC : UEmb Counters (MT nD τ sig (HIx 1) (Elt F) ℕ UU ℕ) := countersEmb (U := UU)

/-- One row's amount on a DMA semaphore. -/
abbrev NN : ℕ := sig.dmaCredit .scVector (Kind.scVector.table .vmem) (cc0_scratch1 : Ref sig .scVector).idx S64 .f32
theorem NN_pos : 0 < NN := sig.dmaCredit_pos _ _ _ _ _ (by decide)

variable [FloatOps F]

/-- What the `t`-th copy delivers: row `t` of the row scratch at `Gbuf`. -/
def Dlv (t : Fin 512) : sProp 𝕄 :=
  (rowM t).view.loc (VT d L) ↦[(rowM t).view.set]{fullShare} Gbuf m d L

instance Dlv_storable (t : Fin 512) : BI.Storable (upEmb : UEmb _ 𝕄) (Dlv m d L t) := by
  unfold Dlv; infer_instance

/-- The batch of the 512 copies with `j` started and `u` units waited for. -/
abbrev batch (j u : ℕ) : sProp 𝕄 :=
  Transfers.Batch (EC (F := F)) (VT d L) (.dma cc0_scratch2.sem) (default : HIx 1) NN (Dlv m d L) j u

end Tile

end Cert.Proof.KI

end
-- ==== Proof.KIObl.lean ====
/-
  ONE VECTOR SUBCORE'S OBLIGATION, from the run of its task.

  The launch deals vector subcore `(c, i)` a read token of each argument, its block of the result, its own scratch
  buffers (at some contents) and its own semaphores (at zero). The task's run (`TileRun`, proved apart) is stated in
  the body's own spelling of these pieces; here they are respelt one way and back:
  the body's rectangle at offsets `(1024 i + 512 c, 0)` of sizes `512 × 64` is block `2 i + c` of the result
  (`(2 i + c) · 512 = 1024 i + 512 c`); the three DMA semaphores the task names are three of the subcore's own, the two
  scratch buffers two of its own. What the task hands back is its block at the gathered rows; the read tokens are
  dropped.
-/
import proofs.«217944_g2619930051674_cont_9to1_157_43_alg».proof.Proof.KITile

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S1000000x64 EltTy.f32)
local notation "oV" => (Memref.whole Cert.KernelIdeal.main_v0_scv : Memref Cert.KernelIdeal.sig Kind.scVector Space.hbm Cert.KernelIdeal.S16384x64 EltTy.f32)
local notation "sI" => (Memref.whole Cert.KernelIdeal.cc0_scratch0 : Memref Cert.KernelIdeal.sig Kind.scVector Space.vmem Cert.KernelIdeal.S512 EltTy.i32)
local notation "sR" => (Memref.whole Cert.KernelIdeal.cc0_scratch1 : Memref Cert.KernelIdeal.sig Kind.scVector Space.vmem Cert.KernelIdeal.S512x64 EltTy.f32)

section Tile

variable (d : Dev nD) (L : grid0.Coords)

/-! ## The task's block of the result: the body's rectangle is the launch's block -/

/-- Offsets `(1024 i + 512 c, 0)` are block index `(2 i + c, 0)` at block sizes `512 × 64`. -/
theorem oblkK_eq : oblkK L = oblk (cL L) (jL L) := by
  unfold oblkK oblk Rect.block
  congr 1; funext a; rw [k0_off36_eq]
  match a with
  | 0 => show 1024 * (L 1).val + 512 * (L 0).val = (2 * (L 1).val + (L 0).val) * 512; omega
  | 1 => show 0 = 0 * 64; rfl

theorem set_oBlkK : (oBlkK L).view.set = oBlkSet (cL L) (jL L) := by
  show ((oV).view.slice (oblkK L)).set = ((oV).view.slice (oblk (cL L) (jL L))).set
  exact oblkK_eq L ▸ rfl

/-! ## The pieces, in the body's spelling and in the launch's -/

theorem pts_iV (q : PosShare TreeShare) (f : Buf (Elt F) (iLoc d)) :
    ((iV).view.loc (VT d L) ↦{q} f : sProp 𝕄) = iLoc d ↦{q} f := rfl
theorem pts_xV (q : PosShare TreeShare) (f : Buf (Elt F) (xLoc d)) :
    ((xV).view.loc (VT d L) ↦{q} f : sProp 𝕄) = xLoc d ↦{q} f := rfl
theorem pts_oBlkK (f : Buf (Elt F) (oLoc d)) :
    ((oBlkK L).view.loc (VT d L) ↦[(oBlkK L).view.set]{fullShare} f : sProp 𝕄) = oLoc d ↦[oBlkSet (cL L) (jL L)]{fullShare} f := by
  rw [set_oBlkK]
theorem pts_sI (f : Buf (Elt F) ((VT d L).loc cc0_scratch0)) :
    ((sI).view.loc (VT d L) ↦[(sI).view.set]{fullShare} f : sProp 𝕄) = (VT d L).loc cc0_scratch0 ↦{fullShare} f := by
  rw [View.set_whole]
theorem pts_sR (f : Buf (Elt F) ((VT d L).loc cc0_scratch1)) :
    ((sR).view.loc (VT d L) ↦[(sR).view.set]{fullShare} f : sProp 𝕄) = (VT d L).loc cc0_scratch1 ↦{fullShare} f := by
  rw [View.set_whole]

/-! ## The subcore's own semaphores and buffers -/

/-- The three semaphore arrays the body is given are the DMA semaphores 0, 1, 2. -/
theorem sem_scratch2 : (cc0_scratch2 : DmaSems sig S_).sem = csem 0 := rfl
theorem sem_scoped0 : (cc0_scoped0 : DmaSems sig S_).sem = csem 1 := rfl
theorem sem_scoped1 : (cc0_scoped1 : DmaSems sig S_).sem = csem 2 := rfl

/-- The three DMA cells the task names, as a family. -/
abbrev dcell (d : Dev nD) (c : Fin τ.nSC) (i : Fin τ.nSub) (k : Fin 3) : GSem nD τ sig := (V d c i, .dma (csem k.val k.isLt))

theorem dcell_mem (c : Fin τ.nSC) (i : Fin τ.nSub) (k : Fin 3) : dcell d c i k ∈ ownCells (V d c i) :=
  mem_ownCells.mpr ⟨rfl, (show ∀ s : DmaSem sig, (SemLoc.dma s : SemLoc sig).isScoped .scVector = true by decide) _⟩

/-- The subcore's own cells at zero: the three the task names, one by one, and the rest. -/
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 3)) = {0, 1, 2} by decide,
    SparseCore.bigSep_insert' (by decide), SparseCore.bigSep_insert' (by decide), bigSep_singleton]
  rfl

/-- The two scratch buffers are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

variable [FloatOps F]

/-! ## The task's run, as a hypothesis -/

/-- The run of one vector subcore's task, at a symbolic place: from a read token of each argument, its block of the
    result, its two scratch buffers and its three DMA semaphores at zero — all in the body's spelling — to the block at
    the gathered rows, the scratch buffers at some contents, the semaphores at zero again. -/
def TileRun : Prop :=
  ∀ (d : Dev nD) (L : grid0.Coords) (O : CellTallies nD τ sig (HIx 1)) (W : Waits sig (HIx 1))
    (g0 : Buf (Elt F) ((sI).view.loc (VT d L))) (t0 : Buf (Elt F) ((sR).view.loc (VT d L))),
    (iprop(Transfers.MayWaits (VT d L) (default : HIx 1) O
        ∗ ((iV).view.loc (VT d L) ↦{qTile (cL L) (jL L)} m (iLoc d))
        ∗ ((xV).view.loc (VT d L) ↦{qTile (cL L) (jL L)} m (xLoc d))
        ∗ ((oBlkK L).view.loc (VT d L) ↦[(oBlkK L).view.set]{fullShare} m (oLoc d))
        ∗ ((sI).view.loc (VT d L) ↦[(sI).view.set]{fullShare} g0)
        ∗ ((sR).view.loc (VT d L) ↦[(sR).view.set]{fullShare} t0)
        ∗ cells0 d L
        ∗ owes (VT d L) O W) : sProp 𝕄)
      ⊢ wp frame (wpE (defs₀ (F := F)) 𝒱₀ (VT d L) none) Set.univ
          (cc0_gather_kernel L iV (Memref.isWhole_whole _) xV (Memref.isWhole_whole _) oV (Memref.isWhole_whole _)
            sI (Memref.isWhole_whole _) sR (Memref.isWhole_whole _) cc0_scratch2 cc0_scoped0 cc0_scoped1)
          fun _ => iprop(((oBlkK L).view.loc (VT d L) ↦[(oBlkK L).view.set]{fullShare} OUT m d)
            ∗ (∃ g, (sI).view.loc (VT d L) ↦[(sI).view.set]{fullShare} g)
            ∗ (∃ g, (sR).view.loc (VT d L) ↦[(sR).view.set]{fullShare} g)
            ∗ cells0 d L
            ∗ ∃ W', owes (VT d L) O W')

section Obl

variable (d : Dev nD) (L : grid0.Coords)

/-- The task on vector subcore `(L 0, L 1)` of device `d`, from what the launch deals it (a read token of each
    argument, its block of the result, its scoped buffers and cells) to what it hands back (the block at the gathered
    rows, the scoped buffers and cells): the pieces respelt around the task's run. -/
theorem tile_body (hrun : TileRun m) (hF : (K (F := F)).Facts) (O : CellTallies nD τ sig (HIx 1)) (W : Waits sig (HIx 1)) (hO : ∀ g, O g none = 0) :
    iprop(levAts (K (F := F)).L (K (F := F)).lev ∗ emp
        ∗ (iSh m d (qTile (cL L) (jL L)) ∗ xSh m d (qTile (cL L) (jL L)) ∗ oBlkPts d (cL L) (jL L) (m (oLoc d)))
        ∗ scopedBufs (VT d L) ∗ scopedSems0 (VT d L) ∗ owes (VT d L) O W)
      ⊢ wp frame (wpE (defs₀ (F := F)) 𝒱₀ (VT d L) none) Set.univ
          (cc0_gather_kernel L iV (Memref.isWhole_whole _) xV (Memref.isWhole_whole _) oV (Memref.isWhole_whole _)
            sI (Memref.isWhole_whole _) sR (Memref.isWhole_whole _) cc0_scratch2 cc0_scoped0 cc0_scoped1)
          fun _ => iprop(oBlkPts d (cL L) (jL L) (OUT m d)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%g0, HG⟩, ⟨%t0, HT⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  -- the pieces in the body's spelling
  ihave Ho' := (Entails.of_eq (pts_oBlkK (F := F) d L _).symm) $$ Ho
  ihave HG' := (Entails.of_eq (pts_sI (F := F) d L _).symm) $$ HG
  ihave HT' := (Entails.of_eq (pts_sR (F := F) d L _).symm) $$ HT
  iapply (wp_wand_r Idealize.ShloMosaic.frame (wpE (defs₀ (F := F)) 𝒱₀ (VT d L) none) Set.univ)
  isplitl [Hi Hx Ho' HG' HT' HC HO]
  · iapply (hrun d L O W g0 t0)
    isplitr; · iexact Hmw
    isplitl [Hi]; · iexact Hi
    isplitl [Hx]; · iexact Hx
    isplitl [Ho']; · iexact Ho'
    isplitl [HG']; · iexact HG'
    isplitl [HT']; · iexact HT'
    isplitl [HC]; · iexact HC
    iexact HO
  iintro %_ ⟨Ho', ⟨%g, HG'⟩, ⟨%t, HT'⟩, HC, ⟨%W', HO⟩⟩
  isplitl [Ho']; · iapply (Entails.of_eq (pts_oBlkK (F := F) d L _)); iexact Ho'
  isplitl [HG' HT' Hbufs]
  · isplitl [HG']; · iexists _; iapply (Entails.of_eq (pts_sI (F := F) d L _)); iexact HG'
    isplitl [HT']; · iexists _; iapply (Entails.of_eq (pts_sR (F := F) d L _)); iexact HT'
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          iV (Memref.isWhole_whole _) xV (Memref.isWhole_whole _) oV (Memref.isWhole_whole _)
          sI (Memref.isWhole_whole _) sR (Memref.isWhole_whole _) cc0_scratch2 cc0_scoped0 cc0_scoped1) ⟨⟩ c s := rfl

theorem tileObl (hrun : TileRun m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hrun hF O W hO

end Obl

end Cert.Proof.KI

end
-- ==== Proof.KIInv.lean ====
/-
  THE LOOP THAT STARTS THE COPIES, as a statement: what holds before each of its thirty-two trips (`inv1`), and the
  word a trip reads in each lane of the sixteen row numbers it loads back from the index scratch (`lane`).
-/
import proofs.«217944_g2619930051674_cont_9to1_157_43_alg».proof.Proof.KITile

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S1000000x64 EltTy.f32)
local notation "oV" => (Memref.whole Cert.KernelIdeal.main_v0_scv : Memref Cert.KernelIdeal.sig Kind.scVector Space.hbm Cert.KernelIdeal.S16384x64 EltTy.f32)
local notation "sI" => (Memref.whole Cert.KernelIdeal.cc0_scratch0 : Memref Cert.KernelIdeal.sig Kind.scVector Space.vmem Cert.KernelIdeal.S512 EltTy.i32)
local notation "sR" => (Memref.whole Cert.KernelIdeal.cc0_scratch1 : Memref Cert.KernelIdeal.sig Kind.scVector Space.vmem Cert.KernelIdeal.S512x64 EltTy.f32)

variable (d : Dev nD) (L : grid0.Coords)

/-- The word in lane `offr` of the sixteen row numbers that trip `k` reads back from the index scratch. -/
def lane (gI : Buf (Elt F) ((sI).view.loc (VT d L))) (k : Fin k0_t1_loop.trips) (offr : Fin 1 → ℕ) (hs : S16.Slices offr S1) : BitVec 32 :=
  extractAt ![0] (extractStridedSlice S1 offr (shapeCast S16
    (View.readAt (Elt F) (sI).view (Rect.unit (s := S512) (k0_off2 k) S16.size (k0_off2_inb k)).toLoadRect gI) shapeCasts_S16_S16) hs) inpos_S1_p0

variable [FloatOps F]

/-- Before trip `k` of the loop that starts the copies: the index scratch as fetched; of the table, what is left after
    `16 k` read tokens; of the row scratch, the rows from `16 k` on, not yet lent; the batch with `16 k` copies started. -/
def inv1 (O : CellTallies nD τ sig (HIx 1)) (gI : Buf (Elt F) ((sI).view.loc (VT d L))) (t0 : Buf (Elt F) ((sR).view.loc (VT d L)))
    (k : ℕ) (_ : Unit) : sProp 𝕄 :=
  iprop(Transfers.MayWaits (VT d L) (default : HIx 1) O
    ∗ ((sI).view.loc (VT d L) ↦[(sI).view.set]{fullShare} gI)
    ∗ ((xV).view.loc (VT d L) ↦{Transfers.shareDrop (qTile (cL L) (jL L)) (16 * k)} m (xLoc d))
    ∗ ((sR).view.loc (VT d L) ↦[rowsFrom (16 * k)]{fullShare} t0)
    ∗ batch m d L (16 * k) 0)

/-- ONE TRIP of that loop, as a statement: from the index scratch holding the task's row numbers, trip `k` takes the
    state before it to the state before trip `k + 1`. -/
def Trip1 : Prop :=
  ∀ (O : CellTallies nD τ sig (HIx 1)) (gI : Buf (Elt F) ((sI).view.loc (VT d L))) (t0 : Buf (Elt F) ((sR).view.loc (VT d L))),
    (∀ p : Fin 512, (gI : S512.Idx → BitVec 32) (ix1 p) = wordAt m d L p) → ∀ k : Fin k0_t1_loop.trips,
    inv1 m d L O gI t0 k.val () ⊢ wp frame (wpE (defs₀ (F := F)) 𝒱₀ (VT d L) none) Set.univ
      (k0_t1_body L iV (Memref.isWhole_whole _) xV (Memref.isWhole_whole _) oV (Memref.isWhole_whole _)
        sI (Memref.isWhole_whole _) sR (Memref.isWhole_whole _) cc0_scratch2 cc0_scoped0 cc0_scoped1 k ())
      (fun _ => inv1 m d L O gI t0 (k.val + 1) ())

end Cert.Proof.KI

end
-- ==== Proof.KIDrain.lean ====
/-
  THE DRAIN: ONE WAIT OF THE 512.

  After its 512 row copies have been started on one semaphore, a vector subcore waits 512 times, each wait taking
  one row's amount off that semaphore. Between the waits it holds the batch of the 512 copies with `i` rows'
  amounts taken off, `i` the number of waits done. A wait that is not the last takes one more row's amount off and
  learns nothing about any row; the LAST one — the amounts taken then add up to all 512 rows' — hands back every
  row of the row scratch at what its copy delivers, and the semaphore at zero. `inv2 i` says what is held after `i`
  waits; `trip2` is the step from `i` to `i + 1`, for every `i` below 512.
  The subcore still owes the units of its launch's handshake while it waits, so each wait shows that waiting at this
  semaphore is allowed under what is owed; that evidence is the same for every wait and is carried along.
-/
import proofs.«217944_g2619930051674_cont_9to1_157_43_alg».proof.Proof.KITile

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S1000000x64 EltTy.f32)
local notation "oV" => (Memref.whole Cert.KernelIdeal.main_v0_scv : Memref Cert.KernelIdeal.sig Kind.scVector Space.hbm Cert.KernelIdeal.S16384x64 EltTy.f32)
local notation "sI" => (Memref.whole Cert.KernelIdeal.cc0_scratch0 : Memref Cert.KernelIdeal.sig Kind.scVector Space.vmem Cert.KernelIdeal.S512 EltTy.i32)
local notation "sR" => (Memref.whole Cert.KernelIdeal.cc0_scratch1 : Memref Cert.KernelIdeal.sig Kind.scVector Space.vmem Cert.KernelIdeal.S512x64 EltTy.f32)

section Drain

variable (d : Dev nD) (L : grid0.Coords) [FloatOps F]

/-- The loop makes 512 trips. -/
theorem trips2 : k0_t2_loop.trips = 512 := by decide

/-- A sequence that starts with a finished step goes on with the rest. -/
theorem ret_bind2 {E : Type → Type} {α β : Type} (a : α) (k : α → Prog E β) : (Prog.ret a).bind k = k a := rfl

/-- What the subcore holds after `i` of the 512 waits: the evidence that it may wait under what it owes; the batch
    with `i` rows' amounts taken off — or, once all 512 are, every row of the row scratch as delivered and the
    semaphore at zero —; and what it owes, with whatever waits recorded. -/
def inv2 (O : CellTallies nD τ sig (HIx 1)) (i : ℕ) (_ : Unit) : sProp 𝕄 :=
  iprop(Transfers.MayWaits (VT d L) (default : HIx 1) O
    ∗ (if i < 512 then batch m d L 512 (i * NN)
        else iprop(bigSep Finset.univ (Dlv m d L) ∗ semVal (VT d L, SemLoc.dma cc0_scratch2.sem) 0))
    ∗ ∃ W', owes (VT d L) O W')

/-- ONE WAIT: from what is held after `k` waits, the `k`-th trip of the drain loop runs and leaves what is held after
    `k + 1`. -/
theorem trip2 (O : CellTallies nD τ sig (HIx 1)) (k : Fin k0_t2_loop.trips) :
    inv2 m d L O k.val () ⊢ wp frame (wpE (defs₀ (F := F)) 𝒱₀ (VT d L) none) Set.univ
      (k0_t2_body L iV (Memref.isWhole_whole _) xV (Memref.isWhole_whole _) oV (Memref.isWhole_whole _) sI (Memref.isWhole_whole _)
        sR (Memref.isWhole_whole _) cc0_scratch2 cc0_scoped0 cc0_scoped1 k ())
      (fun _ => inv2 m d L O (k.val + 1) ()) := by
  have hk : k.val < 512 := trips2 ▸ k.isLt
  unfold inv2
  rw [if_pos hk]
  iintro ⟨#HM, HB, ⟨%W, HO⟩⟩
  unfold k0_t2_body
  by_cases hlast : k.val + 1 < 512
  · -- not the last wait: one more row's amount off, nothing learnt
    have hu : k.val * NN + NN < NN * 512 := by
      have := Nat.mul_lt_mul_of_pos_right hlast NN_pos
      rw [Nat.succ_mul] at this
      rw [Nat.mul_comm NN 512]; exact this
    iapply (Transfers.wp_waitBatchO (EC (F := F)) 𝒱₀ (VT d L) none (default : HIx 1) rfl hu (D := Dlv m d L) (O := O) (W := W)) $$ [HB HO]
    · isplitl [HB]; · iexact HB
      isplitl [HO]; · iexact HO
      iapply (Transfers.MayWaits.elim (SemLoc.dma cc0_scratch2.sem)) $$ HM
    iintro ⟨HB, HO⟩
    simp only [ret_bind2]
    sl_step
    rw [if_pos hlast, Nat.succ_mul]
    isplitr; · iexact HM
    isplitl [HB]; · iexact HB
    iexists _; iexact HO
  · -- the last wait: every row back as delivered, the semaphore at zero
    have hu : k.val * NN + NN = NN * 512 := by
      have h511 : k.val + 1 = 512 := by omega
      rw [← Nat.succ_mul, Nat.succ_eq_add_one, h511, Nat.mul_comm]
    iapply (Transfers.wp_waitBatchLastO (EC (F := F)) 𝒱₀ (VT d L) none (default : HIx 1) rfl NN_pos hu (D := Dlv m d L) (O := O) (W := W)) $$ [HB HO]
    · isplitl [HB]; · iexact HB
      isplitl [HO]; · iexact HO
      iapply (Transfers.MayWaits.elim (SemLoc.dma cc0_scratch2.sem)) $$ HM
    iintro ⟨HD, Hv, HO⟩
    simp only [ret_bind2]
    sl_step
    rw [if_neg hlast]
    isplitr; · iexact HM
    isplitl [HD Hv]
    · isplitl [HD]; · iexact HD
      iexact Hv
    iexists _; iexact HO

end Drain

end Cert.Proof.KI

end
-- ==== Proof.KIViews.lean ====
/-
  ONE VECTOR SUBCORE'S TASK, INDEX BY INDEX: which elements a slice names, and what a copy or a load holds at an index.

  Row `p` of the row scratch, as the body slices and squeezes it, is the set of elements whose first coordinate is `p`;
  these 512 sets are pairwise disjoint and cover the scratch, so the 512 delivered rows join to the whole scratch.
  A copy of the table's row `v` into row `p` of the scratch leaves, at column `q` of that row, entry `(v, q)` of the table.
  The fetched row numbers are the list's from the task's first position on; a trip's sixteen loaded row numbers are the
  index scratch's at sixteen times the trip's number on; and the row scratch copied to the task's block of the result
  leaves there the gathered rows.
-/
import proofs.«217944_g2619930051674_cont_9to1_157_43_alg».proof.Proof.KITile

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S1000000x64 EltTy.f32)
local notation "oV" => (Memref.whole Cert.KernelIdeal.main_v0_scv : Memref Cert.KernelIdeal.sig Kind.scVector Space.hbm Cert.KernelIdeal.S16384x64 EltTy.f32)
local notation "sI" => (Memref.whole Cert.KernelIdeal.cc0_scratch0 : Memref Cert.KernelIdeal.sig Kind.scVector Space.vmem Cert.KernelIdeal.S512 EltTy.i32)
local notation "sR" => (Memref.whole Cert.KernelIdeal.cc0_scratch1 : Memref Cert.KernelIdeal.sig Kind.scVector Space.vmem Cert.KernelIdeal.S512x64 EltTy.f32)

section Views

variable (d : Dev nD) (L : grid0.Coords)

/-! ## The rows of the row scratch as sets of elements -/

/-- Row `p` of the row scratch, sliced and squeezed as the body does, is the set of elements with first coordinate `p`. -/
theorem set_dstRow (off : Fin 2 → ℕ) (inb : ∀ a, off a + S1x64.size a ≤ S512x64.size a) (p : ℕ) (hp : p < 512)
    (hoff : off = ![p, 0]) : (dstRow off inb).view.set = rowSet p := by
  subst hoff
  show (((sR).view.slice (Rect.unit (s := S512x64) ![p, 0] S1x64.size inb)).reshape S64 squeezes_S1x64_S64.numel_eq).set = rowSet p
  rw [View.set_reshape, View.set_slice]
  show (Rect.unit (s := S512x64) ![p, 0] S1x64.size inb).set.map (Function.Embedding.refl _) = rowSet p
  rw [Finset.map_refl]
  ext y
  rw [Rect.mem_set_unit]
  simp only [rowSet, Finset.mem_filter, Finset.mem_univ, true_and]
  constructor
  · intro h
    have h0 : p ≤ (y 0).val ∧ (y 0).val < p + 1 := h 0
    omega
  · intro h a
    have h1 : (y 1).val < 64 := (y 1).isLt
    fin_cases a
    · show p ≤ (y 0).val ∧ (y 0).val < p + 1
      omega
    · show 0 ≤ (y 1).val ∧ (y 1).val < 0 + 64
      omega

theorem rowSet_subset_rowsFrom (n : ℕ) : rowSet n ⊆ rowsFrom n := by
  intro y hy
  simp only [rowSet, rowsFrom, Finset.mem_filter, Finset.mem_univ, true_and] at hy ⊢
  omega

theorem rowsFrom_sdiff (n : ℕ) : rowsFrom n \ rowSet n = rowsFrom (n + 1) := by
  ext y
  simp only [rowSet, rowsFrom, Finset.mem_sdiff, Finset.mem_filter, Finset.mem_univ, true_and]
  omega

/-- The row scratch's view names every element of the scratch. -/
theorem set_sR : (sR).view.set = (Finset.univ : Finset S512x64.Idx) := View.set_whole _

theorem rowsFrom_zero : rowsFrom 0 = (sR).view.set := by
  rw [set_sR]
  ext y
  simp only [rowsFrom, Finset.mem_filter, Finset.mem_univ, true_and, Nat.zero_le]

theorem rowSet_disjoint : ∀ p ∈ (Finset.univ : Finset (Fin 512)), ∀ p' ∈ (Finset.univ : Finset (Fin 512)), p ≠ p' →
    Disjoint (rowSet p.val) (rowSet p'.val) := by
  intro p _ p' _ hne
  rw [Finset.disjoint_left]
  intro y h1 h2
  simp only [rowSet, Finset.mem_filter, Finset.mem_univ, true_and] at h1 h2
  exact hne (Fin.ext (h1.symm.trans h2))

theorem rowSet_cover : (Finset.univ : Finset (Fin 512)).biUnion (fun p => rowSet p.val) = (sR).view.set := by
  rw [set_sR]
  ext y
  simp only [Finset.mem_biUnion, Finset.mem_univ, true_and, rowSet, Finset.mem_filter, iff_true]
  exact ⟨⟨(y 0).val, (y 0).isLt⟩, rfl⟩

/-! ## One lane of the sixteen row numbers a trip loads -/

/-- Lane `r` of the sixteen row numbers trip `k` loads off the index scratch is the scratch's word `16 k + r`. -/
theorem lane_word (gI : Buf (Elt F) ((sI).view.loc (VT d L))) (k : Fin k0_t1_loop.trips) (r : Fin 16) (offr : Fin 1 → ℕ)
    (hoffr : offr = ![r.val]) (hs : S16.Slices offr S1) (h1 : ∀ a, k0_off2 k a + S16.size a ≤ S512.size a)
    (h2 : S16.ShapeCasts S16) (h3 : ∀ a, (![0] : Fin 1 → ℕ) a < S1.size a) :
    extractAt ![0] (extractStridedSlice S1 offr (shapeCast S16 (View.readAt (Elt F) (sI).view
        (Rect.unit (s := S512) (k0_off2 k) S16.size h1).toLoadRect gI) h2) hs) h3
      = (gI : S512.Idx → BitVec 32) (ix1 ⟨16 * k.val + r.val, by
          have := k.isLt; have := r.isLt; have : k0_t1_loop.trips = 32 := by decide
          omega⟩) := by
  subst hoffr
  have hk : k0_off2 k 0 = 16 * k.val := by rw [k0_off2_eq]; rfl
  unfold extractAt extractStridedSlice shapeCast
  rw [Shape.reshapeEquiv_self, View.readAt_apply]
  show (gI : S512.Idx → BitVec 32) ((Rect.unit (s := S512) (k0_off2 k) S16.size h1).toLoadRect.idx _) = _
  congr 1
  funext a
  match a with
  | ⟨0, _⟩ =>
    apply Fin.ext
    show k0_off2 k 0 + 1 * (r.val + 0) = 16 * k.val + r.val
    rw [hk]; omega

/-! ## What one copy delivers -/

/-- Column `q` of row `p` of the row scratch, as the body slices and squeezes the row, is element `(p, q)`. -/
theorem dstRow_emb (p : ℕ) (hp : p < 512) (inb : ∀ a, (![p, 0] : Fin 2 → ℕ) a + S1x64.size a ≤ S512x64.size a) (y : S64.Idx) :
    ((dstRow ![p, 0] inb).view.emb y : S512x64.Idx) = ix2 (⟨p, hp⟩ : Fin 512) (y 0 : Fin 64) := by
  show (Rect.unit (s := S512x64) ![p, 0] S1x64.size inb).emb (Shape.reshapeEquiv squeezes_S1x64_S64.numel_eq y) = _
  rw [Shape.reshapeEquiv_cons_one]
  funext a
  match a with
  | ⟨0, _⟩ => apply Fin.ext; show p + 1 * 0 = p; omega
  | ⟨1, _⟩ => apply Fin.ext; show 0 + 1 * (y 0).val = (y 0).val; omega

/-- Column `q` of row `r` of the table, sliced and squeezed the same way, is element `(r, q)`. -/
theorem srcRow_emb (r : ℕ) (hr : r < 1000000) (inb : ∀ a, (![r, 0] : Fin 2 → ℕ) a + S1x64.size a ≤ S1000000x64.size a) (y : S64.Idx) :
    ((srcRow ![r, 0] inb).view.emb y : S1000000x64.Idx) = ix2 (⟨r, hr⟩ : Fin 1000000) (y 0 : Fin 64) := by
  show (Rect.unit (s := S1000000x64) ![r, 0] S1x64.size inb).emb (Shape.reshapeEquiv squeezes_S1x64_S64.numel_eq y) = _
  rw [Shape.reshapeEquiv_cons_one]
  funext a
  match a with
  | ⟨0, _⟩ => apply Fin.ext; show r + 1 * 0 = r; omega
  | ⟨1, _⟩ => apply Fin.ext; show 0 + 1 * (y 0).val = (y 0).val; omega

/-- The copy of the table's row `v` into row `p` of the row scratch, `v` being the task's `p`-th row number: on that row
    the scratch then holds what `Gbuf` says, whatever it held before. -/
theorem deliver_row (off : Fin 2 → ℕ) (inb : ∀ a, off a + S1x64.size a ≤ S512x64.size a) (p : Fin 512) (hoff : off = ![p.val, 0])
    (offS : Fin 2 → ℕ) (inbS : ∀ a, offS a + S1x64.size a ≤ S1000000x64.size a) (v : BitVec 32) (hoffS : offS = ![v.toNat, 0])
    (hv : v.toNat < 1000000) (hval : v = wordAt m d L p) (t0 : Buf (Elt F) ((sR).view.loc (VT d L))) :
    ∀ i ∈ (dstRow off inb).view.set,
      (dstRow off inb).view.write (Elt F) t0 (ReadAs.same.apply ((srcRow offS inbS).view.read (Elt F) (m (xLoc d)))) Finset.univ i
        = Gbuf m d L i := by
  subst hoff hoffS
  intro i hi
  obtain ⟨y, -, rfl⟩ := Finset.mem_map.mp hi
  rw [View.write_emb_of_mem _ _ (Finset.mem_univ y)]
  refine (cast_eq _ _).trans ?_
  show (srcRow ![v.toNat, 0] inbS).view.read (Elt F) (m (xLoc d)) y = _
  rw [View.read_apply]
  refine (cast_eq _ _).trans ?_
  rw [srcRow_emb v.toNat hv, dstRow_emb p.val p.isLt]
  have e : (⟨v.toNat, hv⟩ : Fin 1000000) = Cert.Spec.rowOf (wordAt m d L p) :=
    Fin.ext (by rw [← hval]; exact (Cert.Spec.rowOf_of_lt v hv).symm)
  rw [e]
  rfl

/-- The same in the list form: the copy's payload as the one piece, over the whole row, consed on what was written before. -/
theorem deliver_row_writes (off : Fin 2 → ℕ) (inb : ∀ a, off a + S1x64.size a ≤ S512x64.size a) (p : Fin 512) (hoff : off = ![p.val, 0])
    (offS : Fin 2 → ℕ) (inbS : ∀ a, offS a + S1x64.size a ≤ S1000000x64.size a) (v : BitVec 32) (hoffS : offS = ![v.toNat, 0])
    (hv : v.toNat < 1000000) (hval : v = wordAt m d L p) (t0 : Buf (Elt F) ((sR).view.loc (VT d L)))
    (Ls : List (View.Piece (Elt F) S64 .f32)) :
    ∀ i ∈ (dstRow off inb).view.set,
      (dstRow off inb).view.writes (Elt F) t0
          (⟨Rect.whole S64, ReadAs.same.apply ((srcRow offS inbS).view.read (Elt F) (m (xLoc d)))⟩ :: Ls) i
        = Gbuf m d L i := by
  intro i hi
  rw [← View.write_univ_eq_writes_whole]
  exact deliver_row m d L off inb p hoff offS inbS v hoffS hv hval _ i hi

/-! ## The delivered rows, joined -/

/-- The 512 delivered rows are the whole row scratch at `Gbuf`. -/
theorem rows_join [FloatOps F] :
    (bigSep Finset.univ (Dlv m d L) : sProp 𝕄) ⊢ (sR).view.loc (VT d L) ↦[(sR).view.set]{fullShare} Gbuf m d L := by
  have h : ∀ t : Fin 512, Dlv m d L t = ((sR).view.loc (VT d L) ↦[rowSet t.val]{fullShare} Gbuf m d L : sProp 𝕄) := by
    intro t
    unfold Dlv
    rw [set_dstRow ![t.val, 0] (rowInb t.val t.isLt) t.val t.isLt rfl]
  refine Entails.of_eq ?_
  rw [← rowSet_cover, pointsTo_biUnion _ _ rowSet_disjoint]
  exact congrArg (bigSep Finset.univ) (funext h)

/-! ## The fetched row numbers -/

/-- Position `p` of the task's 512 row numbers in the list, as the body slices them, is position `base + p` of the list. -/
theorem iSliceK_emb (p : Fin 512) :
    ((iSliceK L).view.emb (ix1 p) : S16384.Idx) = ix1 ⟨base L + p.val, base_add_lt L p⟩ := by
  show (Rect.unit (s := S16384) (k0_off1 L) S512.size (k0_off1_inb L)).emb (ix1 p) = _
  funext a
  match a with
  | ⟨0, _⟩ =>
    apply Fin.ext
    show k0_off1 L 0 + 1 * p.val = base L + p.val
    rw [k0_off1_eq]
    show 1024 * (L 1).val + 512 * (L 0).val + 1 * p.val = base L + p.val
    unfold base; omega

/-- The index scratch after the fetch — the slice's contents as the one piece over the whole scratch — holds at `p` the
    task's `p`-th row number. -/
theorem fetched_apply [∀ e, Nonempty (Elt F e)] (p : Fin 512) :
    ((sI).view.writes (Elt F) (sI).view.junk
        [⟨Rect.whole S512, ReadAs.same.apply ((iSliceK L).view.read (Elt F) (m (iLoc d)))⟩] : S512.Idx → BitVec 32) (ix1 p)
      = wordAt m d L p := by
  have h := congrFun (View.read_writes_whole (sI).view (View.junk (sI).view)
    (ReadAs.same.apply ((iSliceK L).view.read (Elt F) (m (iLoc d))))) (ix1 p)
  refine Eq.trans ?_ (h.trans ?_)
  · rfl
  · show (iSliceK L).view.read (Elt F) (m (iLoc d)) (ix1 p) = wordAt m d L p
    rw [View.read_apply]
    refine (cast_eq _ _).trans ?_
    rw [iSliceK_emb]
    rfl

/-! ## The result block -/

/-- Element `(a, q)` of the task's block of the result, as the body slices it, is element `(base + a, q)` of the result. -/
theorem oBlkK_emb (y : S512x64.Idx) :
    ((oBlkK L).view.emb y : S16384x64.Idx)
      = ix2 (⟨base L + (y 0).val, base_add_lt L (y 0 : Fin 512)⟩ : Fin 16384) (y 1 : Fin 64) := by
  show (oblkK L).emb y = _
  funext a
  match a with
  | ⟨0, _⟩ =>
    apply Fin.ext
    show k0_off36 L 0 + 1 * (y 0).val = base L + (y 0).val
    rw [k0_off36_eq]
    show 1024 * (L 1).val + 512 * (L 0).val + 1 * (y 0).val = base L + (y 0).val
    unfold base; omega
  | ⟨1, _⟩ =>
    apply Fin.ext
    show k0_off36 L 1 + 1 * (y 1).val = (y 1).val
    rw [k0_off36_eq]
    show 0 + 1 * (y 1).val = (y 1).val
    omega

/-- The row scratch at `Gbuf`, copied into the task's block of the result, leaves there the gathered rows. -/
theorem out_block_write (f : Buf (Elt F) (oLoc d)) : ∀ i ∈ (oBlkK L).view.set,
    (oBlkK L).view.write (Elt F) f (ReadAs.same.apply ((sR).view.read (Elt F) (Gbuf m d L))) Finset.univ i = OUT m d i := by
  intro i hi
  obtain ⟨y, -, rfl⟩ := Finset.mem_map.mp hi
  rw [View.write_emb_of_mem _ _ (Finset.mem_univ y)]
  refine (cast_eq _ _).trans ?_
  show Gbuf m d L y = OUT m d ((oBlkK L).view.emb y)
  rw [oBlkK_emb]
  rfl

/-- The same with the copy's payload as the one piece over the whole block. -/
theorem out_block (f : Buf (Elt F) (oLoc d)) : ∀ i ∈ (oBlkK L).view.set,
    ((oBlkK L).view.writes (Elt F) f [⟨Rect.whole S512x64, ReadAs.same.apply ((sR).view.read (Elt F) (Gbuf m d L))⟩]) i
      = OUT m d i := by
  intro i hi
  rw [← View.write_univ_eq_writes_whole, View.writes_nil]
  exact out_block_write m d L f i hi

end Views

end Cert.Proof.KI

end
-- ==== Proof.KIRun.lean ====
/-
  ONE VECTOR SUBCORE'S RUN, ASSEMBLED.

  The task runs in five stretches. (1) It fetches its 512 row numbers from the list into its index scratch and waits
  for them: afterwards the index scratch holds the list's words from the task's first position on. (2) From the
  semaphore at zero it opens the batch of the 512 row copies, and the loop of thirty-two trips starts them, sixteen a
  trip; one trip is the hypothesis `Trip1`, and the loop is that trip thirty-two times: before it nothing is started,
  after it all 512 are, none waited for. (3) The loop of 512 waits drains the batch, one row's amount a wait
  (`trip2`): after it every row of the row scratch is back at what its copy delivers, and the semaphore is at zero.
  The 512 delivered rows are disjoint and cover the row scratch, so together they are the row scratch whole, row `p`
  holding the table's row named by the task's `p`-th row number. (4) It copies the row scratch to its block of the
  result and waits: the block then holds, entry by entry, the gathered rows. (5) What is handed back: that block, the
  two scratch buffers at whatever they hold, the three semaphores at zero, and what is owed with the waits recorded.
  The read tokens of the two arguments are dropped.
-/
import proofs.«217944_g2619930051674_cont_9to1_157_43_alg».proof.Proof.KIInv
import proofs.«217944_g2619930051674_cont_9to1_157_43_alg».proof.Proof.KIDrain
import proofs.«217944_g2619930051674_cont_9to1_157_43_alg».proof.Proof.KIViews
import proofs.«217944_g2619930051674_cont_9to1_157_43_alg».proof.Proof.KIObl

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S1000000x64 EltTy.f32)
local notation "oV" => (Memref.whole Cert.KernelIdeal.main_v0_scv : Memref Cert.KernelIdeal.sig Kind.scVector Space.hbm Cert.KernelIdeal.S16384x64 EltTy.f32)
local notation "sI" => (Memref.whole Cert.KernelIdeal.cc0_scratch0 : Memref Cert.KernelIdeal.sig Kind.scVector Space.vmem Cert.KernelIdeal.S512 EltTy.i32)
local notation "sR" => (Memref.whole Cert.KernelIdeal.cc0_scratch1 : Memref Cert.KernelIdeal.sig Kind.scVector Space.vmem Cert.KernelIdeal.S512x64 EltTy.f32)

section Run

variable (d : Dev nD) (L : grid0.Coords) [∀ e, Nonempty (Elt F e)]

/-- The first loop makes 32 trips. -/
theorem trips1 : k0_t1_loop.trips = 32 := by decide

/-- The index scratch once the task's 512 row numbers have been fetched into it. -/
abbrev gFetch : Buf (Elt F) ((sI).view.loc (VT d L)) :=
  (sI).view.writes (Elt F) (sI).view.junk [⟨Rect.whole S512, ReadAs.same.apply ((iSliceK L).view.read (Elt F) (m (iLoc d)))⟩]

variable [FloatOps F]

/-- The semaphore the 512 copies signal is the first of the three the task names. -/
theorem sem0_eq : (semVal (VT d L, SemLoc.dma (csem 0)) 0 : sProp 𝕄) = semVal (VT d L, SemLoc.dma cc0_scratch2.sem) 0 := rfl

/-- Before the first trip of the loop that starts the copies: nothing started, nothing lent, no token spent. -/
theorem inv1_zero (O : CellTallies nD τ sig (HIx 1)) (gI : Buf (Elt F) ((sI).view.loc (VT d L))) (t0 : Buf (Elt F) ((sR).view.loc (VT d L))) :
    inv1 m d L O gI t0 0 () = iprop(Transfers.MayWaits (VT d L) (default : HIx 1) O
      ∗ ((sI).view.loc (VT d L) ↦[(sI).view.set]{fullShare} gI)
      ∗ ((xV).view.loc (VT d L) ↦{qTile (cL L) (jL L)} m (xLoc d))
      ∗ ((sR).view.loc (VT d L) ↦[(sR).view.set]{fullShare} t0)
      ∗ batch m d L 0 0) := by
  unfold inv1
  rw [Nat.mul_zero, rowsFrom_zero]
  rfl

/-- After its last trip: all 512 copies started, none waited for. -/
theorem inv1_last (O : CellTallies nD τ sig (HIx 1)) (gI : Buf (Elt F) ((sI).view.loc (VT d L))) (t0 : Buf (Elt F) ((sR).view.loc (VT d L))) :
    inv1 m d L O gI t0 k0_t1_loop.trips () = iprop(Transfers.MayWaits (VT d L) (default : HIx 1) O
      ∗ ((sI).view.loc (VT d L) ↦[(sI).view.set]{fullShare} gI)
      ∗ ((xV).view.loc (VT d L) ↦{Transfers.shareDrop (qTile (cL L) (jL L)) 512} m (xLoc d))
      ∗ ((sR).view.loc (VT d L) ↦[rowsFrom 512]{fullShare} t0)
      ∗ batch m d L 512 0) := by
  unfold inv1
  rw [trips1]

/-- Before the first wait: the batch with nothing taken off. -/
theorem inv2_zero (O : CellTallies nD τ sig (HIx 1)) :
    inv2 m d L O 0 () = iprop(Transfers.MayWaits (VT d L) (default : HIx 1) O ∗ batch m d L 512 0 ∗ ∃ W', owes (VT d L) O W') := by
  unfold inv2
  rw [if_pos (by decide), Nat.zero_mul]

/-- After the last wait: every row as delivered, the semaphore at zero. -/
theorem inv2_last (O : CellTallies nD τ sig (HIx 1)) :
    inv2 m d L O k0_t2_loop.trips () = iprop(Transfers.MayWaits (VT d L) (default : HIx 1) O
      ∗ (bigSep Finset.univ (Dlv m d L) ∗ semVal (VT d L, SemLoc.dma cc0_scratch2.sem) 0) ∗ ∃ W', owes (VT d L) O W') := by
  unfold inv2
  rw [trips2, if_neg (by decide)]

/-- ONE VECTOR SUBCORE'S RUN. -/
theorem tile_run (h1 : Trip1 m d L) (O : CellTallies nD τ sig (HIx 1)) (W : Waits sig (HIx 1))
    (g0 : Buf (Elt F) ((sI).view.loc (VT d L))) (t0 : Buf (Elt F) ((sR).view.loc (VT d L))) :
    (iprop(Transfers.MayWaits (VT d L) (default : HIx 1) O
        ∗ ((iV).view.loc (VT d L) ↦{qTile (cL L) (jL L)} m (iLoc d))
        ∗ ((xV).view.loc (VT d L) ↦{qTile (cL L) (jL L)} m (xLoc d))
        ∗ ((oBlkK L).view.loc (VT d L) ↦[(oBlkK L).view.set]{fullShare} m (oLoc d))
        ∗ ((sI).view.loc (VT d L) ↦[(sI).view.set]{fullShare} g0)
        ∗ ((sR).view.loc (VT d L) ↦[(sR).view.set]{fullShare} t0)
        ∗ cells0 d L
        ∗ owes (VT d L) O W) : sProp 𝕄)
      ⊢ wp frame (wpE (defs₀ (F := F)) 𝒱₀ (VT d L) none) Set.univ
          (cc0_gather_kernel L iV (Memref.isWhole_whole _) xV (Memref.isWhole_whole _) oV (Memref.isWhole_whole _)
            sI (Memref.isWhole_whole _) sR (Memref.isWhole_whole _) cc0_scratch2 cc0_scoped0 cc0_scoped1)
          fun _ => iprop(((oBlkK L).view.loc (VT d L) ↦[(oBlkK L).view.set]{fullShare} OUT m d)
            ∗ (∃ g, (sI).view.loc (VT d L) ↦[(sI).view.set]{fullShare} g)
            ∗ (∃ g, (sR).view.loc (VT d L) ↦[(sR).view.set]{fullShare} g)
            ∗ cells0 d L
            ∗ ∃ W', owes (VT d L) O W') := by
  have hgI : ∀ p : Fin 512, (gFetch m d L : S512.Idx → BitVec 32) (ix1 p) = wordAt m d L p := fetched_apply m d L
  iintro ⟨#Hmw, HI, HX, HOb, HG, HT, ⟨Hc0, Hc1, Hc2⟩, HO⟩
  sl_rw [cc0_gather_kernel_eq_skeleton]
  sl_unfold [cc0_gather_kernel_skel]
  -- the fetch of the task's row numbers into the index scratch, and its wait
  sl_exec
  -- the batch of the 512 copies, from the semaphore at zero
  ihave Hc0' := (Entails.of_eq (sem0_eq (F := F) d L)) $$ Hc0
  imod (Transfers.batch_alloc' (Lvl := ℕ) (EC (F := F)) (VT d L) (default : HIx 1) NN (Dlv m d L) (sm := .dma cc0_scratch2.sem) (E := Set.univ)) $$ Hc0' with HB
  -- the loop that starts the copies
  sl_for (inv1 m d L O (gFetch m d L) t0) $$ [HG HX HT HB]
  case region =>
    intro k acc
    exact h1 O (gFetch m d L) t0 hgI k
  · iapply (Entails.of_eq (inv1_zero m d L O (gFetch m d L) t0).symm)
    isplitr; · iexact Hmw
    isplitl [HG]; · iexact HG
    isplitl [HX]; · iexact HX
    isplitl [HT]; · iexact HT
    iexact HB
  iintro %acc1 H1
  ihave H1' := (Entails.of_eq (inv1_last m d L O (gFetch m d L) t0)) $$ H1
  icases H1' with ⟨-, HG, -, -, HB⟩
  -- the 512 waits
  sl_for (inv2 m d L O) $$ [HB HO]
  case region =>
    intro k acc
    exact trip2 m d L O k
  · iapply (Entails.of_eq (inv2_zero m d L O).symm)
    isplitr; · iexact Hmw
    isplitl [HB]; · iexact HB
    iexists _; iexact HO
  iintro %acc2 H2
  ihave H2' := (Entails.of_eq (inv2_last m d L O)) $$ H2
  icases H2' with ⟨-, ⟨HD, Hc0⟩, ⟨%W2, HO⟩⟩
  ihave HT := (rows_join m d L) $$ HD
  -- the row scratch to the task's block of the result, and its wait
  sl_exec
  sl_step
  -- the task's block of the result holds the gathered rows
  ihave HOb' := (Entails.of_eq (pointsTo_congr (out_block m d L (m (oLoc d))))) $$ HOb
  isplitl [HOb']; · iexact HOb'
  isplitl [HG]; · iexists _; iexact HG
  isplitl [HT]; · iexists _; iexact HT
  isplitl [Hc0 Hc1 Hc2]
  · isplitl [Hc0]; · iapply (Entails.of_eq (sem0_eq (F := F) d L).symm); iexact Hc0
    isplitl [Hc1]; · iexact Hc1
    iexact Hc2
  iexists _; iexact HO

end Run

/-- Every vector subcore's run, from the one trip of the loop that starts the copies at every place. -/
theorem tileRun_of_trip1 [∀ e, Nonempty (Elt F e)] [FloatOps F] (h1 : ∀ (d : Dev nD) (L : grid0.Coords), Trip1 m d L) : TileRun m :=
  fun d L O W g0 t0 => tile_run m d L (h1 d L) O W g0 t0

end Cert.Proof.KI

end
-- ==== Proof.KIBody.lean ====
/-
  STARTING THE 512 COPIES: one copy (`issue`), and one trip of the loop that starts sixteen of them (`trip1`).

  The task's `j`-th copy takes the table's row named by its `j`-th row number into row `j` of its row scratch, and all
  512 complete on one semaphore. Started in order, they form one batch whose deliveries are fixed beforehand: copy `j`
  delivers row `j` of the scratch at the ONE function the whole scratch is to hold (`Gbuf`). Starting copy `j` needs
  three things, and the trip hands them on from copy to copy: what the task still holds of the table (a copy keeps one
  read token of it for good: the table is never written and nothing of it is needed back); the rows of the scratch
  from `j` on, of which the copy takes row `j`; and the batch with `j` copies started. That the copy delivers `Gbuf` on
  its row is the value lemma `deliver_row`: the word the body read in that lane IS the task's `j`-th row number
  (`lane_word`, and what the index scratch holds), it names a row of the table (what the launch memory is asked), and
  the copy's source is that row, its destination row `j`.
  The body repeats the site sixteen times per trip with its own names for the offsets; their closed forms are the
  generated `k0_offN_eq`, and every check `k0_chkN` unfolds to the one statement `chk_of_lt`.
-/
import proofs.«217944_g2619930051674_cont_9to1_157_43_alg».proof.Proof.KIInv
import proofs.«217944_g2619930051674_cont_9to1_157_43_alg».proof.Proof.KIViews
import Idealize.ShloMosaic.Lib.SparseCore.Ops
import Idealize.ShloMosaic.Lib.SparseCore.Stream

noncomputable section

namespace Cert.Proof.KI

open Cert.KernelIdeal Cert.KernelIdeal.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.KernelIdeal.main_arg0_scv : Memref Cert.KernelIdeal.sig Kind.scVector Space.hbm Cert.KernelIdeal.S16384 EltTy.i32)
local notation "xV" => (Memref.whole Cert.KernelIdeal.main_arg1_scv : Memref Cert.KernelIdeal.sig Kind.scVector Space.hbm Cert.KernelIdeal.S1000000x64 EltTy.f32)
local notation "oV" => (Memref.whole Cert.KernelIdeal.main_v0_scv : Memref Cert.KernelIdeal.sig Kind.scVector Space.hbm Cert.KernelIdeal.S16384x64 EltTy.f32)
local notation "sI" => (Memref.whole Cert.KernelIdeal.cc0_scratch0 : Memref Cert.KernelIdeal.sig Kind.scVector Space.vmem Cert.KernelIdeal.S512 EltTy.i32)
local notation "sR" => (Memref.whole Cert.KernelIdeal.cc0_scratch1 : Memref Cert.KernelIdeal.sig Kind.scVector Space.vmem Cert.KernelIdeal.S512x64 EltTy.f32)

variable (d : Dev nD) (L : grid0.Coords)

section Issue
variable [FloatOps F]

/-- A row of the row scratch as the target of a copy made by this subcore. -/
abbrev tgtRow (offD : Fin 2 → ℕ) (inbD : ∀ a, offD a + S1x64.size a ≤ S512x64.size a) : DmaTarget nD τ sig (VT d L).2 Space.vmem S64 EltTy.f32 :=
  DmaTarget.here (dstRow offD inbD)

set_option maxHeartbeats 1000000 in
/-- ONE COPY STARTED: the `j`-th copy of the batch, of the table's row named by the task's `j`-th row number into row `j`
    of the row scratch. It takes one read token off what the task still holds of the table (which the copy keeps: the
    table is only read, nothing of it is needed back), row `j` off the rows of the scratch not yet lent, and leaves the
    batch with one more copy started. What the copy will deliver is row `j` at `Gbuf`, because the row number it was
    given is the task's `j`-th and names a row of the table. -/
theorem issue {α : Type} (j j1 : ℕ) (hj : j < 512) (hj1 : j1 = j + 1)
    (offS : Fin 2 → ℕ) (inbS : ∀ a, offS a + S1x64.size a ≤ S1000000x64.size a)
    (offD : Fin 2 → ℕ) (inbD : ∀ a, offD a + S1x64.size a ≤ S512x64.size a)
    (v : BitVec 32) (hoffS : offS = ![v.toNat, 0]) (hoffD : offD = ![j, 0])
    (hv : v.toNat < 1000000) (hval : v = wordAt m d L ⟨j, hj⟩)
    (t0 : Buf (Elt F) ((sR).view.loc (VT d L))) (q : PosShare TreeShare)
    (h1 : (srcRow offS inbS).view.WordExact) (h2 : (tgtRow d L offD inbD).view.WordExact)
    (h3 : DmaTarget.Typed (nD := nD) Space.hbm (SemLoc.dma cc0_scratch2.sem) (tgtRow d L offD inbD))
    (kont : PUnit → Prog (TpuEff nD τ sig (Elt F) Λ₀ (VT d L).2) α) (Q : α → sProp 𝕄) :
    iprop(((xV).view.loc (VT d L) ↦{Transfers.shareDrop q j} m (xLoc d))
        ∗ ((sR).view.loc (VT d L) ↦[rowsFrom j]{fullShare} t0)
        ∗ batch m d L j 0
        ∗ (iprop(((xV).view.loc (VT d L) ↦{Transfers.shareDrop q j1} m (xLoc d))
              ∗ ((sR).view.loc (VT d L) ↦[rowsFrom j1]{fullShare} t0)
              ∗ batch m d L j1 0) -∗ wp frame (wpE (defs₀ (F := F)) 𝒱₀ (VT d L) none) Set.univ (kont ⟨⟩) Q))
      ⊢ wp frame (wpE (defs₀ (F := F)) 𝒱₀ (VT d L) none) Set.univ
          (Prog.op (TpuEff.enqueueDma (srcRow offS inbS) (tgtRow d L offD inbD) (SemLoc.dma cc0_scratch2.sem) h1 h2 h3) kont) Q := by
  subst hj1 hoffD
  iintro ⟨HX, HT, HB, Hk⟩
  -- one read token off the table's share
  ihave HX' := (pointsTo_share (PosShare.mem_left_op_right (Transfers.shareDrop q j))).1 $$ HX
  icases HX' with ⟨HXl, HXr⟩
  ihave HXs := (pointsTo_split_subset (Finset.subset_univ (srcRow offS inbS).view.set)).1 $$ HXr
  icases HXs with ⟨HXs, -⟩
  -- row `j` off the rows not yet lent
  ihave HT' := (pointsTo_split_subset (rowSet_subset_rowsFrom j)).1 $$ HT
  icases HT' with ⟨HTr, HTrest⟩
  rw [rowsFrom_sdiff, ← set_dstRow ![j, 0] inbD j hj rfl]
  -- what the copy delivers is row `j` at the one function the whole scratch will hold
  have hD : iprop(((dstRow ![j, 0] inbD).view.loc (VT d L) ↦[(dstRow ![j, 0] inbD).view.set]{fullShare}
          ((dstRow ![j, 0] inbD).view.write (Elt F) t0 (ReadAs.same.apply ((srcRow offS inbS).view.read (Elt F) (m (xLoc d)))) Finset.univ))
        ∗ ((srcRow offS inbS).view.loc (VT d L) ↦[(srcRow offS inbS).view.set]{Transfers.shareTokN q j} m (xLoc d)))
      ⊢ Dlv m d L ⟨j, hj⟩ := by
    refine sep_elim_left.trans (Entails.of_eq ?_)
    unfold Dlv
    exact pointsTo_congr (deliver_row m d L ![j, 0] inbD ⟨j, hj⟩ rfl offS inbS v hoffS hv hval t0)
  have key := Transfers.wp_dmaBatch (EC (F := F)) (defs := defs₀ (F := F)) 𝒱₀ (VT d L) none (Q := Q)
    (src := srcRow offS inbS) (via := ReadAs.same) (dst := dstRow ![j, 0] inbD) (sm := SemLoc.dma cc0_scratch2.sem)
    (hsrc := h1) (hdst := h2) (hsem := h3) (k := kont) (q := Transfers.shareTokN q j) (fs := m (xLoc d))
    (Sd := (dstRow ![j, 0] inbD).view.set) (fd := t0) (D := Dlv m d L) (j := j) (u := 0)
    (default : HIx 1) NN rfl (Finset.Subset.refl _) hj (Nat.zero_le _) hD
  iapply (key) $$ [HXs HTr HB] [HXl HTrest Hk]
  · isplitl [HXs]; · iexact HXs
    isplitl [HTr]; · iexact HTr
    iexact HB
  · iintro HB
    iapply Hk
    isplitl [HXl]; · iexact HXl
    isplitl [HTrest]; · iexact HTrest
    iexact HB

end Issue

section Trip1
variable [FloatOps F]

/-- A word below the number of rows names a row of the table: the body's check on a row number, whichever of its sixteen
    copies of the check it is (each unfolds to this). -/
theorem chk_of_lt (v : BitVec 32) (h : v.toNat < 1000000) : ∀ a, (![v.toNat, 0] : Fin 2 → ℕ) a + S1x64.size a ≤ S1000000x64.size a := by
  intro a; fin_cases a
  · show v.toNat + 1 ≤ 1000000; omega
  · show 0 + 64 ≤ 64; omega

set_option hygiene false in
/-- One of a trip's sixteen sites: the lane's word is read and its check is met (the word names a row of the table); the
    copy is started as copy number `j` of the batch; the table's remaining share, the scratch's remaining rows and the
    batch come back, one copy further. -/
local macro "site " j:term " ; " j1:term " ; " r:term " ; " hs:term " ; " hoff:term : tactic => `(tactic| (
  sl_exec
  iapply (issue m d L $j $j1 (by omega) (by omega) _ _ _ _ (lane d L gI k ![$r] $hs) rfl $hoff
      (by rw [hw $j $r ![$r] $hs (by omega) (by omega) rfl (by omega)]; exact hlt _)
      (hw $j $r ![$r] $hs (by omega) (by omega) rfl (by omega)) t0 (qTile (cL L) (jL L)) _ _ _ _ _)
  isplitl [HX]
  · iexact HX
  isplitl [HT]
  · iexact HT
  isplitl [HB]
  · iexact HB
  iintro ⟨HX, HT, HB⟩))

set_option maxHeartbeats 8000000 in
/-- ONE TRIP of the loop that starts the copies: sixteen row numbers read back from the index scratch, sixteen copies
    started — copies `16 k … 16 k + 15` of the batch, each of the table's row named by the task's row number of that
    position (which names a row of the table, by what the launch memory is asked) into the row of that position. -/
theorem trip1 (hpre : PreOK m) : Trip1 m d L := by
  intro O gI t0 hgI k
  have hk : k.val < 32 := by
    have h32 : k0_t1_loop.trips = 32 := by decide
    have := k.isLt; omega
  -- the word in a lane is the task's row number of that position, and names a row of the table
  have hw : ∀ (j r : ℕ) (offr : Fin 1 → ℕ) (hs : S16.Slices offr S1) (hj : j < 512) (hr : r < 16) (hoffr : offr = ![r])
      (hjr : j = 16 * k.val + r), lane d L gI k offr hs = wordAt m d L ⟨j, hj⟩ := by
    intro j r offr hs hj hr hoffr hjr
    subst hjr hoffr
    unfold lane
    rw [lane_word d L gI k ⟨r, hr⟩ ![r] rfl hs, hgI]
  have hlt : ∀ p, (wordAt m d L p).toNat < 1000000 := fun p => hpre d ⟨base L + p.val, base_add_lt L p⟩
  unfold inv1
  rw [show 16 * (k.val + 1) = 16 * k.val + 16 from by omega]
  iintro ⟨#Hmw, HG, HX, HT, HB⟩
  -- the sixteen checks, each on its lane's word
  have hc0 : k0_chk1 (lane d L gI k ![0] slices_S16_o0_S1) := chk_of_lt _ (by rw [hw (16 * k.val + 0) 0 _ _ (by omega) (by omega) rfl (by omega)]; exact hlt _)
  have hc1 : k0_chk2 (lane d L gI k ![1] slices_S16_o1_S1) := chk_of_lt _ (by rw [hw (16 * k.val + 1) 1 _ _ (by omega) (by omega) rfl (by omega)]; exact hlt _)
  have hc2 : k0_chk3 (lane d L gI k ![2] slices_S16_o2_S1) := chk_of_lt _ (by rw [hw (16 * k.val + 2) 2 _ _ (by omega) (by omega) rfl (by omega)]; exact hlt _)
  have hc3 : k0_chk4 (lane d L gI k ![3] slices_S16_o3_S1) := chk_of_lt _ (by rw [hw (16 * k.val + 3) 3 _ _ (by omega) (by omega) rfl (by omega)]; exact hlt _)
  have hc4 : k0_chk5 (lane d L gI k ![4] slices_S16_o4_S1) := chk_of_lt _ (by rw [hw (16 * k.val + 4) 4 _ _ (by omega) (by omega) rfl (by omega)]; exact hlt _)
  have hc5 : k0_chk6 (lane d L gI k ![5] slices_S16_o5_S1) := chk_of_lt _ (by rw [hw (16 * k.val + 5) 5 _ _ (by omega) (by omega) rfl (by omega)]; exact hlt _)
  have hc6 : k0_chk7 (lane d L gI k ![6] slices_S16_o6_S1) := chk_of_lt _ (by rw [hw (16 * k.val + 6) 6 _ _ (by omega) (by omega) rfl (by omega)]; exact hlt _)
  have hc7 : k0_chk8 (lane d L gI k ![7] slices_S16_o7_S1) := chk_of_lt _ (by rw [hw (16 * k.val + 7) 7 _ _ (by omega) (by omega) rfl (by omega)]; exact hlt _)
  have hc8 : k0_chk9 (lane d L gI k ![8] slices_S16_o8_S1) := chk_of_lt _ (by rw [hw (16 * k.val + 8) 8 _ _ (by omega) (by omega) rfl (by omega)]; exact hlt _)
  have hc9 : k0_chk10 (lane d L gI k ![9] slices_S16_o9_S1) := chk_of_lt _ (by rw [hw (16 * k.val + 9) 9 _ _ (by omega) (by omega) rfl (by omega)]; exact hlt _)
  have hc10 : k0_chk11 (lane d L gI k ![10] slices_S16_o10_S1) := chk_of_lt _ (by rw [hw (16 * k.val + 10) 10 _ _ (by omega) (by omega) rfl (by omega)]; exact hlt _)
  have hc11 : k0_chk12 (lane d L gI k ![11] slices_S16_o11_S1) := chk_of_lt _ (by rw [hw (16 * k.val + 11) 11 _ _ (by omega) (by omega) rfl (by omega)]; exact hlt _)
  have hc12 : k0_chk13 (lane d L gI k ![12] slices_S16_o12_S1) := chk_of_lt _ (by rw [hw (16 * k.val + 12) 12 _ _ (by omega) (by omega) rfl (by omega)]; exact hlt _)
  have hc13 : k0_chk14 (lane d L gI k ![13] slices_S16_o13_S1) := chk_of_lt _ (by rw [hw (16 * k.val + 13) 13 _ _ (by omega) (by omega) rfl (by omega)]; exact hlt _)
  have hc14 : k0_chk15 (lane d L gI k ![14] slices_S16_o14_S1) := chk_of_lt _ (by rw [hw (16 * k.val + 14) 14 _ _ (by omega) (by omega) rfl (by omega)]; exact hlt _)
  have hc15 : k0_chk16 (lane d L gI k ![15] slices_S16_o15_S1) := chk_of_lt _ (by rw [hw (16 * k.val + 15) 15 _ _ (by omega) (by omega) rfl (by omega)]; exact hlt _)
  sl_unfold [k0_t1_body]
  -- the sixteen copies, in the order the body starts them
  site 16 * k.val + 0 ; 16 * k.val + 0 + 1 ; 0 ; slices_S16_o0_S1 ; k0_off5_eq k ⟨0, by decide⟩
  site 16 * k.val + 0 + 1 ; 16 * k.val + 0 + 2 ; 1 ; slices_S16_o1_S1 ; k0_off7_eq k ⟨0, by decide⟩
  site 16 * k.val + 0 + 2 ; 16 * k.val + 0 + 3 ; 2 ; slices_S16_o2_S1 ; k0_off9_eq k ⟨0, by decide⟩
  site 16 * k.val + 0 + 3 ; 16 * k.val + 0 + 4 ; 3 ; slices_S16_o3_S1 ; k0_off11_eq k ⟨0, by decide⟩
  site 16 * k.val + 0 + 4 ; 16 * k.val + 0 + 5 ; 4 ; slices_S16_o4_S1 ; k0_off13_eq k ⟨0, by decide⟩
  site 16 * k.val + 0 + 5 ; 16 * k.val + 0 + 6 ; 5 ; slices_S16_o5_S1 ; k0_off15_eq k ⟨0, by decide⟩
  site 16 * k.val + 0 + 6 ; 16 * k.val + 0 + 7 ; 6 ; slices_S16_o6_S1 ; k0_off17_eq k ⟨0, by decide⟩
  site 16 * k.val + 0 + 7 ; 16 * k.val + 0 + 8 ; 7 ; slices_S16_o7_S1 ; k0_off19_eq k ⟨0, by decide⟩
  site 16 * k.val + 0 + 8 ; 16 * k.val + 0 + 9 ; 8 ; slices_S16_o8_S1 ; k0_off21_eq k ⟨0, by decide⟩
  site 16 * k.val + 0 + 9 ; 16 * k.val + 0 + 10 ; 9 ; slices_S16_o9_S1 ; k0_off23_eq k ⟨0, by decide⟩
  site 16 * k.val + 0 + 10 ; 16 * k.val + 0 + 11 ; 10 ; slices_S16_o10_S1 ; k0_off25_eq k ⟨0, by decide⟩
  site 16 * k.val + 0 + 11 ; 16 * k.val + 0 + 12 ; 11 ; slices_S16_o11_S1 ; k0_off27_eq k ⟨0, by decide⟩
  site 16 * k.val + 0 + 12 ; 16 * k.val + 0 + 13 ; 12 ; slices_S16_o12_S1 ; k0_off29_eq k ⟨0, by decide⟩
  site 16 * k.val + 0 + 13 ; 16 * k.val + 0 + 14 ; 13 ; slices_S16_o13_S1 ; k0_off31_eq k ⟨0, by decide⟩
  site 16 * k.val + 0 + 14 ; 16 * k.val + 15 ; 14 ; slices_S16_o14_S1 ; k0_off33_eq k ⟨0, by decide⟩
  site 16 * k.val + 15 ; 16 * k.val + 16 ; 15 ; slices_S16_o15_S1 ; k0_off35_eq k
  -- the trip's end: the state before the next trip
  sl_exec
  sl_step
  isplitl []
  · iexact Hmw
  isplitl [HG]
  · iexact HG
  isplitl [HX]
  · iexact HX
  isplitl [HT]
  · iexact HT
  iexact HB

end Trip1

end Cert.Proof.KI

end
-- ==== Proof.KBCommon.lean ====
/-
  THE SETTING of the word-level kernel's run: the program as the launch theorem reads it, the ghost state, the three
  arrays, and WHO HOLDS WHAT while the thirty-two vector subcores work.

  The list of row numbers and the table are only read. The TensorCore keeps a share of each for itself (so that it
  can say, at the end, that they are unchanged) and hands each of the two SparseCores one read share of each; a
  SparseCore hands each of its sixteen vector subcores one read share of each. A share that has been handed down is
  never needed again, so nothing is handed back.
  The result has 16384 rows. Vector subcore `i` of SparseCore `c` fills the 512 rows from row `512 (2 i + c)` on —
  block number `2 i + c` of thirty-two — and nobody else touches them: it is handed those rows whole and hands them
  back holding the gathered rows (`Cert.Spec.rows` of the two argument arrays). The thirty-two blocks are disjoint
  and cover the result, so what comes back to the TensorCore is the whole result at the gathered rows.
-/
import proofs.«217944_g2619930051674_cont_9to1_157_43_alg».proof.Defs
import Idealize.ShloMosaic.Lib.SparseCore.Launch
import Idealize.ShloMosaic.Lib.StableHlo.Run
import Idealize.ShloMosaic.Lib.Pipeline.Kit
import Idealize.ShloMosaic.Lib.Batch
import Idealize.ShloMosaic.Lib.Tactic
import proofs.«217944_g2619930051674_cont_9to1_157_43_alg».proof.Proof.Gen.Kernel
import proofs.«217944_g2619930051674_cont_9to1_157_43_alg».proof.Proof.Gen.Kernel.Skeleton
import proofs.«217944_g2619930051674_cont_9to1_157_43_alg».proof.Proof.Spec

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory and the three arrays -/

variable (m : (ℓ : Loc nD τ sig) → Buf (Elt F) ℓ) (ρ : Dev nD → PrngReg)

/-- The list of row numbers, the table (the arguments) and the result, as locations of device `d`. -/
abbrev iLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

/-- The gathered rows of the launch memory's two argument arrays: what the result must hold at the end. -/
def OUT (d : Dev nD) : Buf (Elt F) (oLoc d) :=
  (Cert.Spec.rows (α := Elt F .f32) (m (iLoc d)) (m (xLoc d)) : S16384x64.Idx → Elt F .f32)

/-- What the body asks of the launch memory: every word of the list names a row of the table. -/
def PreOK : Prop := ∀ (d : Dev nD) (p : Fin 16384), ((m (iLoc d) : S16384.Idx → BitVec 32) (ix1 p)).toNat < 1000000

/-! ## The shares of the two arguments -/

/-- What the TensorCore keeps of an argument, -/
abbrev qKeep : PosShare TreeShare := Transfers.shareDrop fullShare 2
/-- what SparseCore `c` is handed, -/
abbrev qCore (c : Fin 2) : PosShare TreeShare := Transfers.shareTokN fullShare c.val
/-- and what its vector subcore `i` is. -/
abbrev qTile (c : Fin 2) (i : Fin 16) : PosShare TreeShare := Transfers.shareTokN (qCore c) i.val

/-! ## The blocks of the result -/

local notation "oV" => (Memref.whole Cert.Kernel.main_v0_scv : Memref Cert.Kernel.sig Kind.scVector Space.hbm Cert.Kernel.S16384x64 EltTy.f32)

/-- Block `2 i + c` of the result's thirty-two blocks of 512 rows. -/
abbrev oix (c : Fin 2) (i : Fin 16) : Fin 2 → Nat := ![2 * i.val + c.val, 0]
theorem oblk_inb (c : Fin 2) (i : Fin 16) : ∀ a, (oix c i a + 1) * S512x64.size a ≤ S16384x64.size a := by
  have := c.isLt; have := i.isLt; intro a; fin_cases a
  · show (2 * i.val + c.val + 1) * 512 ≤ 16384; omega
  · show (0 + 1) * 64 ≤ 64; omega
abbrev oblk (c : Fin 2) (i : Fin 16) : Rect S16384x64 := Rect.block S512x64.size (oix c i) (oblk_inb c i)
abbrev oBlkSet (c : Fin 2) (i : Fin 16) : Finset S16384x64.Idx := ((oV).view.slice (oblk c i)).set
/-- The sixteen blocks of SparseCore `c`'s vector subcores, together. -/
abbrev oCoreSet (c : Fin 2) : Finset S16384x64.Idx := (Finset.univ : Finset (Fin 16)).biUnion (oBlkSet c)

variable [FloatOps F]

/-! ## What the handshakes carry -/

abbrev iSh (d : Dev nD) (q : PosShare TreeShare) : sProp 𝕄 := iLoc d ↦{q} m (iLoc d)
abbrev xSh (d : Dev nD) (q : PosShare TreeShare) : sProp 𝕄 := xLoc d ↦{q} m (xLoc d)
abbrev oBlkPts (d : Dev nD) (c : Fin 2) (i : Fin 16) (f : Buf (Elt F) (oLoc d)) : sProp 𝕄 := oLoc d ↦[oBlkSet c i]{fullShare} f
abbrev oCorePts (d : Dev nD) (c : Fin 2) (f : Buf (Elt F) (oLoc d)) : sProp 𝕄 := oLoc d ↦[oCoreSet c]{fullShare} f

/-- The one call: SparseCore `c` takes a read share of each argument and its sixteen blocks of the result, and brings the
    blocks back at the gathered rows; a vector subcore takes a read share of each argument and its block, and brings
    the block back at the gathered rows. -/
def P : (K (F := F)).Pay (nD := nD) (Val := Elt F) (Name := ℕ) (U := UU) where
  st := fun q d c => match q with
    | 0 => iprop(iSh m d (qCore (Fin.cast nCore_zero c)) ∗ xSh m d (qCore (Fin.cast nCore_zero c)) ∗ oCorePts d (Fin.cast nCore_zero c) (m (oLoc d)))
  dn := fun q d c => match q with
    | 0 => oCorePts d (Fin.cast nCore_zero c) (OUT m d)
  go := fun q d c i => match q with
    | 0 => iprop(iSh m d (qTile (Fin.cast nCore_zero c) (Fin.cast nSub_zero i)) ∗ xSh m d (qTile (Fin.cast nCore_zero c) (Fin.cast nSub_zero i))
            ∗ oBlkPts d (Fin.cast nCore_zero c) (Fin.cast nSub_zero i) (m (oLoc d)))
  td := fun q d c i => match q with
    | 0 => oBlkPts d (Fin.cast nCore_zero c) (Fin.cast nSub_zero i) (OUT m d)
  x := fun _ _ => iprop(emp)

instance P_storable : (P (F := F) m).IsStorable where
  st q d c := match q with
    | 0 => (inferInstance : BI.Storable (upEmb : UEmb _ 𝕄)
        iprop(iSh m d (qCore (Fin.cast nCore_zero c)) ∗ xSh m d (qCore (Fin.cast nCore_zero c)) ∗ oCorePts d (Fin.cast nCore_zero c) (m (oLoc d))))
  dn q d c := match q with
    | 0 => (inferInstance : BI.Storable (upEmb : UEmb _ 𝕄) (oCorePts d (Fin.cast nCore_zero c) (OUT m d)))
  go q d c i := match q with
    | 0 => (inferInstance : BI.Storable (upEmb : UEmb _ 𝕄)
        iprop(iSh m d (qTile (Fin.cast nCore_zero c) (Fin.cast nSub_zero i)) ∗ xSh m d (qTile (Fin.cast nCore_zero c) (Fin.cast nSub_zero i))
            ∗ oBlkPts d (Fin.cast nCore_zero c) (Fin.cast nSub_zero i) (m (oLoc d))))
  td q d c i := match q with
    | 0 => (inferInstance : BI.Storable (upEmb : UEmb _ 𝕄) (oBlkPts d (Fin.cast nCore_zero c) (Fin.cast nSub_zero i) (OUT m d)))

end Cert.Proof.KB

end
-- ==== Proof.KBLaunch.lean ====
/-
  THE LAUNCH of the word-level kernel's run: how the three arrays are dealt out to the two SparseCores and their
  thirty-two vector subcores, how the result is gathered back, and the run of the whole program from the proof of
  one vector subcore's task.

  The geometry. Block `2 i + c` of the result's thirty-two blocks of 512 rows belongs to vector subcore `i` of
  SparseCore `c`. The block number determines `(c, i)` (`c` is its parity, `i` its half), so different places have
  disjoint blocks; and row `r` lies in block `r / 512 = 2 (r / 1024) + (r / 512) % 2`, so the blocks cover the result.
  Hence the result whole is the two SparseCores' sixteen-block sets, and each of those is its sixteen blocks, as
  separating conjunctions of points-to assertions at ONE contents function: dealing out and gathering back are the
  same equation read in the two directions.

  The two arguments are only read: a points-to at a share is a remainder and `n` read tokens; the TensorCore keeps the
  remainder after two tokens (and reads from it, at the end, that the arguments are unchanged), a SparseCore drops the
  remainder after sixteen. Nothing is joined back.
-/
import proofs.«217944_g2619930051674_cont_9to1_157_43_alg».proof.Proof.KBCommon

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The blocks of the result: disjoint, and a cover -/

theorem oBlkSet_eq (c : Fin 2) (i : Fin 16) : oBlkSet c i = (oblk c i).set := by
  show ((View.whole (main_v0_scv : Ref sig .scVector)).slice (oblk c i)).set = _
  rw [View.set_slice]; exact Finset.map_refl

/-- The block number `2 i + c` determines the SparseCore `c` (its parity) and the vector subcore `i` (its half). -/
theorem oix_inj {c c' : Fin 2} {i i' : Fin 16} (h : oix c i = oix c' i') : c = c' ∧ i = i' := by
  have h0 := congrFun h 0
  simp only [oix, Matrix.cons_val_zero] at h0
  have := c.isLt; have := c'.isLt
  exact ⟨Fin.ext (by omega), Fin.ext (by omega)⟩

theorem oblks_disjoint (c : Fin 2) :
    ∀ i ∈ (Finset.univ : Finset (Fin 16)), ∀ j ∈ (Finset.univ : Finset (Fin 16)), i ≠ j → Disjoint (oBlkSet c i) (oBlkSet c j) :=
  fun i _ j _ h => by rw [oBlkSet_eq, oBlkSet_eq]; exact Rect.block_disjoint _ _ fun e => h (oix_inj e).2

theorem ocores_disjoint :
    ∀ c ∈ (Finset.univ : Finset (Fin 2)), ∀ c' ∈ (Finset.univ : Finset (Fin 2)), c ≠ c' → Disjoint (oCoreSet c) (oCoreSet c') := by
  intro c _ c' _ h
  refine (Finset.disjoint_biUnion_left _ _ _).mpr fun i _ => (Finset.disjoint_biUnion_right _ _ _).mpr fun j _ => ?_
  rw [oBlkSet_eq, oBlkSet_eq]; exact Rect.block_disjoint _ _ fun e => h (oix_inj e).1

set_option maxRecDepth 4096 in
/-- Row `r` of the result lies in block `r / 512`, which is block `2 i + c` for `i = r / 1024` and `c = (r / 512) % 2`. -/
theorem ocores_cover : (Finset.univ : Finset (Fin 2)).biUnion oCoreSet = Finset.univ := by
  refine Finset.eq_univ_of_forall fun x => Finset.mem_biUnion.mpr ?_
  have h0 : (x 0).val < 16384 := (x 0).isLt
  have h1 : (x 1).val < 64 := (x 1).isLt
  refine ⟨⟨((x 0).val / 512) % 2, by omega⟩, Finset.mem_univ _, Finset.mem_biUnion.mpr ⟨⟨(x 0).val / 1024, by omega⟩, Finset.mem_univ _, ?_⟩⟩
  rw [oBlkSet_eq, Rect.mem_set_unit]
  intro a
  fin_cases a
  · show (2 * ((x 0).val / 1024) + ((x 0).val / 512) % 2) * 512 ≤ (x 0).val
      ∧ (x 0).val < (2 * ((x 0).val / 1024) + ((x 0).val / 512) % 2) * 512 + 512
    omega
  · show 0 * 64 ≤ (x 1).val ∧ (x 1).val < 0 * 64 + 64; omega

/-! ## The result whole, a SparseCore's sixteen blocks, a block -/

/-- A SparseCore's part of the result is its sixteen blocks, -/
theorem oCore_blks (d : Dev nD) (c : Fin 2) (f : Buf (Elt F) (oLoc d)) :
    (oCorePts d c f : sProp 𝕄) = bigSep Finset.univ fun i : Fin 16 => oBlkPts d c i f :=
  pointsTo_biUnion Finset.univ (ℓ := oLoc d) (oBlkSet c) (oblks_disjoint c)

/-- and the result whole is the two SparseCores' parts. -/
theorem oPts_cores (d : Dev nD) (f : Buf (Elt F) (oLoc d)) :
    (oLoc d ↦{fullShare} f : sProp 𝕄) = bigSep Finset.univ fun c : Fin 2 => oCorePts d c f := by
  rw [← pointsTo_biUnion Finset.univ (ℓ := oLoc d) oCoreSet ocores_disjoint, ocores_cover]; try rfl

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

variable [FloatOps F]

/-! ## A SparseCore's operands to its sixteen vector subcores, and back -/

/-- SparseCore `c`'s read share of each argument gives sixteen read tokens (the remainder is dropped); its part of the
    result is its sixteen blocks. -/
theorem go_split (d : Dev nD) (c : Fin 2) :
    iprop(iSh m d (qCore c) ∗ xSh m d (qCore c) ∗ oCorePts d c (m (oLoc d)))
      ⊢ (bigSep Finset.univ fun i : Fin 16 => iprop(iSh m d (qTile c i) ∗ xSh m d (qTile c i) ∗ oBlkPts d c i (m (oLoc d))) : sProp 𝕄) := by
  rw [bigSep_sep', bigSep_sep', oCore_blks]
  iintro ⟨Hi, Hx, Ho⟩
  ihave Hi' := (Transfers.pointsTo_toks_split (ℓ := iLoc d) (S := Finset.univ) (f := m (iLoc d)) (qCore c) 16) $$ Hi
  icases Hi' with ⟨-, Hi⟩
  ihave Hx' := (Transfers.pointsTo_toks_split (ℓ := xLoc d) (S := Finset.univ) (f := m (xLoc d)) (qCore c) 16) $$ Hx
  icases Hx' with ⟨-, Hx⟩
  isplitl [Hi]; · iexact Hi
  isplitl [Hx]; · iexact Hx
  iexact Ho

/-- The sixteen blocks, each at the gathered rows, are the SparseCore's part of the result at the gathered rows. -/
theorem td_join (d : Dev nD) (c : Fin 2) :
    (bigSep Finset.univ fun i : Fin 16 => oBlkPts d c i (OUT m d)) ⊢ (oCorePts d c (OUT m d) : sProp 𝕄) := by
  rw [oCore_blks]

theorem vecSplit : (K (F := F)).VecSplit' (P m) 0 := by
  intro d c
  show iprop(iSh m d (qCore (Fin.cast nCore_zero c)) ∗ xSh m d (qCore (Fin.cast nCore_zero c)) ∗ oCorePts d (Fin.cast nCore_zero c) (m (oLoc d)))
    ⊢ |={Set.univ}=> iprop(
      (bigSep Finset.univ fun i : Fin ((K (F := F)).nSub 0) =>
        iprop(iSh m d (qTile (Fin.cast nCore_zero c) (Fin.cast nSub_zero i)) ∗ xSh m d (qTile (Fin.cast nCore_zero c) (Fin.cast nSub_zero i))
              ∗ oBlkPts d (Fin.cast nCore_zero c) (Fin.cast nSub_zero i) (m (oLoc d))))
      ∗ ((bigSep Finset.univ fun i : Fin ((K (F := F)).nSub 0) => oBlkPts d (Fin.cast nCore_zero c) (Fin.cast nSub_zero i) (OUT m d))
          -∗ oCorePts d (Fin.cast nCore_zero c) (OUT m d)))
  generalize Fin.cast nCore_zero c = c'
  rw [bigSep_tasks (F := F) (fun i => iprop(iSh m d (qTile c' i) ∗ xSh m d (qTile c' i) ∗ oBlkPts d c' i (m (oLoc d)))),
    bigSep_tasks (F := F) (fun i => oBlkPts d c' i (OUT m d))]
  iintro H; imodintro
  isplitl [H]; · iapply (go_split m d c'); iexact H
  iapply (td_join m d c')

/-! ## The launch element of the certificate's ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

omit [FloatOps F] in
theorem unscopedBufs_eq (d : Dev nD) (W : (b : Ref sig .tc) → Buf (Elt F) ((d.tc : Thread nD τ).loc b)) :
    (unscopedBufs d W : sProp 𝕄) = iprop((iLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

/-- What the call takes for the two SparseCores: a read token of each argument for each, and the result whole; -/
theorem st0_eq (d : Dev nD) :
    (bigSep Finset.univ fun c : Fin ((K (F := F)).nCore 0) => (P m).st 0 d c)
      = iprop((bigSep Finset.univ fun c : Fin 2 => iSh m d (qCore c)) ∗ (bigSep Finset.univ fun c : Fin 2 => xSh m d (qCore c))
          ∗ oLoc d ↦{fullShare} m (oLoc d)) := by
  show (bigSep Finset.univ fun c : Fin ((K (F := F)).nCore 0) =>
      iprop(iSh m d (qCore (Fin.cast nCore_zero c)) ∗ xSh m d (qCore (Fin.cast nCore_zero c)) ∗ oCorePts d (Fin.cast nCore_zero c) (m (oLoc d)))) = _
  rw [bigSep_cores (F := F) (fun c => iprop(iSh m d (qCore c) ∗ xSh m d (qCore c) ∗ oCorePts d c (m (oLoc d)))), bigSep_sep', bigSep_sep',
    ← oPts_cores d (m (oLoc d))]

/-- and what it hands back: the result whole at the gathered rows. -/
theorem dn0_eq (d : Dev nD) :
    (bigSep Finset.univ fun c : Fin ((K (F := F)).nCore 0) => (P m).dn 0 d c) = (oLoc d ↦{fullShare} OUT m d : sProp 𝕄) := by
  show (bigSep Finset.univ fun c : Fin ((K (F := F)).nCore 0) => oCorePts d (Fin.cast nCore_zero c) (OUT m d)) = _
  rw [bigSep_cores (F := F) (fun c => oCorePts d c (OUT m d)), ← oPts_cores d (OUT m d)]

/-- What @main leaves the claim: the share of each argument the TensorCore kept, and the result at the gathered rows. -/
abbrev FIN (d : Dev nD) : sProp 𝕄 := iprop(iSh m d qKeep ∗ xSh m d qKeep ∗ oLoc d ↦{fullShare} OUT m d)

/-- @main on device `d`'s TensorCore: the one call. Each argument's full share is what the TensorCore keeps and one
    read token per SparseCore; the result goes whole and comes back whole at the gathered rows. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscopedBufs_eq]
  simp only [main, wp_bind, wp_pure]
  iintro ⟨#Hctx, Hst, ⟨Hb, ⟨Hi, Hx, Ho⟩, -, -⟩, -⟩
  ihave Hi' := (Transfers.pointsTo_toks_split (ℓ := iLoc d) (S := Finset.univ) (f := m (iLoc d)) fullShare 2) $$ Hi
  icases Hi' with ⟨Hik, Hic⟩
  ihave Hx' := (Transfers.pointsTo_toks_split (ℓ := xLoc d) (S := Finset.univ) (f := m (xLoc d)) fullShare 2) $$ Hx
  icases Hx' with ⟨Hxk, Hxc⟩
  iapply ((K (F := F)).wp_run (D (F := F)) 𝒱 (EH := EH) (P := P m) κ d 0) $$ [Hst Hic Hxc Ho Hik Hxk]
  isplitr; · iexact Hctx
  isplitl [Hst]; · iexact Hst
  isplitl [Hic Hxc Ho]
  · rw [st0_eq]
    isplitl [Hic]; · iexact Hic
    isplitl [Hxc]; · iexact Hxc
    iexact Ho
  iintro ⟨Hst, Hdn⟩
  ihave Hdn' := (Entails.of_eq (dn0_eq m d)) $$ Hdn
  imodintro
  isplitl [Hst]; · iexact Hst
  isplitl [Hik]; · iexact Hik
  isplitl [Hxk]; · iexact Hxk
  iexact Hdn'

/-- What the final memory holds: the result at the gathered rows, the two arguments as at the launch. -/
def fq (d : Dev nD) (s' : Phys nD τ sig (Elt F)) : Prop :=
  s'.mem.mem (oLoc d) = OUT m d ∧ s'.mem.mem (iLoc d) = m (iLoc d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Hi, Hx, Ho⟩, HSI⟩
  ihave H := (persistent_entails_right (SI_pointsTo_agree (st := s') (ℓ := iLoc d) (I := Finset.univ) (q := qKeep) (f := m (iLoc d)))) $$ [HSI Hi]
  · isplitl [HSI] <;> iassumption
  icases H with ⟨%h1, HSI, -⟩
  ihave H := (persistent_entails_right (SI_pointsTo_agree (st := s') (ℓ := xLoc d) (I := Finset.univ) (q := qKeep) (f := m (xLoc d)))) $$ [HSI Hx]
  · isplitl [HSI] <;> iassumption
  icases H with ⟨%h2, HSI, -⟩
  ihave H := (SI_pointsTo_agree (st := s') (ℓ := oLoc d) (I := Finset.univ) (q := fullShare) (f := OUT m d)) $$ [HSI Ho]
  · isplitl [HSI] <;> iassumption
  icases H with %h3
  ipureintro
  have e1 : s'.mem.mem (iLoc d) = m (iLoc d) := funext fun (i : Idx (iLoc d)) => h1 i (by simp)
  have e2 : s'.mem.mem (xLoc d) = m (xLoc d) := funext fun (i : Idx (xLoc d)) => h2 i (by simp)
  have e3 : s'.mem.mem (oLoc d) = OUT m d := funext fun (i : Idx (oLoc d)) => h3 i (by simp)
  exact ⟨e3, e1, e2⟩

/-! ## The program's run -/

def QC : PUnit × MemSt nD τ sig (Elt F) → Prop := fun r =>
  ∀ c : Dev nD, r.2.mem (oLoc c) = OUT m c ∧ r.2.mem (iLoc c) = m (iLoc c) ∧ r.2.mem (xLoc c) = m (xLoc c)

/-- The run of the whole program — the TensorCore, the two sequencers and the thirty-two vector subcores — from the
    proof of one vector subcore's task at a symbolic place: it ends, with the result at the gathered rows and the
    arguments unchanged. -/
theorem run_main [∀ e, Nonempty (Elt F e)] (htile : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => htile)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.KBTile.lean ====
/-
  ONE VECTOR SUBCORE'S TASK, in words the proof can use.

  Vector subcore `(c, i)` — SparseCore `c`, subcore `i` — works on the 512 row numbers from position
  `base = 1024 i + 512 c` of the list on, and on the 512 rows of the result from row `base` on. It first copies its
  512 row numbers into its own index scratch; then, sixteen at a time, reads them back and starts, for the `j`-th of them,
  a copy of the table's row of that number into row `j` of its own row scratch — all 512 copies on ONE semaphore;
  then waits 512 times, each wait taking one row's amount off that semaphore; and last copies the row scratch into
  its block of the result.
  Only the LAST wait says anything: once 512 rows' amounts have been taken off, every copy has landed. So what each
  copy will deliver is stated before the first one starts (`Dlv`): row `j` of the row scratch holding, column by
  column, the table's row named by the `j`-th of the task's row numbers (`Gbuf`, one function for the whole scratch).
-/
import proofs.«217944_g2619930051674_cont_9to1_157_43_alg».proof.Proof.KBCommon

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S1000000x64 EltTy.f32)
local notation "oV" => (Memref.whole Cert.Kernel.main_v0_scv : Memref Cert.Kernel.sig Kind.scVector Space.hbm Cert.Kernel.S16384x64 EltTy.f32)
local notation "sI" => (Memref.whole Cert.Kernel.cc0_scratch0 : Memref Cert.Kernel.sig Kind.scVector Space.vmem Cert.Kernel.S512 EltTy.i32)
local notation "sR" => (Memref.whole Cert.Kernel.cc0_scratch1 : Memref Cert.Kernel.sig Kind.scVector Space.vmem Cert.Kernel.S512x64 EltTy.f32)

section Tile

variable (d : Dev nD) (L : grid0.Coords)

/-! ## The subcore, its coordinates, its thread -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev jL (L : grid0.Coords) : Fin 16 := Fin.cast bound_one (L 1)
abbrev VT (d : Dev nD) (L : grid0.Coords) : Thread nD τ := V d (cV L) (jV L)

/-- The position of the task's first row number in the list, and of its first row in the result. -/
def base (L : grid0.Coords) : ℕ := 1024 * (L 1).val + 512 * (L 0).val
theorem base_add_lt (L : grid0.Coords) (p : Fin 512) : base L + p.val < 16384 := by
  have h0 : (L 0).val < 2 := (L 0).isLt
  have h1 : (L 1).val < 16 := (L 1).isLt
  have := p.isLt; unfold base; omega

/-- The task's `p`-th row number, off the launch memory's list. -/
def wordAt (p : Fin 512) : BitVec 32 := (m (iLoc d) : S16384.Idx → BitVec 32) (ix1 ⟨base L + p.val, base_add_lt L p⟩)

/-- What the row scratch holds once every copy has landed: row `p` is the table's row named by the task's `p`-th
    row number. -/
def Gbuf : Buf (Elt F) ((sR).view.loc (VT d L)) :=
  ((fun y : S512x64.Idx => (m (xLoc d) : S1000000x64.Idx → Elt F .f32) (ix2 (Cert.Spec.rowOf (wordAt m d L (y 0 : Fin 512))) (y 1 : Fin 64))) :
    S512x64.Idx → Elt F .f32)

/-! ## The pieces of memory the body names, in the body's own spelling -/

/-- The task's 512 row numbers in the list, as the body slices them. -/
abbrev iSliceK (L : grid0.Coords) : Memref sig .scVector .hbm S512 .i32 :=
  (iV).slice (Rect.unit (s := S16384) (k0_off1 L) S512.size (k0_off1_inb L)) (fun _ => rfl)
/-- The task's block of the result, as the body slices it. -/
abbrev oblkK (L : grid0.Coords) : Rect S16384x64 := Rect.unit (s := S16384x64) (k0_off36 L) S512x64.size (k0_off36_inb L)
abbrev oBlkK (L : grid0.Coords) : Memref sig .scVector .hbm S512x64 .f32 := (oV).slice (oblkK L) (fun _ => rfl)

/-- Row `a` of the table, and row `a` of the row scratch, as 64-vectors: the source and the destination of one copy, for
    any offsets the body computes that come to `![a, 0]`. -/
abbrev srcRow (off : Fin 2 → ℕ) (inb : ∀ a, off a + S1x64.size a ≤ S1000000x64.size a) : Memref sig .scVector .hbm S64 .f32 :=
  ((xV).slice (Rect.unit (s := S1000000x64) off S1x64.size inb) (fun _ => rfl)).squeeze S64 squeezes_S1x64_S64
abbrev dstRow (off : Fin 2 → ℕ) (inb : ∀ a, off a + S1x64.size a ≤ S512x64.size a) : Memref sig .scVector .vmem S64 .f32 :=
  ((sR).slice (Rect.unit (s := S512x64) off S1x64.size inb) (fun _ => rfl)).squeeze S64 squeezes_S1x64_S64

theorem rowInb (p : ℕ) (hp : p < 512) : ∀ a, (![p, 0] : Fin 2 → ℕ) a + S1x64.size a ≤ S512x64.size a := by
  intro a; fin_cases a
  · show p + 1 ≤ 512; omega
  · show 0 + 64 ≤ 64; omega
theorem tabInb (r : ℕ) (hr : r < 1000000) : ∀ a, (![r, 0] : Fin 2 → ℕ) a + S1x64.size a ≤ S1000000x64.size a := by
  intro a; fin_cases a
  · show r + 1 ≤ 1000000; omega
  · show 0 + 64 ≤ 64; omega

/-- Row `p` of the row scratch, at its canonical offsets. -/
abbrev rowM (p : Fin 512) : Memref sig .scVector .vmem S64 .f32 := dstRow ![p.val, 0] (rowInb p.val p.isLt)

/-- The elements of row `p` of the row scratch, and of the rows from `n` on. -/
def rowSet (p : ℕ) : Finset S512x64.Idx := Finset.univ.filter fun y => (y 0).val = p
def rowsFrom (n : ℕ) : Finset S512x64.Idx := Finset.univ.filter fun y => n ≤ (y 0).val

/-! ## The semaphores and the batch -/

abbrev csem (k : Nat) (hk : k < 3 := by decide) : DmaSem sig := ⟨k, hk⟩
/-- The three DMA cells the task names, at zero. -/
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0)

/-- The transfers' counters in this certificate's ghost state. -/
abbrev EC : UEmb Counters (MT nD τ sig (HIx 1) (Elt F) ℕ UU ℕ) := countersEmb (U := UU)

/-- One row's amount on a DMA semaphore. -/
abbrev NN : ℕ := sig.dmaCredit .scVector (Kind.scVector.table .vmem) (cc0_scratch1 : Ref sig .scVector).idx S64 .f32
theorem NN_pos : 0 < NN := sig.dmaCredit_pos _ _ _ _ _ (by decide)

variable [FloatOps F]

/-- What the `t`-th copy delivers: row `t` of the row scratch at `Gbuf`. -/
def Dlv (t : Fin 512) : sProp 𝕄 :=
  (rowM t).view.loc (VT d L) ↦[(rowM t).view.set]{fullShare} Gbuf m d L

instance Dlv_storable (t : Fin 512) : BI.Storable (upEmb : UEmb _ 𝕄) (Dlv m d L t) := by
  unfold Dlv; infer_instance

/-- The batch of the 512 copies with `j` started and `u` units waited for. -/
abbrev batch (j u : ℕ) : sProp 𝕄 :=
  Transfers.Batch (EC (F := F)) (VT d L) (.dma cc0_scratch2.sem) (default : HIx 1) NN (Dlv m d L) j u

end Tile

end Cert.Proof.KB

end
-- ==== Proof.KBObl.lean ====
/-
  ONE VECTOR SUBCORE'S OBLIGATION, from the run of its task.

  The launch deals vector subcore `(c, i)` a read token of each argument, its block of the result, its own scratch
  buffers (at some contents) and its own semaphores (at zero). The task's run (`TileRun`, proved apart) is stated in
  the body's own spelling of these pieces; here they are respelt one way and back:
  the body's rectangle at offsets `(1024 i + 512 c, 0)` of sizes `512 × 64` is block `2 i + c` of the result
  (`(2 i + c) · 512 = 1024 i + 512 c`); the three DMA semaphores the task names are three of the subcore's own, the two
  scratch buffers two of its own. What the task hands back is its block at the gathered rows; the read tokens are
  dropped.
-/
import proofs.«217944_g2619930051674_cont_9to1_157_43_alg».proof.Proof.KBTile

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S1000000x64 EltTy.f32)
local notation "oV" => (Memref.whole Cert.Kernel.main_v0_scv : Memref Cert.Kernel.sig Kind.scVector Space.hbm Cert.Kernel.S16384x64 EltTy.f32)
local notation "sI" => (Memref.whole Cert.Kernel.cc0_scratch0 : Memref Cert.Kernel.sig Kind.scVector Space.vmem Cert.Kernel.S512 EltTy.i32)
local notation "sR" => (Memref.whole Cert.Kernel.cc0_scratch1 : Memref Cert.Kernel.sig Kind.scVector Space.vmem Cert.Kernel.S512x64 EltTy.f32)

section Tile

variable (d : Dev nD) (L : grid0.Coords)

/-! ## The task's block of the result: the body's rectangle is the launch's block -/

/-- Offsets `(1024 i + 512 c, 0)` are block index `(2 i + c, 0)` at block sizes `512 × 64`. -/
theorem oblkK_eq : oblkK L = oblk (cL L) (jL L) := by
  unfold oblkK oblk Rect.block
  congr 1; funext a; rw [k0_off36_eq]
  match a with
  | 0 => show 1024 * (L 1).val + 512 * (L 0).val = (2 * (L 1).val + (L 0).val) * 512; omega
  | 1 => show 0 = 0 * 64; rfl

theorem set_oBlkK : (oBlkK L).view.set = oBlkSet (cL L) (jL L) := by
  show ((oV).view.slice (oblkK L)).set = ((oV).view.slice (oblk (cL L) (jL L))).set
  exact oblkK_eq L ▸ rfl

/-! ## The pieces, in the body's spelling and in the launch's -/

theorem pts_iV (q : PosShare TreeShare) (f : Buf (Elt F) (iLoc d)) :
    ((iV).view.loc (VT d L) ↦{q} f : sProp 𝕄) = iLoc d ↦{q} f := rfl
theorem pts_xV (q : PosShare TreeShare) (f : Buf (Elt F) (xLoc d)) :
    ((xV).view.loc (VT d L) ↦{q} f : sProp 𝕄) = xLoc d ↦{q} f := rfl
theorem pts_oBlkK (f : Buf (Elt F) (oLoc d)) :
    ((oBlkK L).view.loc (VT d L) ↦[(oBlkK L).view.set]{fullShare} f : sProp 𝕄) = oLoc d ↦[oBlkSet (cL L) (jL L)]{fullShare} f := by
  rw [set_oBlkK]
theorem pts_sI (f : Buf (Elt F) ((VT d L).loc cc0_scratch0)) :
    ((sI).view.loc (VT d L) ↦[(sI).view.set]{fullShare} f : sProp 𝕄) = (VT d L).loc cc0_scratch0 ↦{fullShare} f := by
  rw [View.set_whole]
theorem pts_sR (f : Buf (Elt F) ((VT d L).loc cc0_scratch1)) :
    ((sR).view.loc (VT d L) ↦[(sR).view.set]{fullShare} f : sProp 𝕄) = (VT d L).loc cc0_scratch1 ↦{fullShare} f := by
  rw [View.set_whole]

/-! ## The subcore's own semaphores and buffers -/

/-- The three semaphore arrays the body is given are the DMA semaphores 0, 1, 2. -/
theorem sem_scratch2 : (cc0_scratch2 : DmaSems sig S_).sem = csem 0 := rfl
theorem sem_scoped0 : (cc0_scoped0 : DmaSems sig S_).sem = csem 1 := rfl
theorem sem_scoped1 : (cc0_scoped1 : DmaSems sig S_).sem = csem 2 := rfl

/-- The three DMA cells the task names, as a family. -/
abbrev dcell (d : Dev nD) (c : Fin τ.nSC) (i : Fin τ.nSub) (k : Fin 3) : GSem nD τ sig := (V d c i, .dma (csem k.val k.isLt))

theorem dcell_mem (c : Fin τ.nSC) (i : Fin τ.nSub) (k : Fin 3) : dcell d c i k ∈ ownCells (V d c i) :=
  mem_ownCells.mpr ⟨rfl, (show ∀ s : DmaSem sig, (SemLoc.dma s : SemLoc sig).isScoped .scVector = true by decide) _⟩

/-- The subcore's own cells at zero: the three the task names, one by one, and the rest. -/
theorem ownSems0_V :
    (ownSems0 (VT d L) : sProp 𝕄)
      = iprop(cells0 d L
          ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 3)) = {0, 1, 2} by decide,
    SparseCore.bigSep_insert' (by decide), SparseCore.bigSep_insert' (by decide), bigSep_singleton]
  rfl

/-- The two scratch buffers are among the subcore's own: they are them, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

end Tile

variable [FloatOps F]

/-! ## The task's run, as a hypothesis -/

/-- The run of one vector subcore's task, at a symbolic place: from a read token of each argument, its block of the
    result, its two scratch buffers and its three DMA semaphores at zero — all in the body's spelling — to the block at
    the gathered rows, the scratch buffers at some contents, the semaphores at zero again. -/
def TileRun : Prop :=
  ∀ (d : Dev nD) (L : grid0.Coords) (O : CellTallies nD τ sig (HIx 1)) (W : Waits sig (HIx 1))
    (g0 : Buf (Elt F) ((sI).view.loc (VT d L))) (t0 : Buf (Elt F) ((sR).view.loc (VT d L))),
    (iprop(Transfers.MayWaits (VT d L) (default : HIx 1) O
        ∗ ((iV).view.loc (VT d L) ↦{qTile (cL L) (jL L)} m (iLoc d))
        ∗ ((xV).view.loc (VT d L) ↦{qTile (cL L) (jL L)} m (xLoc d))
        ∗ ((oBlkK L).view.loc (VT d L) ↦[(oBlkK L).view.set]{fullShare} m (oLoc d))
        ∗ ((sI).view.loc (VT d L) ↦[(sI).view.set]{fullShare} g0)
        ∗ ((sR).view.loc (VT d L) ↦[(sR).view.set]{fullShare} t0)
        ∗ cells0 d L
        ∗ owes (VT d L) O W) : sProp 𝕄)
      ⊢ wp frame (wpE (defs₀ (F := F)) 𝒱₀ (VT d L) none) Set.univ
          (cc0_gather_kernel L iV (Memref.isWhole_whole _) xV (Memref.isWhole_whole _) oV (Memref.isWhole_whole _)
            sI (Memref.isWhole_whole _) sR (Memref.isWhole_whole _) cc0_scratch2 cc0_scoped0 cc0_scoped1)
          fun _ => iprop(((oBlkK L).view.loc (VT d L) ↦[(oBlkK L).view.set]{fullShare} OUT m d)
            ∗ (∃ g, (sI).view.loc (VT d L) ↦[(sI).view.set]{fullShare} g)
            ∗ (∃ g, (sR).view.loc (VT d L) ↦[(sR).view.set]{fullShare} g)
            ∗ cells0 d L
            ∗ ∃ W', owes (VT d L) O W')

section Obl

variable (d : Dev nD) (L : grid0.Coords)

/-- The task on vector subcore `(L 0, L 1)` of device `d`, from what the launch deals it (a read token of each
    argument, its block of the result, its scoped buffers and cells) to what it hands back (the block at the gathered
    rows, the scoped buffers and cells): the pieces respelt around the task's run. -/
theorem tile_body (hrun : TileRun m) (hF : (K (F := F)).Facts) (O : CellTallies nD τ sig (HIx 1)) (W : Waits sig (HIx 1)) (hO : ∀ g, O g none = 0) :
    iprop(levAts (K (F := F)).L (K (F := F)).lev ∗ emp
        ∗ (iSh m d (qTile (cL L) (jL L)) ∗ xSh m d (qTile (cL L) (jL L)) ∗ oBlkPts d (cL L) (jL L) (m (oLoc d)))
        ∗ scopedBufs (VT d L) ∗ scopedSems0 (VT d L) ∗ owes (VT d L) O W)
      ⊢ wp frame (wpE (defs₀ (F := F)) 𝒱₀ (VT d L) none) Set.univ
          (cc0_gather_kernel L iV (Memref.isWhole_whole _) xV (Memref.isWhole_whole _) oV (Memref.isWhole_whole _)
            sI (Memref.isWhole_whole _) sR (Memref.isWhole_whole _) cc0_scratch2 cc0_scoped0 cc0_scoped1)
          fun _ => iprop(oBlkPts d (cL L) (jL L) (OUT m d)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%g0, HG⟩, ⟨%t0, HT⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  -- the pieces in the body's spelling
  ihave Ho' := (Entails.of_eq (pts_oBlkK (F := F) d L _).symm) $$ Ho
  ihave HG' := (Entails.of_eq (pts_sI (F := F) d L _).symm) $$ HG
  ihave HT' := (Entails.of_eq (pts_sR (F := F) d L _).symm) $$ HT
  iapply (wp_wand_r Idealize.ShloMosaic.frame (wpE (defs₀ (F := F)) 𝒱₀ (VT d L) none) Set.univ)
  isplitl [Hi Hx Ho' HG' HT' HC HO]
  · iapply (hrun d L O W g0 t0)
    isplitr; · iexact Hmw
    isplitl [Hi]; · iexact Hi
    isplitl [Hx]; · iexact Hx
    isplitl [Ho']; · iexact Ho'
    isplitl [HG']; · iexact HG'
    isplitl [HT']; · iexact HT'
    isplitl [HC]; · iexact HC
    iexact HO
  iintro %_ ⟨Ho', ⟨%g, HG'⟩, ⟨%t, HT'⟩, HC, ⟨%W', HO⟩⟩
  isplitl [Ho']; · iapply (Entails.of_eq (pts_oBlkK (F := F) d L _)); iexact Ho'
  isplitl [HG' HT' Hbufs]
  · isplitl [HG']; · iexists _; iapply (Entails.of_eq (pts_sI (F := F) d L _)); iexact HG'
    isplitl [HT']; · iexists _; iapply (Entails.of_eq (pts_sR (F := F) d L _)); iexact HT'
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather_kernel (coordsV c s)
          iV (Memref.isWhole_whole _) xV (Memref.isWhole_whole _) oV (Memref.isWhole_whole _)
          sI (Memref.isWhole_whole _) sR (Memref.isWhole_whole _) cc0_scratch2 cc0_scoped0 cc0_scoped1) ⟨⟩ c s := rfl

theorem tileObl (hrun : TileRun m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hrun hF O W hO

end Obl

end Cert.Proof.KB

end
-- ==== Proof.KBInv.lean ====
/-
  THE LOOP THAT STARTS THE COPIES, as a statement: what holds before each of its thirty-two trips (`inv1`), and the
  word a trip reads in each lane of the sixteen row numbers it loads back from the index scratch (`lane`).
-/
import proofs.«217944_g2619930051674_cont_9to1_157_43_alg».proof.Proof.KBTile

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S1000000x64 EltTy.f32)
local notation "oV" => (Memref.whole Cert.Kernel.main_v0_scv : Memref Cert.Kernel.sig Kind.scVector Space.hbm Cert.Kernel.S16384x64 EltTy.f32)
local notation "sI" => (Memref.whole Cert.Kernel.cc0_scratch0 : Memref Cert.Kernel.sig Kind.scVector Space.vmem Cert.Kernel.S512 EltTy.i32)
local notation "sR" => (Memref.whole Cert.Kernel.cc0_scratch1 : Memref Cert.Kernel.sig Kind.scVector Space.vmem Cert.Kernel.S512x64 EltTy.f32)

variable (d : Dev nD) (L : grid0.Coords)

/-- The word in lane `offr` of the sixteen row numbers that trip `k` reads back from the index scratch. -/
def lane (gI : Buf (Elt F) ((sI).view.loc (VT d L))) (k : Fin k0_t1_loop.trips) (offr : Fin 1 → ℕ) (hs : S16.Slices offr S1) : BitVec 32 :=
  extractAt ![0] (extractStridedSlice S1 offr (shapeCast S16
    (View.readAt (Elt F) (sI).view (Rect.unit (s := S512) (k0_off2 k) S16.size (k0_off2_inb k)).toLoadRect gI) shapeCasts_S16_S16) hs) inpos_S1_p0

variable [FloatOps F]

/-- Before trip `k` of the loop that starts the copies: the index scratch as fetched; of the table, what is left after
    `16 k` read tokens; of the row scratch, the rows from `16 k` on, not yet lent; the batch with `16 k` copies started. -/
def inv1 (O : CellTallies nD τ sig (HIx 1)) (gI : Buf (Elt F) ((sI).view.loc (VT d L))) (t0 : Buf (Elt F) ((sR).view.loc (VT d L)))
    (k : ℕ) (_ : Unit) : sProp 𝕄 :=
  iprop(Transfers.MayWaits (VT d L) (default : HIx 1) O
    ∗ ((sI).view.loc (VT d L) ↦[(sI).view.set]{fullShare} gI)
    ∗ ((xV).view.loc (VT d L) ↦{Transfers.shareDrop (qTile (cL L) (jL L)) (16 * k)} m (xLoc d))
    ∗ ((sR).view.loc (VT d L) ↦[rowsFrom (16 * k)]{fullShare} t0)
    ∗ batch m d L (16 * k) 0)

/-- ONE TRIP of that loop, as a statement: from the index scratch holding the task's row numbers, trip `k` takes the
    state before it to the state before trip `k + 1`. -/
def Trip1 : Prop :=
  ∀ (O : CellTallies nD τ sig (HIx 1)) (gI : Buf (Elt F) ((sI).view.loc (VT d L))) (t0 : Buf (Elt F) ((sR).view.loc (VT d L))),
    (∀ p : Fin 512, (gI : S512.Idx → BitVec 32) (ix1 p) = wordAt m d L p) → ∀ k : Fin k0_t1_loop.trips,
    inv1 m d L O gI t0 k.val () ⊢ wp frame (wpE (defs₀ (F := F)) 𝒱₀ (VT d L) none) Set.univ
      (k0_t1_body L iV (Memref.isWhole_whole _) xV (Memref.isWhole_whole _) oV (Memref.isWhole_whole _)
        sI (Memref.isWhole_whole _) sR (Memref.isWhole_whole _) cc0_scratch2 cc0_scoped0 cc0_scoped1 k ())
      (fun _ => inv1 m d L O gI t0 (k.val + 1) ())

end Cert.Proof.KB

end
-- ==== Proof.KBDrain.lean ====
/-
  THE DRAIN: ONE WAIT OF THE 512.

  After its 512 row copies have been started on one semaphore, a vector subcore waits 512 times, each wait taking
  one row's amount off that semaphore. Between the waits it holds the batch of the 512 copies with `i` rows'
  amounts taken off, `i` the number of waits done. A wait that is not the last takes one more row's amount off and
  learns nothing about any row; the LAST one — the amounts taken then add up to all 512 rows' — hands back every
  row of the row scratch at what its copy delivers, and the semaphore at zero. `inv2 i` says what is held after `i`
  waits; `trip2` is the step from `i` to `i + 1`, for every `i` below 512.
  The subcore still owes the units of its launch's handshake while it waits, so each wait shows that waiting at this
  semaphore is allowed under what is owed; that evidence is the same for every wait and is carried along.
-/
import proofs.«217944_g2619930051674_cont_9to1_157_43_alg».proof.Proof.KBTile

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S1000000x64 EltTy.f32)
local notation "oV" => (Memref.whole Cert.Kernel.main_v0_scv : Memref Cert.Kernel.sig Kind.scVector Space.hbm Cert.Kernel.S16384x64 EltTy.f32)
local notation "sI" => (Memref.whole Cert.Kernel.cc0_scratch0 : Memref Cert.Kernel.sig Kind.scVector Space.vmem Cert.Kernel.S512 EltTy.i32)
local notation "sR" => (Memref.whole Cert.Kernel.cc0_scratch1 : Memref Cert.Kernel.sig Kind.scVector Space.vmem Cert.Kernel.S512x64 EltTy.f32)

section Drain

variable (d : Dev nD) (L : grid0.Coords) [FloatOps F]

/-- The loop makes 512 trips. -/
theorem trips2 : k0_t2_loop.trips = 512 := by decide

/-- A sequence that starts with a finished step goes on with the rest. -/
theorem ret_bind2 {E : Type → Type} {α β : Type} (a : α) (k : α → Prog E β) : (Prog.ret a).bind k = k a := rfl

/-- What the subcore holds after `i` of the 512 waits: the evidence that it may wait under what it owes; the batch
    with `i` rows' amounts taken off — or, once all 512 are, every row of the row scratch as delivered and the
    semaphore at zero —; and what it owes, with whatever waits recorded. -/
def inv2 (O : CellTallies nD τ sig (HIx 1)) (i : ℕ) (_ : Unit) : sProp 𝕄 :=
  iprop(Transfers.MayWaits (VT d L) (default : HIx 1) O
    ∗ (if i < 512 then batch m d L 512 (i * NN)
        else iprop(bigSep Finset.univ (Dlv m d L) ∗ semVal (VT d L, SemLoc.dma cc0_scratch2.sem) 0))
    ∗ ∃ W', owes (VT d L) O W')

/-- ONE WAIT: from what is held after `k` waits, the `k`-th trip of the drain loop runs and leaves what is held after
    `k + 1`. -/
theorem trip2 (O : CellTallies nD τ sig (HIx 1)) (k : Fin k0_t2_loop.trips) :
    inv2 m d L O k.val () ⊢ wp frame (wpE (defs₀ (F := F)) 𝒱₀ (VT d L) none) Set.univ
      (k0_t2_body L iV (Memref.isWhole_whole _) xV (Memref.isWhole_whole _) oV (Memref.isWhole_whole _) sI (Memref.isWhole_whole _)
        sR (Memref.isWhole_whole _) cc0_scratch2 cc0_scoped0 cc0_scoped1 k ())
      (fun _ => inv2 m d L O (k.val + 1) ()) := by
  have hk : k.val < 512 := trips2 ▸ k.isLt
  unfold inv2
  rw [if_pos hk]
  iintro ⟨#HM, HB, ⟨%W, HO⟩⟩
  unfold k0_t2_body
  by_cases hlast : k.val + 1 < 512
  · -- not the last wait: one more row's amount off, nothing learnt
    have hu : k.val * NN + NN < NN * 512 := by
      have := Nat.mul_lt_mul_of_pos_right hlast NN_pos
      rw [Nat.succ_mul] at this
      rw [Nat.mul_comm NN 512]; exact this
    iapply (Transfers.wp_waitBatchO (EC (F := F)) 𝒱₀ (VT d L) none (default : HIx 1) rfl hu (D := Dlv m d L) (O := O) (W := W)) $$ [HB HO]
    · isplitl [HB]; · iexact HB
      isplitl [HO]; · iexact HO
      iapply (Transfers.MayWaits.elim (SemLoc.dma cc0_scratch2.sem)) $$ HM
    iintro ⟨HB, HO⟩
    simp only [ret_bind2]
    sl_step
    rw [if_pos hlast, Nat.succ_mul]
    isplitr; · iexact HM
    isplitl [HB]; · iexact HB
    iexists _; iexact HO
  · -- the last wait: every row back as delivered, the semaphore at zero
    have hu : k.val * NN + NN = NN * 512 := by
      have h511 : k.val + 1 = 512 := by omega
      rw [← Nat.succ_mul, Nat.succ_eq_add_one, h511, Nat.mul_comm]
    iapply (Transfers.wp_waitBatchLastO (EC (F := F)) 𝒱₀ (VT d L) none (default : HIx 1) rfl NN_pos hu (D := Dlv m d L) (O := O) (W := W)) $$ [HB HO]
    · isplitl [HB]; · iexact HB
      isplitl [HO]; · iexact HO
      iapply (Transfers.MayWaits.elim (SemLoc.dma cc0_scratch2.sem)) $$ HM
    iintro ⟨HD, Hv, HO⟩
    simp only [ret_bind2]
    sl_step
    rw [if_neg hlast]
    isplitr; · iexact HM
    isplitl [HD Hv]
    · isplitl [HD]; · iexact HD
      iexact Hv
    iexists _; iexact HO

end Drain

end Cert.Proof.KB

end
-- ==== Proof.KBViews.lean ====
/-
  ONE VECTOR SUBCORE'S TASK, INDEX BY INDEX: which elements a slice names, and what a copy or a load holds at an index.

  Row `p` of the row scratch, as the body slices and squeezes it, is the set of elements whose first coordinate is `p`;
  these 512 sets are pairwise disjoint and cover the scratch, so the 512 delivered rows join to the whole scratch.
  A copy of the table's row `v` into row `p` of the scratch leaves, at column `q` of that row, entry `(v, q)` of the table.
  The fetched row numbers are the list's from the task's first position on; a trip's sixteen loaded row numbers are the
  index scratch's at sixteen times the trip's number on; and the row scratch copied to the task's block of the result
  leaves there the gathered rows.
-/
import proofs.«217944_g2619930051674_cont_9to1_157_43_alg».proof.Proof.KBTile

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S1000000x64 EltTy.f32)
local notation "oV" => (Memref.whole Cert.Kernel.main_v0_scv : Memref Cert.Kernel.sig Kind.scVector Space.hbm Cert.Kernel.S16384x64 EltTy.f32)
local notation "sI" => (Memref.whole Cert.Kernel.cc0_scratch0 : Memref Cert.Kernel.sig Kind.scVector Space.vmem Cert.Kernel.S512 EltTy.i32)
local notation "sR" => (Memref.whole Cert.Kernel.cc0_scratch1 : Memref Cert.Kernel.sig Kind.scVector Space.vmem Cert.Kernel.S512x64 EltTy.f32)

section Views

variable (d : Dev nD) (L : grid0.Coords)

/-! ## The rows of the row scratch as sets of elements -/

/-- Row `p` of the row scratch, sliced and squeezed as the body does, is the set of elements with first coordinate `p`. -/
theorem set_dstRow (off : Fin 2 → ℕ) (inb : ∀ a, off a + S1x64.size a ≤ S512x64.size a) (p : ℕ) (hp : p < 512)
    (hoff : off = ![p, 0]) : (dstRow off inb).view.set = rowSet p := by
  subst hoff
  show (((sR).view.slice (Rect.unit (s := S512x64) ![p, 0] S1x64.size inb)).reshape S64 squeezes_S1x64_S64.numel_eq).set = rowSet p
  rw [View.set_reshape, View.set_slice]
  show (Rect.unit (s := S512x64) ![p, 0] S1x64.size inb).set.map (Function.Embedding.refl _) = rowSet p
  rw [Finset.map_refl]
  ext y
  rw [Rect.mem_set_unit]
  simp only [rowSet, Finset.mem_filter, Finset.mem_univ, true_and]
  constructor
  · intro h
    have h0 : p ≤ (y 0).val ∧ (y 0).val < p + 1 := h 0
    omega
  · intro h a
    have h1 : (y 1).val < 64 := (y 1).isLt
    fin_cases a
    · show p ≤ (y 0).val ∧ (y 0).val < p + 1
      omega
    · show 0 ≤ (y 1).val ∧ (y 1).val < 0 + 64
      omega

theorem rowSet_subset_rowsFrom (n : ℕ) : rowSet n ⊆ rowsFrom n := by
  intro y hy
  simp only [rowSet, rowsFrom, Finset.mem_filter, Finset.mem_univ, true_and] at hy ⊢
  omega

theorem rowsFrom_sdiff (n : ℕ) : rowsFrom n \ rowSet n = rowsFrom (n + 1) := by
  ext y
  simp only [rowSet, rowsFrom, Finset.mem_sdiff, Finset.mem_filter, Finset.mem_univ, true_and]
  omega

/-- The row scratch's view names every element of the scratch. -/
theorem set_sR : (sR).view.set = (Finset.univ : Finset S512x64.Idx) := View.set_whole _

theorem rowsFrom_zero : rowsFrom 0 = (sR).view.set := by
  rw [set_sR]
  ext y
  simp only [rowsFrom, Finset.mem_filter, Finset.mem_univ, true_and, Nat.zero_le]

theorem rowSet_disjoint : ∀ p ∈ (Finset.univ : Finset (Fin 512)), ∀ p' ∈ (Finset.univ : Finset (Fin 512)), p ≠ p' →
    Disjoint (rowSet p.val) (rowSet p'.val) := by
  intro p _ p' _ hne
  rw [Finset.disjoint_left]
  intro y h1 h2
  simp only [rowSet, Finset.mem_filter, Finset.mem_univ, true_and] at h1 h2
  exact hne (Fin.ext (h1.symm.trans h2))

theorem rowSet_cover : (Finset.univ : Finset (Fin 512)).biUnion (fun p => rowSet p.val) = (sR).view.set := by
  rw [set_sR]
  ext y
  simp only [Finset.mem_biUnion, Finset.mem_univ, true_and, rowSet, Finset.mem_filter, iff_true]
  exact ⟨⟨(y 0).val, (y 0).isLt⟩, rfl⟩

/-! ## One lane of the sixteen row numbers a trip loads -/

/-- Lane `r` of the sixteen row numbers trip `k` loads off the index scratch is the scratch's word `16 k + r`. -/
theorem lane_word (gI : Buf (Elt F) ((sI).view.loc (VT d L))) (k : Fin k0_t1_loop.trips) (r : Fin 16) (offr : Fin 1 → ℕ)
    (hoffr : offr = ![r.val]) (hs : S16.Slices offr S1) (h1 : ∀ a, k0_off2 k a + S16.size a ≤ S512.size a)
    (h2 : S16.ShapeCasts S16) (h3 : ∀ a, (![0] : Fin 1 → ℕ) a < S1.size a) :
    extractAt ![0] (extractStridedSlice S1 offr (shapeCast S16 (View.readAt (Elt F) (sI).view
        (Rect.unit (s := S512) (k0_off2 k) S16.size h1).toLoadRect gI) h2) hs) h3
      = (gI : S512.Idx → BitVec 32) (ix1 ⟨16 * k.val + r.val, by
          have := k.isLt; have := r.isLt; have : k0_t1_loop.trips = 32 := by decide
          omega⟩) := by
  subst hoffr
  have hk : k0_off2 k 0 = 16 * k.val := by rw [k0_off2_eq]; rfl
  unfold extractAt extractStridedSlice shapeCast
  rw [Shape.reshapeEquiv_self, View.readAt_apply]
  show (gI : S512.Idx → BitVec 32) ((Rect.unit (s := S512) (k0_off2 k) S16.size h1).toLoadRect.idx _) = _
  congr 1
  funext a
  match a with
  | ⟨0, _⟩ =>
    apply Fin.ext
    show k0_off2 k 0 + 1 * (r.val + 0) = 16 * k.val + r.val
    rw [hk]; omega

/-! ## What one copy delivers -/

/-- Column `q` of row `p` of the row scratch, as the body slices and squeezes the row, is element `(p, q)`. -/
theorem dstRow_emb (p : ℕ) (hp : p < 512) (inb : ∀ a, (![p, 0] : Fin 2 → ℕ) a + S1x64.size a ≤ S512x64.size a) (y : S64.Idx) :
    ((dstRow ![p, 0] inb).view.emb y : S512x64.Idx) = ix2 (⟨p, hp⟩ : Fin 512) (y 0 : Fin 64) := by
  show (Rect.unit (s := S512x64) ![p, 0] S1x64.size inb).emb (Shape.reshapeEquiv squeezes_S1x64_S64.numel_eq y) = _
  rw [Shape.reshapeEquiv_cons_one]
  funext a
  match a with
  | ⟨0, _⟩ => apply Fin.ext; show p + 1 * 0 = p; omega
  | ⟨1, _⟩ => apply Fin.ext; show 0 + 1 * (y 0).val = (y 0).val; omega

/-- Column `q` of row `r` of the table, sliced and squeezed the same way, is element `(r, q)`. -/
theorem srcRow_emb (r : ℕ) (hr : r < 1000000) (inb : ∀ a, (![r, 0] : Fin 2 → ℕ) a + S1x64.size a ≤ S1000000x64.size a) (y : S64.Idx) :
    ((srcRow ![r, 0] inb).view.emb y : S1000000x64.Idx) = ix2 (⟨r, hr⟩ : Fin 1000000) (y 0 : Fin 64) := by
  show (Rect.unit (s := S1000000x64) ![r, 0] S1x64.size inb).emb (Shape.reshapeEquiv squeezes_S1x64_S64.numel_eq y) = _
  rw [Shape.reshapeEquiv_cons_one]
  funext a
  match a with
  | ⟨0, _⟩ => apply Fin.ext; show r + 1 * 0 = r; omega
  | ⟨1, _⟩ => apply Fin.ext; show 0 + 1 * (y 0).val = (y 0).val; omega

/-- The copy of the table's row `v` into row `p` of the row scratch, `v` being the task's `p`-th row number: on that row
    the scratch then holds what `Gbuf` says, whatever it held before. -/
theorem deliver_row (off : Fin 2 → ℕ) (inb : ∀ a, off a + S1x64.size a ≤ S512x64.size a) (p : Fin 512) (hoff : off = ![p.val, 0])
    (offS : Fin 2 → ℕ) (inbS : ∀ a, offS a + S1x64.size a ≤ S1000000x64.size a) (v : BitVec 32) (hoffS : offS = ![v.toNat, 0])
    (hv : v.toNat < 1000000) (hval : v = wordAt m d L p) (t0 : Buf (Elt F) ((sR).view.loc (VT d L))) :
    ∀ i ∈ (dstRow off inb).view.set,
      (dstRow off inb).view.write (Elt F) t0 (ReadAs.same.apply ((srcRow offS inbS).view.read (Elt F) (m (xLoc d)))) Finset.univ i
        = Gbuf m d L i := by
  subst hoff hoffS
  intro i hi
  obtain ⟨y, -, rfl⟩ := Finset.mem_map.mp hi
  rw [View.write_emb_of_mem _ _ (Finset.mem_univ y)]
  refine (cast_eq _ _).trans ?_
  show (srcRow ![v.toNat, 0] inbS).view.read (Elt F) (m (xLoc d)) y = _
  rw [View.read_apply]
  refine (cast_eq _ _).trans ?_
  rw [srcRow_emb v.toNat hv, dstRow_emb p.val p.isLt]
  have e : (⟨v.toNat, hv⟩ : Fin 1000000) = Cert.Spec.rowOf (wordAt m d L p) :=
    Fin.ext (by rw [← hval]; exact (Cert.Spec.rowOf_of_lt v hv).symm)
  rw [e]
  rfl

/-- The same in the list form: the copy's payload as the one piece, over the whole row, consed on what was written before. -/
theorem deliver_row_writes (off : Fin 2 → ℕ) (inb : ∀ a, off a + S1x64.size a ≤ S512x64.size a) (p : Fin 512) (hoff : off = ![p.val, 0])
    (offS : Fin 2 → ℕ) (inbS : ∀ a, offS a + S1x64.size a ≤ S1000000x64.size a) (v : BitVec 32) (hoffS : offS = ![v.toNat, 0])
    (hv : v.toNat < 1000000) (hval : v = wordAt m d L p) (t0 : Buf (Elt F) ((sR).view.loc (VT d L)))
    (Ls : List (View.Piece (Elt F) S64 .f32)) :
    ∀ i ∈ (dstRow off inb).view.set,
      (dstRow off inb).view.writes (Elt F) t0
          (⟨Rect.whole S64, ReadAs.same.apply ((srcRow offS inbS).view.read (Elt F) (m (xLoc d)))⟩ :: Ls) i
        = Gbuf m d L i := by
  intro i hi
  rw [← View.write_univ_eq_writes_whole]
  exact deliver_row m d L off inb p hoff offS inbS v hoffS hv hval _ i hi

/-! ## The delivered rows, joined -/

/-- The 512 delivered rows are the whole row scratch at `Gbuf`. -/
theorem rows_join [FloatOps F] :
    (bigSep Finset.univ (Dlv m d L) : sProp 𝕄) ⊢ (sR).view.loc (VT d L) ↦[(sR).view.set]{fullShare} Gbuf m d L := by
  have h : ∀ t : Fin 512, Dlv m d L t = ((sR).view.loc (VT d L) ↦[rowSet t.val]{fullShare} Gbuf m d L : sProp 𝕄) := by
    intro t
    unfold Dlv
    rw [set_dstRow ![t.val, 0] (rowInb t.val t.isLt) t.val t.isLt rfl]
  refine Entails.of_eq ?_
  rw [← rowSet_cover, pointsTo_biUnion _ _ rowSet_disjoint]
  exact congrArg (bigSep Finset.univ) (funext h)

/-! ## The fetched row numbers -/

/-- Position `p` of the task's 512 row numbers in the list, as the body slices them, is position `base + p` of the list. -/
theorem iSliceK_emb (p : Fin 512) :
    ((iSliceK L).view.emb (ix1 p) : S16384.Idx) = ix1 ⟨base L + p.val, base_add_lt L p⟩ := by
  show (Rect.unit (s := S16384) (k0_off1 L) S512.size (k0_off1_inb L)).emb (ix1 p) = _
  funext a
  match a with
  | ⟨0, _⟩ =>
    apply Fin.ext
    show k0_off1 L 0 + 1 * p.val = base L + p.val
    rw [k0_off1_eq]
    show 1024 * (L 1).val + 512 * (L 0).val + 1 * p.val = base L + p.val
    unfold base; omega

/-- The index scratch after the fetch — the slice's contents as the one piece over the whole scratch — holds at `p` the
    task's `p`-th row number. -/
theorem fetched_apply [∀ e, Nonempty (Elt F e)] (p : Fin 512) :
    ((sI).view.writes (Elt F) (sI).view.junk
        [⟨Rect.whole S512, ReadAs.same.apply ((iSliceK L).view.read (Elt F) (m (iLoc d)))⟩] : S512.Idx → BitVec 32) (ix1 p)
      = wordAt m d L p := by
  have h := congrFun (View.read_writes_whole (sI).view (View.junk (sI).view)
    (ReadAs.same.apply ((iSliceK L).view.read (Elt F) (m (iLoc d))))) (ix1 p)
  refine Eq.trans ?_ (h.trans ?_)
  · rfl
  · show (iSliceK L).view.read (Elt F) (m (iLoc d)) (ix1 p) = wordAt m d L p
    rw [View.read_apply]
    refine (cast_eq _ _).trans ?_
    rw [iSliceK_emb]
    rfl

/-! ## The result block -/

/-- Element `(a, q)` of the task's block of the result, as the body slices it, is element `(base + a, q)` of the result. -/
theorem oBlkK_emb (y : S512x64.Idx) :
    ((oBlkK L).view.emb y : S16384x64.Idx)
      = ix2 (⟨base L + (y 0).val, base_add_lt L (y 0 : Fin 512)⟩ : Fin 16384) (y 1 : Fin 64) := by
  show (oblkK L).emb y = _
  funext a
  match a with
  | ⟨0, _⟩ =>
    apply Fin.ext
    show k0_off36 L 0 + 1 * (y 0).val = base L + (y 0).val
    rw [k0_off36_eq]
    show 1024 * (L 1).val + 512 * (L 0).val + 1 * (y 0).val = base L + (y 0).val
    unfold base; omega
  | ⟨1, _⟩ =>
    apply Fin.ext
    show k0_off36 L 1 + 1 * (y 1).val = (y 1).val
    rw [k0_off36_eq]
    show 0 + 1 * (y 1).val = (y 1).val
    omega

/-- The row scratch at `Gbuf`, copied into the task's block of the result, leaves there the gathered rows. -/
theorem out_block_write (f : Buf (Elt F) (oLoc d)) : ∀ i ∈ (oBlkK L).view.set,
    (oBlkK L).view.write (Elt F) f (ReadAs.same.apply ((sR).view.read (Elt F) (Gbuf m d L))) Finset.univ i = OUT m d i := by
  intro i hi
  obtain ⟨y, -, rfl⟩ := Finset.mem_map.mp hi
  rw [View.write_emb_of_mem _ _ (Finset.mem_univ y)]
  refine (cast_eq _ _).trans ?_
  show Gbuf m d L y = OUT m d ((oBlkK L).view.emb y)
  rw [oBlkK_emb]
  rfl

/-- The same with the copy's payload as the one piece over the whole block. -/
theorem out_block (f : Buf (Elt F) (oLoc d)) : ∀ i ∈ (oBlkK L).view.set,
    ((oBlkK L).view.writes (Elt F) f [⟨Rect.whole S512x64, ReadAs.same.apply ((sR).view.read (Elt F) (Gbuf m d L))⟩]) i
      = OUT m d i := by
  intro i hi
  rw [← View.write_univ_eq_writes_whole, View.writes_nil]
  exact out_block_write m d L f i hi

end Views

end Cert.Proof.KB

end
-- ==== Proof.KBRun.lean ====
/-
  ONE VECTOR SUBCORE'S RUN, ASSEMBLED.

  The task runs in five stretches. (1) It fetches its 512 row numbers from the list into its index scratch and waits
  for them: afterwards the index scratch holds the list's words from the task's first position on. (2) From the
  semaphore at zero it opens the batch of the 512 row copies, and the loop of thirty-two trips starts them, sixteen a
  trip; one trip is the hypothesis `Trip1`, and the loop is that trip thirty-two times: before it nothing is started,
  after it all 512 are, none waited for. (3) The loop of 512 waits drains the batch, one row's amount a wait
  (`trip2`): after it every row of the row scratch is back at what its copy delivers, and the semaphore is at zero.
  The 512 delivered rows are disjoint and cover the row scratch, so together they are the row scratch whole, row `p`
  holding the table's row named by the task's `p`-th row number. (4) It copies the row scratch to its block of the
  result and waits: the block then holds, entry by entry, the gathered rows. (5) What is handed back: that block, the
  two scratch buffers at whatever they hold, the three semaphores at zero, and what is owed with the waits recorded.
  The read tokens of the two arguments are dropped.
-/
import proofs.«217944_g2619930051674_cont_9to1_157_43_alg».proof.Proof.KBInv
import proofs.«217944_g2619930051674_cont_9to1_157_43_alg».proof.Proof.KBDrain
import proofs.«217944_g2619930051674_cont_9to1_157_43_alg».proof.Proof.KBViews
import proofs.«217944_g2619930051674_cont_9to1_157_43_alg».proof.Proof.KBObl

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S1000000x64 EltTy.f32)
local notation "oV" => (Memref.whole Cert.Kernel.main_v0_scv : Memref Cert.Kernel.sig Kind.scVector Space.hbm Cert.Kernel.S16384x64 EltTy.f32)
local notation "sI" => (Memref.whole Cert.Kernel.cc0_scratch0 : Memref Cert.Kernel.sig Kind.scVector Space.vmem Cert.Kernel.S512 EltTy.i32)
local notation "sR" => (Memref.whole Cert.Kernel.cc0_scratch1 : Memref Cert.Kernel.sig Kind.scVector Space.vmem Cert.Kernel.S512x64 EltTy.f32)

section Run

variable (d : Dev nD) (L : grid0.Coords) [∀ e, Nonempty (Elt F e)]

/-- The first loop makes 32 trips. -/
theorem trips1 : k0_t1_loop.trips = 32 := by decide

/-- The index scratch once the task's 512 row numbers have been fetched into it. -/
abbrev gFetch : Buf (Elt F) ((sI).view.loc (VT d L)) :=
  (sI).view.writes (Elt F) (sI).view.junk [⟨Rect.whole S512, ReadAs.same.apply ((iSliceK L).view.read (Elt F) (m (iLoc d)))⟩]

variable [FloatOps F]

/-- The semaphore the 512 copies signal is the first of the three the task names. -/
theorem sem0_eq : (semVal (VT d L, SemLoc.dma (csem 0)) 0 : sProp 𝕄) = semVal (VT d L, SemLoc.dma cc0_scratch2.sem) 0 := rfl

/-- Before the first trip of the loop that starts the copies: nothing started, nothing lent, no token spent. -/
theorem inv1_zero (O : CellTallies nD τ sig (HIx 1)) (gI : Buf (Elt F) ((sI).view.loc (VT d L))) (t0 : Buf (Elt F) ((sR).view.loc (VT d L))) :
    inv1 m d L O gI t0 0 () = iprop(Transfers.MayWaits (VT d L) (default : HIx 1) O
      ∗ ((sI).view.loc (VT d L) ↦[(sI).view.set]{fullShare} gI)
      ∗ ((xV).view.loc (VT d L) ↦{qTile (cL L) (jL L)} m (xLoc d))
      ∗ ((sR).view.loc (VT d L) ↦[(sR).view.set]{fullShare} t0)
      ∗ batch m d L 0 0) := by
  unfold inv1
  rw [Nat.mul_zero, rowsFrom_zero]
  rfl

/-- After its last trip: all 512 copies started, none waited for. -/
theorem inv1_last (O : CellTallies nD τ sig (HIx 1)) (gI : Buf (Elt F) ((sI).view.loc (VT d L))) (t0 : Buf (Elt F) ((sR).view.loc (VT d L))) :
    inv1 m d L O gI t0 k0_t1_loop.trips () = iprop(Transfers.MayWaits (VT d L) (default : HIx 1) O
      ∗ ((sI).view.loc (VT d L) ↦[(sI).view.set]{fullShare} gI)
      ∗ ((xV).view.loc (VT d L) ↦{Transfers.shareDrop (qTile (cL L) (jL L)) 512} m (xLoc d))
      ∗ ((sR).view.loc (VT d L) ↦[rowsFrom 512]{fullShare} t0)
      ∗ batch m d L 512 0) := by
  unfold inv1
  rw [trips1]

/-- Before the first wait: the batch with nothing taken off. -/
theorem inv2_zero (O : CellTallies nD τ sig (HIx 1)) :
    inv2 m d L O 0 () = iprop(Transfers.MayWaits (VT d L) (default : HIx 1) O ∗ batch m d L 512 0 ∗ ∃ W', owes (VT d L) O W') := by
  unfold inv2
  rw [if_pos (by decide), Nat.zero_mul]

/-- After the last wait: every row as delivered, the semaphore at zero. -/
theorem inv2_last (O : CellTallies nD τ sig (HIx 1)) :
    inv2 m d L O k0_t2_loop.trips () = iprop(Transfers.MayWaits (VT d L) (default : HIx 1) O
      ∗ (bigSep Finset.univ (Dlv m d L) ∗ semVal (VT d L, SemLoc.dma cc0_scratch2.sem) 0) ∗ ∃ W', owes (VT d L) O W') := by
  unfold inv2
  rw [trips2, if_neg (by decide)]

/-- ONE VECTOR SUBCORE'S RUN. -/
theorem tile_run (h1 : Trip1 m d L) (O : CellTallies nD τ sig (HIx 1)) (W : Waits sig (HIx 1))
    (g0 : Buf (Elt F) ((sI).view.loc (VT d L))) (t0 : Buf (Elt F) ((sR).view.loc (VT d L))) :
    (iprop(Transfers.MayWaits (VT d L) (default : HIx 1) O
        ∗ ((iV).view.loc (VT d L) ↦{qTile (cL L) (jL L)} m (iLoc d))
        ∗ ((xV).view.loc (VT d L) ↦{qTile (cL L) (jL L)} m (xLoc d))
        ∗ ((oBlkK L).view.loc (VT d L) ↦[(oBlkK L).view.set]{fullShare} m (oLoc d))
        ∗ ((sI).view.loc (VT d L) ↦[(sI).view.set]{fullShare} g0)
        ∗ ((sR).view.loc (VT d L) ↦[(sR).view.set]{fullShare} t0)
        ∗ cells0 d L
        ∗ owes (VT d L) O W) : sProp 𝕄)
      ⊢ wp frame (wpE (defs₀ (F := F)) 𝒱₀ (VT d L) none) Set.univ
          (cc0_gather_kernel L iV (Memref.isWhole_whole _) xV (Memref.isWhole_whole _) oV (Memref.isWhole_whole _)
            sI (Memref.isWhole_whole _) sR (Memref.isWhole_whole _) cc0_scratch2 cc0_scoped0 cc0_scoped1)
          fun _ => iprop(((oBlkK L).view.loc (VT d L) ↦[(oBlkK L).view.set]{fullShare} OUT m d)
            ∗ (∃ g, (sI).view.loc (VT d L) ↦[(sI).view.set]{fullShare} g)
            ∗ (∃ g, (sR).view.loc (VT d L) ↦[(sR).view.set]{fullShare} g)
            ∗ cells0 d L
            ∗ ∃ W', owes (VT d L) O W') := by
  have hgI : ∀ p : Fin 512, (gFetch m d L : S512.Idx → BitVec 32) (ix1 p) = wordAt m d L p := fetched_apply m d L
  iintro ⟨#Hmw, HI, HX, HOb, HG, HT, ⟨Hc0, Hc1, Hc2⟩, HO⟩
  sl_rw [cc0_gather_kernel_eq_skeleton]
  sl_unfold [cc0_gather_kernel_skel]
  -- the fetch of the task's row numbers into the index scratch, and its wait
  sl_exec
  -- the batch of the 512 copies, from the semaphore at zero
  ihave Hc0' := (Entails.of_eq (sem0_eq (F := F) d L)) $$ Hc0
  imod (Transfers.batch_alloc' (Lvl := ℕ) (EC (F := F)) (VT d L) (default : HIx 1) NN (Dlv m d L) (sm := .dma cc0_scratch2.sem) (E := Set.univ)) $$ Hc0' with HB
  -- the loop that starts the copies
  sl_for (inv1 m d L O (gFetch m d L) t0) $$ [HG HX HT HB]
  case region =>
    intro k acc
    exact h1 O (gFetch m d L) t0 hgI k
  · iapply (Entails.of_eq (inv1_zero m d L O (gFetch m d L) t0).symm)
    isplitr; · iexact Hmw
    isplitl [HG]; · iexact HG
    isplitl [HX]; · iexact HX
    isplitl [HT]; · iexact HT
    iexact HB
  iintro %acc1 H1
  ihave H1' := (Entails.of_eq (inv1_last m d L O (gFetch m d L) t0)) $$ H1
  icases H1' with ⟨-, HG, -, -, HB⟩
  -- the 512 waits
  sl_for (inv2 m d L O) $$ [HB HO]
  case region =>
    intro k acc
    exact trip2 m d L O k
  · iapply (Entails.of_eq (inv2_zero m d L O).symm)
    isplitr; · iexact Hmw
    isplitl [HB]; · iexact HB
    iexists _; iexact HO
  iintro %acc2 H2
  ihave H2' := (Entails.of_eq (inv2_last m d L O)) $$ H2
  icases H2' with ⟨-, ⟨HD, Hc0⟩, ⟨%W2, HO⟩⟩
  ihave HT := (rows_join m d L) $$ HD
  -- the row scratch to the task's block of the result, and its wait
  sl_exec
  sl_step
  -- the task's block of the result holds the gathered rows
  ihave HOb' := (Entails.of_eq (pointsTo_congr (out_block m d L (m (oLoc d))))) $$ HOb
  isplitl [HOb']; · iexact HOb'
  isplitl [HG]; · iexists _; iexact HG
  isplitl [HT]; · iexists _; iexact HT
  isplitl [Hc0 Hc1 Hc2]
  · isplitl [Hc0]; · iapply (Entails.of_eq (sem0_eq (F := F) d L).symm); iexact Hc0
    isplitl [Hc1]; · iexact Hc1
    iexact Hc2
  iexists _; iexact HO

end Run

/-- Every vector subcore's run, from the one trip of the loop that starts the copies at every place. -/
theorem tileRun_of_trip1 [∀ e, Nonempty (Elt F e)] [FloatOps F] (h1 : ∀ (d : Dev nD) (L : grid0.Coords), Trip1 m d L) : TileRun m :=
  fun d L O W g0 t0 => tile_run m d L (h1 d L) O W g0 t0

end Cert.Proof.KB

end
-- ==== Proof.KBBody.lean ====
/-
  STARTING THE 512 COPIES: one copy (`issue`), and one trip of the loop that starts sixteen of them (`trip1`).

  The task's `j`-th copy takes the table's row named by its `j`-th row number into row `j` of its row scratch, and all
  512 complete on one semaphore. Started in order, they form one batch whose deliveries are fixed beforehand: copy `j`
  delivers row `j` of the scratch at the ONE function the whole scratch is to hold (`Gbuf`). Starting copy `j` needs
  three things, and the trip hands them on from copy to copy: what the task still holds of the table (a copy keeps one
  read token of it for good: the table is never written and nothing of it is needed back); the rows of the scratch
  from `j` on, of which the copy takes row `j`; and the batch with `j` copies started. That the copy delivers `Gbuf` on
  its row is the value lemma `deliver_row`: the word the body read in that lane IS the task's `j`-th row number
  (`lane_word`, and what the index scratch holds), it names a row of the table (what the launch memory is asked), and
  the copy's source is that row, its destination row `j`.
  The body repeats the site sixteen times per trip with its own names for the offsets; their closed forms are the
  generated `k0_offN_eq`, and every check `k0_chkN` unfolds to the one statement `chk_of_lt`.
-/
import proofs.«217944_g2619930051674_cont_9to1_157_43_alg».proof.Proof.KBInv
import proofs.«217944_g2619930051674_cont_9to1_157_43_alg».proof.Proof.KBViews
import Idealize.ShloMosaic.Lib.SparseCore.Ops
import Idealize.ShloMosaic.Lib.SparseCore.Stream

noncomputable section

namespace Cert.Proof.KB

open Cert.Kernel Cert.Kernel.Gen

open Idealize.ShloMosaic
open Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

local notation "iV" => (Memref.whole Cert.Kernel.main_arg0_scv : Memref Cert.Kernel.sig Kind.scVector Space.hbm Cert.Kernel.S16384 EltTy.i32)
local notation "xV" => (Memref.whole Cert.Kernel.main_arg1_scv : Memref Cert.Kernel.sig Kind.scVector Space.hbm Cert.Kernel.S1000000x64 EltTy.f32)
local notation "oV" => (Memref.whole Cert.Kernel.main_v0_scv : Memref Cert.Kernel.sig Kind.scVector Space.hbm Cert.Kernel.S16384x64 EltTy.f32)
local notation "sI" => (Memref.whole Cert.Kernel.cc0_scratch0 : Memref Cert.Kernel.sig Kind.scVector Space.vmem Cert.Kernel.S512 EltTy.i32)
local notation "sR" => (Memref.whole Cert.Kernel.cc0_scratch1 : Memref Cert.Kernel.sig Kind.scVector Space.vmem Cert.Kernel.S512x64 EltTy.f32)

variable (d : Dev nD) (L : grid0.Coords)

section Issue
variable [FloatOps F]

/-- A row of the row scratch as the target of a copy made by this subcore. -/
abbrev tgtRow (offD : Fin 2 → ℕ) (inbD : ∀ a, offD a + S1x64.size a ≤ S512x64.size a) : DmaTarget nD τ sig (VT d L).2 Space.vmem S64 EltTy.f32 :=
  DmaTarget.here (dstRow offD inbD)

set_option maxHeartbeats 1000000 in
/-- ONE COPY STARTED: the `j`-th copy of the batch, of the table's row named by the task's `j`-th row number into row `j`
    of the row scratch. It takes one read token off what the task still holds of the table (which the copy keeps: the
    table is only read, nothing of it is needed back), row `j` off the rows of the scratch not yet lent, and leaves the
    batch with one more copy started. What the copy will deliver is row `j` at `Gbuf`, because the row number it was
    given is the task's `j`-th and names a row of the table. -/
theorem issue {α : Type} (j j1 : ℕ) (hj : j < 512) (hj1 : j1 = j + 1)
    (offS : Fin 2 → ℕ) (inbS : ∀ a, offS a + S1x64.size a ≤ S1000000x64.size a)
    (offD : Fin 2 → ℕ) (inbD : ∀ a, offD a + S1x64.size a ≤ S512x64.size a)
    (v : BitVec 32) (hoffS : offS = ![v.toNat, 0]) (hoffD : offD = ![j, 0])
    (hv : v.toNat < 1000000) (hval : v = wordAt m d L ⟨j, hj⟩)
    (t0 : Buf (Elt F) ((sR).view.loc (VT d L))) (q : PosShare TreeShare)
    (h1 : (srcRow offS inbS).view.WordExact) (h2 : (tgtRow d L offD inbD).view.WordExact)
    (h3 : DmaTarget.Typed (nD := nD) Space.hbm (SemLoc.dma cc0_scratch2.sem) (tgtRow d L offD inbD))
    (kont : PUnit → Prog (TpuEff nD τ sig (Elt F) Λ₀ (VT d L).2) α) (Q : α → sProp 𝕄) :
    iprop(((xV).view.loc (VT d L) ↦{Transfers.shareDrop q j} m (xLoc d))
        ∗ ((sR).view.loc (VT d L) ↦[rowsFrom j]{fullShare} t0)
        ∗ batch m d L j 0
        ∗ (iprop(((xV).view.loc (VT d L) ↦{Transfers.shareDrop q j1} m (xLoc d))
              ∗ ((sR).view.loc (VT d L) ↦[rowsFrom j1]{fullShare} t0)
              ∗ batch m d L j1 0) -∗ wp frame (wpE (defs₀ (F := F)) 𝒱₀ (VT d L) none) Set.univ (kont ⟨⟩) Q))
      ⊢ wp frame (wpE (defs₀ (F := F)) 𝒱₀ (VT d L) none) Set.univ
          (Prog.op (TpuEff.enqueueDma (srcRow offS inbS) (tgtRow d L offD inbD) (SemLoc.dma cc0_scratch2.sem) h1 h2 h3) kont) Q := by
  subst hj1 hoffD
  iintro ⟨HX, HT, HB, Hk⟩
  -- one read token off the table's share
  ihave HX' := (pointsTo_share (PosShare.mem_left_op_right (Transfers.shareDrop q j))).1 $$ HX
  icases HX' with ⟨HXl, HXr⟩
  ihave HXs := (pointsTo_split_subset (Finset.subset_univ (srcRow offS inbS).view.set)).1 $$ HXr
  icases HXs with ⟨HXs, -⟩
  -- row `j` off the rows not yet lent
  ihave HT' := (pointsTo_split_subset (rowSet_subset_rowsFrom j)).1 $$ HT
  icases HT' with ⟨HTr, HTrest⟩
  rw [rowsFrom_sdiff, ← set_dstRow ![j, 0] inbD j hj rfl]
  -- what the copy delivers is row `j` at the one function the whole scratch will hold
  have hD : iprop(((dstRow ![j, 0] inbD).view.loc (VT d L) ↦[(dstRow ![j, 0] inbD).view.set]{fullShare}
          ((dstRow ![j, 0] inbD).view.write (Elt F) t0 (ReadAs.same.apply ((srcRow offS inbS).view.read (Elt F) (m (xLoc d)))) Finset.univ))
        ∗ ((srcRow offS inbS).view.loc (VT d L) ↦[(srcRow offS inbS).view.set]{Transfers.shareTokN q j} m (xLoc d)))
      ⊢ Dlv m d L ⟨j, hj⟩ := by
    refine sep_elim_left.trans (Entails.of_eq ?_)
    unfold Dlv
    exact pointsTo_congr (deliver_row m d L ![j, 0] inbD ⟨j, hj⟩ rfl offS inbS v hoffS hv hval t0)
  have key := Transfers.wp_dmaBatch (EC (F := F)) (defs := defs₀ (F := F)) 𝒱₀ (VT d L) none (Q := Q)
    (src := srcRow offS inbS) (via := ReadAs.same) (dst := dstRow ![j, 0] inbD) (sm := SemLoc.dma cc0_scratch2.sem)
    (hsrc := h1) (hdst := h2) (hsem := h3) (k := kont) (q := Transfers.shareTokN q j) (fs := m (xLoc d))
    (Sd := (dstRow ![j, 0] inbD).view.set) (fd := t0) (D := Dlv m d L) (j := j) (u := 0)
    (default : HIx 1) NN rfl (Finset.Subset.refl _) hj (Nat.zero_le _) hD
  iapply (key) $$ [HXs HTr HB] [HXl HTrest Hk]
  · isplitl [HXs]; · iexact HXs
    isplitl [HTr]; · iexact HTr
    iexact HB
  · iintro HB
    iapply Hk
    isplitl [HXl]; · iexact HXl
    isplitl [HTrest]; · iexact HTrest
    iexact HB

end Issue

section Trip1
variable [FloatOps F]

/-- A word below the number of rows names a row of the table: the body's check on a row number, whichever of its sixteen
    copies of the check it is (each unfolds to this). -/
theorem chk_of_lt (v : BitVec 32) (h : v.toNat < 1000000) : ∀ a, (![v.toNat, 0] : Fin 2 → ℕ) a + S1x64.size a ≤ S1000000x64.size a := by
  intro a; fin_cases a
  · show v.toNat + 1 ≤ 1000000; omega
  · show 0 + 64 ≤ 64; omega

set_option hygiene false in
/-- One of a trip's sixteen sites: the lane's word is read and its check is met (the word names a row of the table); the
    copy is started as copy number `j` of the batch; the table's remaining share, the scratch's remaining rows and the
    batch come back, one copy further. -/
local macro "site " j:term " ; " j1:term " ; " r:term " ; " hs:term " ; " hoff:term : tactic => `(tactic| (
  sl_exec
  iapply (issue m d L $j $j1 (by omega) (by omega) _ _ _ _ (lane d L gI k ![$r] $hs) rfl $hoff
      (by rw [hw $j $r ![$r] $hs (by omega) (by omega) rfl (by omega)]; exact hlt _)
      (hw $j $r ![$r] $hs (by omega) (by omega) rfl (by omega)) t0 (qTile (cL L) (jL L)) _ _ _ _ _)
  isplitl [HX]
  · iexact HX
  isplitl [HT]
  · iexact HT
  isplitl [HB]
  · iexact HB
  iintro ⟨HX, HT, HB⟩))

set_option maxHeartbeats 8000000 in
/-- ONE TRIP of the loop that starts the copies: sixteen row numbers read back from the index scratch, sixteen copies
    started — copies `16 k … 16 k + 15` of the batch, each of the table's row named by the task's row number of that
    position (which names a row of the table, by what the launch memory is asked) into the row of that position. -/
theorem trip1 (hpre : PreOK m) : Trip1 m d L := by
  intro O gI t0 hgI k
  have hk : k.val < 32 := by
    have h32 : k0_t1_loop.trips = 32 := by decide
    have := k.isLt; omega
  -- the word in a lane is the task's row number of that position, and names a row of the table
  have hw : ∀ (j r : ℕ) (offr : Fin 1 → ℕ) (hs : S16.Slices offr S1) (hj : j < 512) (hr : r < 16) (hoffr : offr = ![r])
      (hjr : j = 16 * k.val + r), lane d L gI k offr hs = wordAt m d L ⟨j, hj⟩ := by
    intro j r offr hs hj hr hoffr hjr
    subst hjr hoffr
    unfold lane
    rw [lane_word d L gI k ⟨r, hr⟩ ![r] rfl hs, hgI]
  have hlt : ∀ p, (wordAt m d L p).toNat < 1000000 := fun p => hpre d ⟨base L + p.val, base_add_lt L p⟩
  unfold inv1
  rw [show 16 * (k.val + 1) = 16 * k.val + 16 from by omega]
  iintro ⟨#Hmw, HG, HX, HT, HB⟩
  -- the sixteen checks, each on its lane's word
  have hc0 : k0_chk1 (lane d L gI k ![0] slices_S16_o0_S1) := chk_of_lt _ (by rw [hw (16 * k.val + 0) 0 _ _ (by omega) (by omega) rfl (by omega)]; exact hlt _)
  have hc1 : k0_chk2 (lane d L gI k ![1] slices_S16_o1_S1) := chk_of_lt _ (by rw [hw (16 * k.val + 1) 1 _ _ (by omega) (by omega) rfl (by omega)]; exact hlt _)
  have hc2 : k0_chk3 (lane d L gI k ![2] slices_S16_o2_S1) := chk_of_lt _ (by rw [hw (16 * k.val + 2) 2 _ _ (by omega) (by omega) rfl (by omega)]; exact hlt _)
  have hc3 : k0_chk4 (lane d L gI k ![3] slices_S16_o3_S1) := chk_of_lt _ (by rw [hw (16 * k.val + 3) 3 _ _ (by omega) (by omega) rfl (by omega)]; exact hlt _)
  have hc4 : k0_chk5 (lane d L gI k ![4] slices_S16_o4_S1) := chk_of_lt _ (by rw [hw (16 * k.val + 4) 4 _ _ (by omega) (by omega) rfl (by omega)]; exact hlt _)
  have hc5 : k0_chk6 (lane d L gI k ![5] slices_S16_o5_S1) := chk_of_lt _ (by rw [hw (16 * k.val + 5) 5 _ _ (by omega) (by omega) rfl (by omega)]; exact hlt _)
  have hc6 : k0_chk7 (lane d L gI k ![6] slices_S16_o6_S1) := chk_of_lt _ (by rw [hw (16 * k.val + 6) 6 _ _ (by omega) (by omega) rfl (by omega)]; exact hlt _)
  have hc7 : k0_chk8 (lane d L gI k ![7] slices_S16_o7_S1) := chk_of_lt _ (by rw [hw (16 * k.val + 7) 7 _ _ (by omega) (by omega) rfl (by omega)]; exact hlt _)
  have hc8 : k0_chk9 (lane d L gI k ![8] slices_S16_o8_S1) := chk_of_lt _ (by rw [hw (16 * k.val + 8) 8 _ _ (by omega) (by omega) rfl (by omega)]; exact hlt _)
  have hc9 : k0_chk10 (lane d L gI k ![9] slices_S16_o9_S1) := chk_of_lt _ (by rw [hw (16 * k.val + 9) 9 _ _ (by omega) (by omega) rfl (by omega)]; exact hlt _)
  have hc10 : k0_chk11 (lane d L gI k ![10] slices_S16_o10_S1) := chk_of_lt _ (by rw [hw (16 * k.val + 10) 10 _ _ (by omega) (by omega) rfl (by omega)]; exact hlt _)
  have hc11 : k0_chk12 (lane d L gI k ![11] slices_S16_o11_S1) := chk_of_lt _ (by rw [hw (16 * k.val + 11) 11 _ _ (by omega) (by omega) rfl (by omega)]; exact hlt _)
  have hc12 : k0_chk13 (lane d L gI k ![12] slices_S16_o12_S1) := chk_of_lt _ (by rw [hw (16 * k.val + 12) 12 _ _ (by omega) (by omega) rfl (by omega)]; exact hlt _)
  have hc13 : k0_chk14 (lane d L gI k ![13] slices_S16_o13_S1) := chk_of_lt _ (by rw [hw (16 * k.val + 13) 13 _ _ (by omega) (by omega) rfl (by omega)]; exact hlt _)
  have hc14 : k0_chk15 (lane d L gI k ![14] slices_S16_o14_S1) := chk_of_lt _ (by rw [hw (16 * k.val + 14) 14 _ _ (by omega) (by omega) rfl (by omega)]; exact hlt _)
  have hc15 : k0_chk16 (lane d L gI k ![15] slices_S16_o15_S1) := chk_of_lt _ (by rw [hw (16 * k.val + 15) 15 _ _ (by omega) (by omega) rfl (by omega)]; exact hlt _)
  sl_unfold [k0_t1_body]
  -- the sixteen copies, in the order the body starts them
  site 16 * k.val + 0 ; 16 * k.val + 0 + 1 ; 0 ; slices_S16_o0_S1 ; k0_off5_eq k ⟨0, by decide⟩
  site 16 * k.val + 0 + 1 ; 16 * k.val + 0 + 2 ; 1 ; slices_S16_o1_S1 ; k0_off7_eq k ⟨0, by decide⟩
  site 16 * k.val + 0 + 2 ; 16 * k.val + 0 + 3 ; 2 ; slices_S16_o2_S1 ; k0_off9_eq k ⟨0, by decide⟩
  site 16 * k.val + 0 + 3 ; 16 * k.val + 0 + 4 ; 3 ; slices_S16_o3_S1 ; k0_off11_eq k ⟨0, by decide⟩
  site 16 * k.val + 0 + 4 ; 16 * k.val + 0 + 5 ; 4 ; slices_S16_o4_S1 ; k0_off13_eq k ⟨0, by decide⟩
  site 16 * k.val + 0 + 5 ; 16 * k.val + 0 + 6 ; 5 ; slices_S16_o5_S1 ; k0_off15_eq k ⟨0, by decide⟩
  site 16 * k.val + 0 + 6 ; 16 * k.val + 0 + 7 ; 6 ; slices_S16_o6_S1 ; k0_off17_eq k ⟨0, by decide⟩
  site 16 * k.val + 0 + 7 ; 16 * k.val + 0 + 8 ; 7 ; slices_S16_o7_S1 ; k0_off19_eq k ⟨0, by decide⟩
  site 16 * k.val + 0 + 8 ; 16 * k.val + 0 + 9 ; 8 ; slices_S16_o8_S1 ; k0_off21_eq k ⟨0, by decide⟩
  site 16 * k.val + 0 + 9 ; 16 * k.val + 0 + 10 ; 9 ; slices_S16_o9_S1 ; k0_off23_eq k ⟨0, by decide⟩
  site 16 * k.val + 0 + 10 ; 16 * k.val + 0 + 11 ; 10 ; slices_S16_o10_S1 ; k0_off25_eq k ⟨0, by decide⟩
  site 16 * k.val + 0 + 11 ; 16 * k.val + 0 + 12 ; 11 ; slices_S16_o11_S1 ; k0_off27_eq k ⟨0, by decide⟩
  site 16 * k.val + 0 + 12 ; 16 * k.val + 0 + 13 ; 12 ; slices_S16_o12_S1 ; k0_off29_eq k ⟨0, by decide⟩
  site 16 * k.val + 0 + 13 ; 16 * k.val + 0 + 14 ; 13 ; slices_S16_o13_S1 ; k0_off31_eq k ⟨0, by decide⟩
  site 16 * k.val + 0 + 14 ; 16 * k.val + 15 ; 14 ; slices_S16_o14_S1 ; k0_off33_eq k ⟨0, by decide⟩
  site 16 * k.val + 15 ; 16 * k.val + 16 ; 15 ; slices_S16_o15_S1 ; k0_off35_eq k
  -- the trip's end: the state before the next trip
  sl_exec
  sl_step
  isplitl []
  · iexact Hmw
  isplitl [HG]
  · iexact HG
  isplitl [HX]
  · iexact HX
  isplitl [HT]
  · iexact HT
  iexact HB

end Trip1

end Cert.Proof.KB

end
-- ==== Proof.lean ====
/-
  THE CLAIM: a gather of table rows on the SparseCores computes what `jnp.take` computes.

  Both programs take a list of 16384 row numbers and a table of 1000000 rows of 64 numbers and return, for each
  position of the list, the table's row of that number (`Cert.Spec.rows`, Proof/Spec.lean). The precondition says every
  row number is between 0 and 999999 (and every table entry finite, which nothing here uses: rows are only moved).

  THE KERNEL. Thirty-two vector subcores (two SparseCores of sixteen) share the list evenly: subcore `i` of SparseCore
  `c` takes the 512 positions from `512 (2 i + c)` on. It copies its 512 row numbers into a scratch of its own,
  starts for each a copy of the table's row of that number into the matching row of a second scratch — all 512
  copies on one semaphore — waits 512 times, and copies the second scratch into its 512 rows of the result. In the
  machine's model a wait only takes an amount off the semaphore and copies complete in any order, so the first 511
  waits say nothing; the last one says every copy has landed, because by then every unit any of them could add has been
  taken. Nothing touches a copy's source or destination between the first start and the last wait, so the run is
  determined: the second scratch ends holding, row by row, the table's rows named by the task's row numbers, and the
  task's block of the result is that. The thirty-two blocks are disjoint and cover the result; the two arguments are
  only read, through read shares dealt from the TensorCore to the SparseCores to their subcores, the TensorCore keeping
  a share of each with which it reads them unchanged at the end. Each row number names a row of the table because the
  precondition says so: that is what lets each copy's source slice exist (the body's sixteen checks per trip).
  The same argument, word for word, at the word-level instance gives the printed kernel's frame; the idealization
  rewrote nothing, so `preserves` is trivial.

  THE REFERENCE wraps negative row numbers, gathers with clamping, and selects a NaN where the row number was out of
  range; between 0 and 999999 the wrap, the clamp and the select are all inert, and the gather reads the row named.

  So both results are `Cert.Spec.rows` of the arguments, and the arguments agree.
-/
import proofs.«217944_g2619930051674_cont_9to1_157_43_alg».proof.Defs
import proofs.«217944_g2619930051674_cont_9to1_157_43_alg».proof.Proof.Gen.Kernel
import proofs.«217944_g2619930051674_cont_9to1_157_43_alg».proof.Proof.Gen.Kernel.Skeleton
import proofs.«217944_g2619930051674_cont_9to1_157_43_alg».proof.Proof.Gen.KernelIdeal
import proofs.«217944_g2619930051674_cont_9to1_157_43_alg».proof.Proof.Gen.KernelIdeal.Skeleton
import proofs.«217944_g2619930051674_cont_9to1_157_43_alg».proof.Proof.Gen.ReferenceIdeal
import proofs.«217944_g2619930051674_cont_9to1_157_43_alg».proof.Proof.Gen.Pre_input_domain
import Idealize.ShloMosaic.Adequacy
import Idealize.ShloMosaic.Init
import proofs.«217944_g2619930051674_cont_9to1_157_43_alg».proof.Proof.PreRange
import proofs.«217944_g2619930051674_cont_9to1_157_43_alg».proof.Proof.RefRun
import proofs.«217944_g2619930051674_cont_9to1_157_43_alg».proof.Proof.KILaunch
import proofs.«217944_g2619930051674_cont_9to1_157_43_alg».proof.Proof.KIObl
import proofs.«217944_g2619930051674_cont_9to1_157_43_alg».proof.Proof.KIRun
import proofs.«217944_g2619930051674_cont_9to1_157_43_alg».proof.Proof.KIBody
import proofs.«217944_g2619930051674_cont_9to1_157_43_alg».proof.Proof.KBLaunch
import proofs.«217944_g2619930051674_cont_9to1_157_43_alg».proof.Proof.KBObl
import proofs.«217944_g2619930051674_cont_9to1_157_43_alg».proof.Proof.KBRun
import proofs.«217944_g2619930051674_cont_9to1_157_43_alg».proof.Proof.KBBody

noncomputable section

namespace Cert.Proof

open Idealize.ShloMosaic Idealize.SL.Sem

/-- Under the precondition every row number of the idealized kernel's list names a row of the table. -/
theorem preOK_KI (m : (ℓ : Loc Cert.KernelIdeal.nD Cert.KernelIdeal.τ Cert.KernelIdeal.sig) → Buf (Elt Ideal) ℓ)
    (h : Cert.Pre_KernelIdeal (hPre_input_domain := Cert.Pre_input_domain.Gen.facts) m) : KI.PreOK (F := Ideal) m :=
  fun d p => Cert.PreRange.uid_lt (F := Ideal) _ _ (h d) p

/-- The same for the printed kernel's list. -/
theorem preOK_KB (m : (ℓ : Loc Cert.Kernel.nD Cert.Kernel.τ Cert.Kernel.sig) → Buf (Elt Bits) ℓ)
    (h : Cert.Pre_Kernel (hPre_input_domain := Cert.Pre_input_domain.Gen.facts) m) : KB.PreOK (F := Bits) m :=
  fun d p => Cert.PreRange.uid_lt (F := Bits) _ _ (h d) p

/-- The idealized kernel's run: it ends with the result at the gathered rows and the arguments unchanged. -/
theorem run_KI (m : (ℓ : Loc Cert.KernelIdeal.nD Cert.KernelIdeal.τ Cert.KernelIdeal.sig) → Buf (Elt Ideal) ℓ) (ρ : Dev Cert.KernelIdeal.nD → PrngReg)
    (h : Cert.Pre_KernelIdeal (hPre_input_domain := Cert.Pre_input_domain.Gen.facts) m) :
    θ_run (Cert.KernelIdeal.defs (F := Ideal)) (Cert.KernelIdeal.threads (F := Ideal)) ⟨m, fun _ => 0, ρ⟩ (KI.QC m) :=
  KI.run_main m ρ (KI.tileObl m (fun d L O W g0 t0 => KI.tile_run m d L (KI.trip1 m d L (preOK_KI m h)) O W g0 t0) KI.facts)

/-- The printed kernel's run, likewise. -/
theorem run_KB (m : (ℓ : Loc Cert.Kernel.nD Cert.Kernel.τ Cert.Kernel.sig) → Buf (Elt Bits) ℓ) (ρ : Dev Cert.Kernel.nD → PrngReg)
    (h : Cert.Pre_Kernel (hPre_input_domain := Cert.Pre_input_domain.Gen.facts) m) :
    θ_run (Cert.Kernel.defs (F := Bits)) (Cert.Kernel.threads (F := Bits)) ⟨m, fun _ => 0, ρ⟩ (KB.QC m) :=
  KB.run_main m ρ (KB.tileObl m (fun d L O W g0 t0 => KB.tile_run m d L (KB.trip1 m d L (preOK_KB m h)) O W g0 t0) KB.facts)

theorem claim : Cert.Claim := ⟨Cert.Kernel.Gen.facts, Cert.KernelIdeal.Gen.facts, Cert.ReferenceIdeal.Gen.facts, Cert.Pre_input_domain.Gen.facts,
  -- the three frames: each run with the value dropped
  fun m ρ h => (θ_run _ _ _).mono (fun _ hh c => (hh c).2) (run_KB m ρ h),
  fun m ρ h => (θ_run _ _ _).mono (fun _ hh c => (hh c).2) (run_KI m ρ h),
  fun m ρ h => (θ_run _ _ _).mono (fun _ hh c => (hh c).2) (Cert.ReferenceIdeal.RefRun.run m ρ h),
  -- the idealization rewrote nothing
  trivial,
  -- both results are the gathered rows of arguments that agree
  fun m ρ m' ρ' h hagree => ⟨fun c => KI.OUT m c, run_KI m ρ h,
    (θ_run _ _ _).mono (fun _ hh c => ⟨by rw [(hh c).1, (hagree c).1, (hagree c).2]; rfl, (hh c).2⟩)
      (Cert.ReferenceIdeal.RefRun.run m' ρ' (fun c => by rw [(hagree c).1, (hagree c).2]; exact h c))⟩⟩

end Cert.Proof

end
